-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S3x64x64 : Shape := ⟨3, ![3, 64, 64]⟩
abbrev S3x64 : Shape := ⟨2, ![3, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part1 {F : FTy → Type} [FloatOps F] (main_arg5 : FVec F S3x64 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg5
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S3x64x64 .f32) (main_arg3 : FVec F S3x64 .f32) (main_arg4 : FVec F S3x64x64 .f32) (main_arg5 : FVec F S3x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x64x64 .f32 := Host.absf main_arg2
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg3
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S3x64x64 .f32 := Host.absf main_arg4
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S3x64x64 : Shape := ⟨3, ![3, 64, 64]⟩
abbrev S3x64 : Shape := ⟨2, ![3, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S5000x64 : Shape := ⟨2, ![5000, 64]⟩
abbrev S5000 : Shape := ⟨1, ![5000]⟩
abbrev S5000x1 : Shape := ⟨2, ![5000, 1]⟩
abbrev S100000x256 : Shape := ⟨2, ![100000, 256]⟩

abbrev nBuf : Space → Nat
  | .hbm => 128
  | .vmem => 36
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S3x64x64, .f32⟩
  | .hbm, ⟨3, _⟩ => ⟨S3x64, .f32⟩
  | .hbm, ⟨4, _⟩ => ⟨S3x64x64, .f32⟩
  | .hbm, ⟨5, _⟩ => ⟨S3x64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000, .f32⟩
  | .hbm, ⟨42, _⟩ => ⟨S1600000, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .f32⟩
  | .hbm, ⟨52, _⟩ => ⟨S1600000x1, .f32⟩
  | .hbm, ⟨53, _⟩ => ⟨S1600000x64, .f32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S1x64x64, .f32⟩
  | .hbm, ⟨60, _⟩ => ⟨S64x64, .f32⟩
  | .hbm, ⟨61, _⟩ => ⟨S1x64, .f32⟩
  | .hbm, ⟨62, _⟩ => ⟨S64, .f32⟩
  | .hbm, ⟨63, _⟩ => ⟨S1x64x64, .f32⟩
  | .hbm, ⟨64, _⟩ => ⟨S64x64, .f32⟩
  | .hbm, ⟨65, _⟩ => ⟨S1x64, .f32⟩
  | .hbm, ⟨66, _⟩ => ⟨S64, .f32⟩
  | .hbm, ⟨67, _⟩ => ⟨S1x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x64, .f32⟩
  | .hbm, ⟨80, _⟩ => ⟨S1600000x1, .f32⟩
  | .hbm, ⟨81, _⟩ => ⟨S1600000x64, .f32⟩
  | .hbm, ⟨82, _⟩ => ⟨S1600000x64, .f32⟩
  | .hbm, ⟨83, _⟩ => ⟨S_, .f32⟩
  | .hbm, ⟨84, _⟩ => ⟨S100000x64, .f32⟩
  | .hbm, ⟨85, _⟩ => ⟨S1600000x1, .i32⟩
  | .hbm, ⟨86, _⟩ => ⟨S100000x64, .f32⟩
  | .hbm, ⟨87, _⟩ => ⟨S1x64x64, .f32⟩
  | .hbm, ⟨88, _⟩ => ⟨S64x64, .f32⟩
  | .hbm, ⟨89, _⟩ => ⟨S1x64, .f32⟩
  | .hbm, ⟨90, _⟩ => ⟨S64, .f32⟩
  | .hbm, ⟨91, _⟩ => ⟨S1x64x64, .f32⟩
  | .hbm, ⟨92, _⟩ => ⟨S64x64, .f32⟩
  | .hbm, ⟨93, _⟩ => ⟨S1x64, .f32⟩
  | .hbm, ⟨94, _⟩ => ⟨S64, .f32⟩
  | .hbm, ⟨95, _⟩ => ⟨S1x64, .f32⟩
  | .hbm, ⟨96, _⟩ => ⟨S1x64, .f32⟩
  | .hbm, ⟨97, _⟩ => ⟨S100000x64, .f32⟩
  | .hbm, ⟨98, _⟩ => ⟨S100000x64, .f32⟩
  | .hbm, ⟨99, _⟩ => ⟨S_, .i32⟩
  | .hbm, ⟨100, _⟩ => ⟨S1600000, .i32⟩
  | .hbm, ⟨101, _⟩ => ⟨S1600000, .i1⟩
  | .hbm, ⟨102, _⟩ => ⟨S_, .i32⟩
  | .hbm, ⟨103, _⟩ => ⟨S1600000, .i32⟩
  | .hbm, ⟨104, _⟩ => ⟨S1600000, .i32⟩
  | .hbm, ⟨105, _⟩ => ⟨S1600000, .i32⟩
  | .hbm, ⟨106, _⟩ => ⟨S1600000x1, .i32⟩
  | .hbm, ⟨107, _⟩ => ⟨S1600000x64, .f32⟩
  | .hbm, ⟨108, _⟩ => ⟨S1600000x1, .f32⟩
  | .hbm, ⟨109, _⟩ => ⟨S1600000x64, .f32⟩
  | .hbm, ⟨110, _⟩ => ⟨S1600000x64, .f32⟩
  | .hbm, ⟨111, _⟩ => ⟨S_, .f32⟩
  | .hbm, ⟨112, _⟩ => ⟨S100000x64, .f32⟩
  | .hbm, ⟨113, _⟩ => ⟨S1600000x1, .i32⟩
  | .hbm, ⟨114, _⟩ => ⟨S100000x64, .f32⟩
  | .hbm, ⟨115, _⟩ => ⟨S1x64x64, .f32⟩
  | .hbm, ⟨116, _⟩ => ⟨S64x64, .f32⟩
  | .hbm, ⟨117, _⟩ => ⟨S1x64, .f32⟩
  | .hbm, ⟨118, _⟩ => ⟨S64, .f32⟩
  | .hbm, ⟨119, _⟩ => ⟨S1x64x64, .f32⟩
  | .hbm, ⟨120, _⟩ => ⟨S64x64, .f32⟩
  | .hbm, ⟨121, _⟩ => ⟨S1x64, .f32⟩
  | .hbm, ⟨122, _⟩ => ⟨S64, .f32⟩
  | .hbm, ⟨123, _⟩ => ⟨S1x64, .f32⟩
  | .hbm, ⟨124, _⟩ => ⟨S1x64, .f32⟩
  | .hbm, ⟨125, _⟩ => ⟨S100000x64, .f32⟩
  | .hbm, ⟨126, _⟩ => ⟨S100000x64, .f32⟩
  | .hbm, ⟨127, _⟩ => ⟨S100000x256, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S64x64, .f32⟩
  | .local _ .vmem, ⟨29, _⟩ => ⟨S1x64, .f32⟩
  | .local _ .vmem, ⟨30, _⟩ => ⟨S64x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50_0 : Ref sig .tc := ⟨.hbm, 69, rfl⟩
abbrev main_v50_1 : Ref sig .tc := ⟨.hbm, 70, rfl⟩
abbrev main_c_9 : Ref sig .tc := ⟨.hbm, 71, rfl⟩
abbrev main_v51 : Ref sig .tc := ⟨.hbm, 72, rfl⟩
abbrev main_v52 : Ref sig .tc := ⟨.hbm, 73, rfl⟩
abbrev main_c_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74_0 : Ref sig .tc := ⟨.hbm, 97, rfl⟩
abbrev main_v74_1 : Ref sig .tc := ⟨.hbm, 98, rfl⟩
abbrev main_c_12 : Ref sig .tc := ⟨.hbm, 99, rfl⟩
abbrev main_v75 : Ref sig .tc := ⟨.hbm, 100, rfl⟩
abbrev main_v76 : Ref sig .tc := ⟨.hbm, 101, rfl⟩
abbrev main_c_13 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_14 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98_0 : Ref sig .tc := ⟨.hbm, 125, rfl⟩
abbrev main_v98_1 : Ref sig .tc := ⟨.hbm, 126, rfl⟩
abbrev main_v99 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem6_1 : DmaSem sig := 33
abbrev cc2_sem7_0 : DmaSem sig := 34
abbrev cc2_sem7_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S5000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  bitsLt_bf16_f32 : FTy.bits .bf16 < FTy.bits .f32
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  concatenates_S100000x64_S100000x64_S100000x64_S100000x64_S100000x256_d1 : Shape.Concatenates [S100000x64, S100000x64, S100000x64, S100000x64] S100000x256 1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S100000x64.size a
  hwx0_7 : ∀ i : grid0.Coords, EltTy.bits .f32 = 32 ∨ (Rect.block (s := S100000x64) S5000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S100000x64.size a
  hwx1_7 : ∀ i : grid1.Coords, EltTy.bits .f32 = 32 ∨ (Rect.block (s := S100000x64) S5000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x64.size a ≤ S100000x64.size a
  hwx2_7 : ∀ i : grid2.Coords, EltTy.bits .f32 = 32 ∨ (Rect.block (s := S100000x64) S5000x64.size (cc2_transform_7 i) (hinb2_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v39) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v41) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v48) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v45) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v49) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v50_0) S5000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v50_1) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v50_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v63) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v65) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v72) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v69) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v73) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v74_0) S5000x64.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v74_1) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v74_0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v87) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v89) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v96) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v93) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v97) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v98_0) S5000x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v98_1) S5000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S3x64x64 : Shape := ⟨3, ![3, 64, 64]⟩
abbrev S3x64 : Shape := ⟨2, ![3, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S100000x1 : Shape := ⟨2, ![100000, 1]⟩
abbrev S100000x256 : Shape := ⟨2, ![100000, 256]⟩

abbrev nBuf : Space → Nat
  | .hbm => 224
  | .vmem => 0
  | .smem => 0
  | _ => 0

abbrev hbmTy0_0 (i : Nat) : BufTy := match i % 128 with
  | 0 => ⟨S100000x64, .f32⟩
  | 1 => ⟨S2x1600000, .i32⟩
  | 2 => ⟨S3x64x64, .f32⟩
  | 3 => ⟨S3x64, .f32⟩
  | 4 => ⟨S3x64x64, .f32⟩
  | 5 => ⟨S3x64, .f32⟩
  | 6 => ⟨S1x1600000, .i32⟩
  | 7 => ⟨S1600000, .i32⟩
  | 8 => ⟨S1x1600000, .i32⟩
  | 9 => ⟨S1600000, .i32⟩
  | 10 => ⟨S_, .f32⟩
  | 11 => ⟨S1600000, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S100000, .i1⟩
  | 19 => ⟨S100000, .f32⟩
  | 20 => ⟨S_, .f32⟩
  | 21 => ⟨S_, .f32⟩
  | 22 => ⟨S100000, .f32⟩
  | 23 => ⟨S100000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S1600000x1, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x64, .f32⟩
  | 53 => ⟨S1600000x64, .f32⟩
  | 54 => ⟨S1600000x64, .f32⟩
  | 55 => ⟨S_, .f32⟩
  | 56 => ⟨S100000x64, .f32⟩
  | 57 => ⟨S1600000x1, .i32⟩
  | 58 => ⟨S100000x64, .f32⟩
  | 59 => ⟨S1x64x64, .f32⟩
  | 60 => ⟨S64x64, .f32⟩
  | 61 => ⟨S100000x64, .f32⟩
  | 62 => ⟨S1x64, .f32⟩
  | 63 => ⟨S64, .f32⟩
  | 64 => ⟨S1x64, .f32⟩
  | 65 => ⟨S100000x64, .f32⟩
  | 66 => ⟨S100000x64, .f32⟩
  | 67 => ⟨S_, .f32⟩
  | 68 => ⟨S_, .f32⟩
  | 69 => ⟨S100000x64, .f32⟩
  | 70 => ⟨S100000x64, .i1⟩
  | 71 => ⟨S_, .f32⟩
  | 72 => ⟨S100000x64, .f32⟩
  | 73 => ⟨S100000x64, .f32⟩
  | 74 => ⟨S100000x64, .f32⟩
  | 75 => ⟨S100000x64, .f32⟩
  | 76 => ⟨S1x64x64, .f32⟩
  | 77 => ⟨S64x64, .f32⟩
  | 78 => ⟨S100000x64, .f32⟩
  | 79 => ⟨S1x64, .f32⟩
  | 80 => ⟨S64, .f32⟩
  | 81 => ⟨S1x64, .f32⟩
  | 82 => ⟨S100000x64, .f32⟩
  | 83 => ⟨S100000x64, .f32⟩
  | 84 => ⟨S_, .f32⟩
  | 85 => ⟨S_, .f32⟩
  | 86 => ⟨S100000x64, .f32⟩
  | 87 => ⟨S100000x64, .i1⟩
  | 88 => ⟨S_, .f32⟩
  | 89 => ⟨S100000x64, .f32⟩
  | 90 => ⟨S100000x64, .f32⟩
  | 91 => ⟨S100000x64, .f32⟩
  | 92 => ⟨S100000x64, .f32⟩
  | 93 => ⟨S100000x64, .f32⟩
  | 94 => ⟨S_, .f32⟩
  | 95 => ⟨S100000, .f32⟩
  | 96 => ⟨S100000x1, .f32⟩
  | 97 => ⟨S_, .f32⟩
  | 98 => ⟨S100000x1, .f32⟩
  | 99 => ⟨S100000x1, .f32⟩
  | 100 => ⟨S100000x1, .f32⟩
  | 101 => ⟨S100000x64, .f32⟩
  | 102 => ⟨S100000x64, .f32⟩
  | 103 => ⟨S1600000x1, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000x64, .f32⟩
  | 113 => ⟨S1600000x64, .f32⟩
  | 114 => ⟨S1600000x64, .f32⟩
  | 115 => ⟨S_, .f32⟩
  | 116 => ⟨S100000x64, .f32⟩
  | 117 => ⟨S1600000x1, .i32⟩
  | 118 => ⟨S100000x64, .f32⟩
  | 119 => ⟨S1x64x64, .f32⟩
  | 120 => ⟨S64x64, .f32⟩
  | 121 => ⟨S100000x64, .f32⟩
  | 122 => ⟨S1x64, .f32⟩
  | 123 => ⟨S64, .f32⟩
  | 124 => ⟨S1x64, .f32⟩
  | 125 => ⟨S100000x64, .f32⟩
  | 126 => ⟨S100000x64, .f32⟩
  | 127 => ⟨S_, .f32⟩
  | _ => ⟨S100000x64, .f32⟩

abbrev hbmTy0_1 (i : Nat) : BufTy := match i % 128 with
  | 0 => ⟨S_, .f32⟩
  | 1 => ⟨S100000x64, .f32⟩
  | 2 => ⟨S100000x64, .i1⟩
  | 3 => ⟨S_, .f32⟩
  | 4 => ⟨S100000x64, .f32⟩
  | 5 => ⟨S100000x64, .f32⟩
  | 6 => ⟨S100000x64, .f32⟩
  | 7 => ⟨S100000x64, .f32⟩
  | 8 => ⟨S1x64x64, .f32⟩
  | 9 => ⟨S64x64, .f32⟩
  | 10 => ⟨S100000x64, .f32⟩
  | 11 => ⟨S1x64, .f32⟩
  | 12 => ⟨S64, .f32⟩
  | 13 => ⟨S1x64, .f32⟩
  | 14 => ⟨S100000x64, .f32⟩
  | 15 => ⟨S100000x64, .f32⟩
  | 16 => ⟨S_, .f32⟩
  | 17 => ⟨S_, .f32⟩
  | 18 => ⟨S100000x64, .f32⟩
  | 19 => ⟨S100000x64, .i1⟩
  | 20 => ⟨S_, .f32⟩
  | 21 => ⟨S100000x64, .f32⟩
  | 22 => ⟨S100000x64, .f32⟩
  | 23 => ⟨S100000x64, .f32⟩
  | 24 => ⟨S100000x64, .f32⟩
  | 25 => ⟨S100000x64, .f32⟩
  | 26 => ⟨S_, .f32⟩
  | 27 => ⟨S100000, .f32⟩
  | 28 => ⟨S100000x1, .f32⟩
  | 29 => ⟨S_, .f32⟩
  | 30 => ⟨S100000x1, .f32⟩
  | 31 => ⟨S100000x1, .f32⟩
  | 32 => ⟨S100000x1, .f32⟩
  | 33 => ⟨S100000x64, .f32⟩
  | 34 => ⟨S100000x64, .f32⟩
  | 35 => ⟨S1600000x1, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000x64, .f32⟩
  | 45 => ⟨S1600000x64, .f32⟩
  | 46 => ⟨S1600000x64, .f32⟩
  | 47 => ⟨S_, .f32⟩
  | 48 => ⟨S100000x64, .f32⟩
  | 49 => ⟨S1600000x1, .i32⟩
  | 50 => ⟨S100000x64, .f32⟩
  | 51 => ⟨S1x64x64, .f32⟩
  | 52 => ⟨S64x64, .f32⟩
  | 53 => ⟨S100000x64, .f32⟩
  | 54 => ⟨S1x64, .f32⟩
  | 55 => ⟨S64, .f32⟩
  | 56 => ⟨S1x64, .f32⟩
  | 57 => ⟨S100000x64, .f32⟩
  | 58 => ⟨S100000x64, .f32⟩
  | 59 => ⟨S_, .f32⟩
  | 60 => ⟨S_, .f32⟩
  | 61 => ⟨S100000x64, .f32⟩
  | 62 => ⟨S100000x64, .i1⟩
  | 63 => ⟨S_, .f32⟩
  | 64 => ⟨S100000x64, .f32⟩
  | 65 => ⟨S100000x64, .f32⟩
  | 66 => ⟨S100000x64, .f32⟩
  | 67 => ⟨S100000x64, .f32⟩
  | 68 => ⟨S1x64x64, .f32⟩
  | 69 => ⟨S64x64, .f32⟩
  | 70 => ⟨S100000x64, .f32⟩
  | 71 => ⟨S1x64, .f32⟩
  | 72 => ⟨S64, .f32⟩
  | 73 => ⟨S1x64, .f32⟩
  | 74 => ⟨S100000x64, .f32⟩
  | 75 => ⟨S100000x64, .f32⟩
  | 76 => ⟨S_, .f32⟩
  | 77 => ⟨S_, .f32⟩
  | 78 => ⟨S100000x64, .f32⟩
  | 79 => ⟨S100000x64, .i1⟩
  | 80 => ⟨S_, .f32⟩
  | 81 => ⟨S100000x64, .f32⟩
  | 82 => ⟨S100000x64, .f32⟩
  | 83 => ⟨S100000x64, .f32⟩
  | 84 => ⟨S100000x64, .f32⟩
  | 85 => ⟨S100000x64, .f32⟩
  | 86 => ⟨S_, .f32⟩
  | 87 => ⟨S100000, .f32⟩
  | 88 => ⟨S100000x1, .f32⟩
  | 89 => ⟨S_, .f32⟩
  | 90 => ⟨S100000x1, .f32⟩
  | 91 => ⟨S100000x1, .f32⟩
  | 92 => ⟨S100000x1, .f32⟩
  | 93 => ⟨S100000x64, .f32⟩
  | 94 => ⟨S100000x64, .f32⟩
  | 95 => ⟨S100000x256, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_call1_cst : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_10 : Ref sig .tc := ⟨.hbm, 84, rfl⟩
abbrev main_call2_cst : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_11 : Ref sig .tc := ⟨.hbm, 94, rfl⟩
abbrev main_v61 : Ref sig .tc := ⟨.hbm, 95, rfl⟩
abbrev main_v62 : Ref sig .tc := ⟨.hbm, 96, rfl⟩
abbrev main_cst_12 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_c_13 : Ref sig .tc := ⟨.hbm, 104, rfl⟩
abbrev main_v69 : Ref sig .tc := ⟨.hbm, 105, rfl⟩
abbrev main_v70 : Ref sig .tc := ⟨.hbm, 106, rfl⟩
abbrev main_c_14 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_15 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_16 : Ref sig .tc := ⟨.hbm, 127, rfl⟩
abbrev main_call3_cst : Ref sig .tc := ⟨.hbm, 128, rfl⟩
abbrev main_call3_v0 : Ref sig .tc := ⟨.hbm, 129, rfl⟩
abbrev main_call3_v1 : Ref sig .tc := ⟨.hbm, 130, rfl⟩
abbrev main_call3_v2 : Ref sig .tc := ⟨.hbm, 131, rfl⟩
abbrev main_call3_v3 : Ref sig .tc := ⟨.hbm, 132, rfl⟩
abbrev main_call3_v4 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_17 : Ref sig .tc := ⟨.hbm, 144, rfl⟩
abbrev main_call4_cst : Ref sig .tc := ⟨.hbm, 145, rfl⟩
abbrev main_call4_v0 : Ref sig .tc := ⟨.hbm, 146, rfl⟩
abbrev main_call4_v1 : Ref sig .tc := ⟨.hbm, 147, rfl⟩
abbrev main_call4_v2 : Ref sig .tc := ⟨.hbm, 148, rfl⟩
abbrev main_call4_v3 : Ref sig .tc := ⟨.hbm, 149, rfl⟩
abbrev main_call4_v4 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_cst_18 : Ref sig .tc := ⟨.hbm, 154, rfl⟩
abbrev main_v102 : Ref sig .tc := ⟨.hbm, 155, rfl⟩
abbrev main_v103 : Ref sig .tc := ⟨.hbm, 156, rfl⟩
abbrev main_cst_19 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_c_20 : Ref sig .tc := ⟨.hbm, 164, rfl⟩
abbrev main_v110 : Ref sig .tc := ⟨.hbm, 165, rfl⟩
abbrev main_v111 : Ref sig .tc := ⟨.hbm, 166, rfl⟩
abbrev main_c_21 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_cst_22 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_cst_23 : Ref sig .tc := ⟨.hbm, 187, rfl⟩
abbrev main_call5_cst : Ref sig .tc := ⟨.hbm, 188, rfl⟩
abbrev main_call5_v0 : Ref sig .tc := ⟨.hbm, 189, rfl⟩
abbrev main_call5_v1 : Ref sig .tc := ⟨.hbm, 190, rfl⟩
abbrev main_call5_v2 : Ref sig .tc := ⟨.hbm, 191, rfl⟩
abbrev main_call5_v3 : Ref sig .tc := ⟨.hbm, 192, rfl⟩
abbrev main_call5_v4 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_cst_24 : Ref sig .tc := ⟨.hbm, 204, rfl⟩
abbrev main_call6_cst : Ref sig .tc := ⟨.hbm, 205, rfl⟩
abbrev main_call6_v0 : Ref sig .tc := ⟨.hbm, 206, rfl⟩
abbrev main_call6_v1 : Ref sig .tc := ⟨.hbm, 207, rfl⟩
abbrev main_call6_v2 : Ref sig .tc := ⟨.hbm, 208, rfl⟩
abbrev main_call6_v3 : Ref sig .tc := ⟨.hbm, 209, rfl⟩
abbrev main_call6_v4 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_cst_25 : Ref sig .tc := ⟨.hbm, 214, rfl⟩
abbrev main_v143 : Ref sig .tc := ⟨.hbm, 215, rfl⟩
abbrev main_v144 : Ref sig .tc := ⟨.hbm, 216, rfl⟩
abbrev main_cst_26 : Ref sig .tc := ⟨.hbm, 217, rfl⟩
abbrev main_v145 : Ref sig .tc := ⟨.hbm, 218, rfl⟩
abbrev main_v146 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_v150 : Ref sig .tc := ⟨.hbm, 223, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  concatenates_S100000x64_S100000x64_S100000x64_S100000x64_S100000x256_d1 : Shape.Concatenates [S100000x64, S100000x64, S100000x64, S100000x64] S100000x256 1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KIOut.lean ====
/-
  What one launch of the dense layer's body leaves in its two output blocks, as functions of the six
  input blocks it loads: block 6 (the new features) holds the sum of the two leaky-rectified dense
  branches, block 7 the same rows scaled by the reciprocal square root of max(row's sum of squares, ε).
  Each block is written by one store through the whole block, so it is the store's value.  Also: a
  window's block at a grid point read off the array the region finds on entry.
-/
import proofs.«125014_j7464653161107_1_alg».proof.Proof.Gen.KernelIdeal.Launch
import proofs.«125014_j7464653161107_1_alg».proof.Proof.Gen.KernelIdeal.Skeleton
import proofs.«125014_j7464653161107_1_alg».proof.Proof.Gen.KernelIdeal.Points
import Idealize.ShloMosaic.Lib.Pipeline.FrameBody

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)

variable {F : FTy → Type} [FloatOps F]

/-- The rectangles the body loads and stores through: each is its whole block. -/
abbrev rA : Rect S5000x64 := Rect.unit (s := S5000x64) ![0, 0] S5000x64.size inb_S5000x64_S5000x64_0_0
abbrev rB : Rect S64x64 := Rect.unit (s := S64x64) ![0, 0] S64x64.size inb_S64x64_S64x64_0_0
abbrev rC : Rect S1x64 := Rect.unit (s := S1x64) ![0, 0] S1x64.size inb_S1x64_S1x64_0_0

variable (V : (c : Dev nD) → (b : Ref sig .tc) → Buf (Elt F) ((c : Thread nD τ).loc b))

/-- Launch 0: window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Launch 0: block 6 after the body — the new features of the rows of this block. -/
def hnew0 (x0 x1 : Vec F S5000x64 .f32) (x2 : Vec F S64x64 .f32) (x3 : Vec F S1x64 .f32) (x4 : Vec F S64x64 .f32) (x5 : Vec F S1x64 .f32) : Vec F S5000x64 .f32 :=
  View.canon [⟨rA, k0_pay2 (View.ld x0 rA) (View.ld x1 rA) (View.ld x2 rB) (View.ld x3 rC) (View.ld x4 rB) (View.ld x5 rC)⟩]

/-- Launch 0: block 7 after the body — those rows normalised. -/
def l2n0 (x0 x1 : Vec F S5000x64 .f32) (x2 : Vec F S64x64 .f32) (x3 : Vec F S1x64 .f32) (x4 : Vec F S64x64 .f32) (x5 : Vec F S1x64 .f32) : Vec F S5000x64 .f32 :=
  View.canon [⟨rA, k0_pay1 (k0_pay2 (View.ld x0 rA) (View.ld x1 rA) (View.ld x2 rB) (View.ld x3 rC) (View.ld x4 rB) (View.ld x5 rC))
    (k0_pay3 (View.ld x0 rA) (View.ld x1 rA) (View.ld x2 rB) (View.ld x3 rC) (View.ld x4 rB) (View.ld x5 rC))⟩]

/-- Launch 1: window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Launch 1: block 6 after the body — the new features of the rows of this block. -/
def hnew1 (x0 x1 : Vec F S5000x64 .f32) (x2 : Vec F S64x64 .f32) (x3 : Vec F S1x64 .f32) (x4 : Vec F S64x64 .f32) (x5 : Vec F S1x64 .f32) : Vec F S5000x64 .f32 :=
  View.canon [⟨rA, k1_pay2 (View.ld x0 rA) (View.ld x1 rA) (View.ld x2 rB) (View.ld x3 rC) (View.ld x4 rB) (View.ld x5 rC)⟩]

/-- Launch 1: block 7 after the body — those rows normalised. -/
def l2n1 (x0 x1 : Vec F S5000x64 .f32) (x2 : Vec F S64x64 .f32) (x3 : Vec F S1x64 .f32) (x4 : Vec F S64x64 .f32) (x5 : Vec F S1x64 .f32) : Vec F S5000x64 .f32 :=
  View.canon [⟨rA, k1_pay1 (k1_pay2 (View.ld x0 rA) (View.ld x1 rA) (View.ld x2 rB) (View.ld x3 rC) (View.ld x4 rB) (View.ld x5 rC))
    (k1_pay3 (View.ld x0 rA) (View.ld x1 rA) (View.ld x2 rB) (View.ld x3 rC) (View.ld x4 rB) (View.ld x5 rC))⟩]

/-- Launch 2: window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Launch 2: block 6 after the body — the new features of the rows of this block. -/
def hnew2 (x0 x1 : Vec F S5000x64 .f32) (x2 : Vec F S64x64 .f32) (x3 : Vec F S1x64 .f32) (x4 : Vec F S64x64 .f32) (x5 : Vec F S1x64 .f32) : Vec F S5000x64 .f32 :=
  View.canon [⟨rA, k2_pay2 (View.ld x0 rA) (View.ld x1 rA) (View.ld x2 rB) (View.ld x3 rC) (View.ld x4 rB) (View.ld x5 rC)⟩]

/-- Launch 2: block 7 after the body — those rows normalised. -/
def l2n2 (x0 x1 : Vec F S5000x64 .f32) (x2 : Vec F S64x64 .f32) (x3 : Vec F S1x64 .f32) (x4 : Vec F S64x64 .f32) (x5 : Vec F S1x64 .f32) : Vec F S5000x64 .f32 :=
  View.canon [⟨rA, k2_pay1 (k2_pay2 (View.ld x0 rA) (View.ld x1 rA) (View.ld x2 rB) (View.ld x3 rC) (View.ld x4 rB) (View.ld x5 rC))
    (k2_pay3 (View.ld x0 rA) (View.ld x1 rA) (View.ld x2 rB) (View.ld x3 rC) (View.ld x4 rB) (View.ld x5 rC))⟩]

end Cert.KernelIdeal.Hand

end
-- ==== Proof.KIBody.lean ====
/-
  The body of each of the three launches as a Hoare triple, and the proof data of its pipeline.

  One launch's body reads its six input blocks whole (two blocks of 5000 rows of features, two
  64 x 64 weight matrices, two bias rows), computes the new features of those rows and their
  normalisation, and stores each result whole into its output block.  So after the body each
  input block is as it was found, block 6 holds `hnewK` of the six input blocks and block 7
  holds `l2nK` of them.  The proof data of the pipeline say exactly that at every grid point,
  with every array read at the contents `V` the region finds on entry; the inputs that are
  fetched only at the first point (the weights and biases, whose block index never moves) still
  hold their block at every later point.
-/
import proofs.«125014_j7464653161107_1_alg».proof.Proof.KIOut
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Launch 0 -/

/-- The one store into each output block goes through the whole block, so it covers it. -/
theorem cover0 (p0 : Vec F S5000x64 .f32) (y : S5000x64.Idx) :
    ∃ pc ∈ ([⟨rA, p0⟩] : List (View.Piece (Elt F) S5000x64 .f32)), y ∈ pc.1.set :=
  View.cover_of_tiled [⟨rA, p0⟩] S5000x64.size (by rfl) y

set_option maxHeartbeats 1000000 in
/-- The body on whole staging buffers, the six inputs' at contents `x0 … x5` and the two outputs' at anything,
    runs to the continuation with the inputs' as they were, block 6 at `hnew0` and block 7 at `l2n0` of the
    inputs.  (The body reads each output block once before storing into it; what it reads there is not used.) -/
theorem sound_kernel0 (c : Dev nD) (E : Set ℕ) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S5000x64 .f32) (harg8 : arg8.IsWhole)
    (x0 x1 : Vec F S5000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (hnew0 x0 x1 x2 x3 x4 x5) ∗ owns (c : Thread nD τ) arg8 fullShare (l2n0 x0 x1 x2 x3 x4 x5)) -∗ K ⟨⟩))
      ⊢ wp frame (wpE (defs₀ (F := F)) Variants.none c none) E (cc0__dense_layer_kernel i arg1 harg1 arg2 harg2 arg3 harg3 arg4 harg4 arg5 harg5 arg6 harg6 arg7 harg7 arg8 harg8) K := by
  simp only [cc0__dense_layer_kernel_eq_skeleton]; unfold cc0__dense_layer_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0 _)
  iexists _; isplitr
  swap; · iexact H7
  ipureintro
  exact View.read_writes_eq_canon _ _ _ (cover0 _)

/-! ## The proof data of pipeline 0 -/

/-- Input window 0's current staging buffer holds its block at every point, fetched there or not, for any proof
    data whose array is `V`'s and whose body leaves the block in place: where the window is not fetched its block
    index has not moved since the point before, so the block kept from that point is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: where the window is not fetched its block
    index has not moved since the point before, so the block kept from that point is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: where the window is not fetched its block
    index has not moved since the point before, so the block kept from that point is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: where the window is not fetched its block
    index has not moved since the point before, so the block kept from that point is this point's. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place: where the window is not fetched its block
    index has not moved since the point before, so the block kept from that point is this point's. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s and whose body leaves the block in place: where the window is not fetched its block
    index has not moved since the point before, so the block kept from that point is this point's. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The proof data of pipeline 0 on core `c`: the arrays as the region finds them; after the body at point `t`
    each input's buffer at its block, block 6 at the new features and block 7 at their normalisation, both of the six
    input blocks there; the invariant is the class's (the scoped rest and the generator register, untouched); nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => hnew0 (iblk0 V c 0 t) (iblk0 V c 1 t) (iblk0 V c 2 t) (iblk0 V c 3 t) (iblk0 V c 4 t) (iblk0 V c 5 t)
    | ⟨7, _⟩ => l2n0 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = hnew0 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = l2n0 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation of pipeline 0, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' buffers hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

/-! # Launch 1 -/

/-- The one store into each output block goes through the whole block, so it covers it. -/
theorem cover1 (p0 : Vec F S5000x64 .f32) (y : S5000x64.Idx) :
    ∃ pc ∈ ([⟨rA, p0⟩] : List (View.Piece (Elt F) S5000x64 .f32)), y ∈ pc.1.set :=
  View.cover_of_tiled [⟨rA, p0⟩] S5000x64.size (by rfl) y

set_option maxHeartbeats 1000000 in
/-- The body on whole staging buffers, the six inputs' at contents `x0 … x5` and the two outputs' at anything,
    runs to the continuation with the inputs' as they were, block 6 at `hnew1` and block 7 at `l2n1` of the
    inputs.  (The body reads each output block once before storing into it; what it reads there is not used.) -/
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S5000x64 .f32) (harg8 : arg8.IsWhole)
    (x0 x1 : Vec F S5000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (hnew1 x0 x1 x2 x3 x4 x5) ∗ owns (c : Thread nD τ) arg8 fullShare (l2n1 x0 x1 x2 x3 x4 x5)) -∗ K ⟨⟩))
      ⊢ wp frame (wpE (defs₀ (F := F)) Variants.none c none) E (cc1__dense_layer_kernel i arg1 harg1 arg2 harg2 arg3 harg3 arg4 harg4 arg5 harg5 arg6 harg6 arg7 harg7 arg8 harg8) K := by
  simp only [cc1__dense_layer_kernel_eq_skeleton]; unfold cc1__dense_layer_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1 _)
  iexists _; isplitr
  swap; · iexact H7
  ipureintro
  exact View.read_writes_eq_canon _ _ _ (cover1 _)

/-! ## The proof data of pipeline 1 -/

/-- Input window 0's current staging buffer holds its block at every point, fetched there or not, for any proof
    data whose array is `V`'s and whose body leaves the block in place: where the window is not fetched its block
    index has not moved since the point before, so the block kept from that point is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: where the window is not fetched its block
    index has not moved since the point before, so the block kept from that point is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: where the window is not fetched its block
    index has not moved since the point before, so the block kept from that point is this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: where the window is not fetched its block
    index has not moved since the point before, so the block kept from that point is this point's. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: where the window is not fetched its block
    index has not moved since the point before, so the block kept from that point is this point's. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s and whose body leaves the block in place: where the window is not fetched its block
    index has not moved since the point before, so the block kept from that point is this point's. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The proof data of pipeline 1 on core `c`: the arrays as the region finds them; after the body at point `t`
    each input's buffer at its block, block 6 at the new features and block 7 at their normalisation, both of the six
    input blocks there; the invariant is the class's (the scoped rest and the generator register, untouched); nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => hnew1 (iblk1 V c 0 t) (iblk1 V c 1 t) (iblk1 V c 2 t) (iblk1 V c 3 t) (iblk1 V c 4 t) (iblk1 V c 5 t)
    | ⟨7, _⟩ => l2n1 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = hnew1 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = l2n1 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation of pipeline 1, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

/-! # Launch 2 -/

/-- The one store into each output block goes through the whole block, so it covers it. -/
theorem cover2 (p0 : Vec F S5000x64 .f32) (y : S5000x64.Idx) :
    ∃ pc ∈ ([⟨rA, p0⟩] : List (View.Piece (Elt F) S5000x64 .f32)), y ∈ pc.1.set :=
  View.cover_of_tiled [⟨rA, p0⟩] S5000x64.size (by rfl) y

set_option maxHeartbeats 1000000 in
/-- The body on whole staging buffers, the six inputs' at contents `x0 … x5` and the two outputs' at anything,
    runs to the continuation with the inputs' as they were, block 6 at `hnew2` and block 7 at `l2n2` of the
    inputs.  (The body reads each output block once before storing into it; what it reads there is not used.) -/
theorem sound_kernel2 (c : Dev nD) (E : Set ℕ) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S5000x64 .f32) (harg8 : arg8.IsWhole)
    (x0 x1 : Vec F S5000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (hnew2 x0 x1 x2 x3 x4 x5) ∗ owns (c : Thread nD τ) arg8 fullShare (l2n2 x0 x1 x2 x3 x4 x5)) -∗ K ⟨⟩))
      ⊢ wp frame (wpE (defs₀ (F := F)) Variants.none c none) E (cc2__dense_layer_kernel i arg1 harg1 arg2 harg2 arg3 harg3 arg4 harg4 arg5 harg5 arg6 harg6 arg7 harg7 arg8 harg8) K := by
  simp only [cc2__dense_layer_kernel_eq_skeleton]; unfold cc2__dense_layer_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2 _)
  iexists _; isplitr
  swap; · iexact H7
  ipureintro
  exact View.read_writes_eq_canon _ _ _ (cover2 _)

/-! ## The proof data of pipeline 2 -/

/-- Input window 0's current staging buffer holds its block at every point, fetched there or not, for any proof
    data whose array is `V`'s and whose body leaves the block in place: where the window is not fetched its block
    index has not moved since the point before, so the block kept from that point is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: where the window is not fetched its block
    index has not moved since the point before, so the block kept from that point is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: where the window is not fetched its block
    index has not moved since the point before, so the block kept from that point is this point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place: where the window is not fetched its block
    index has not moved since the point before, so the block kept from that point is this point's. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s and whose body leaves the block in place: where the window is not fetched its block
    index has not moved since the point before, so the block kept from that point is this point's. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is `V`'s and whose body leaves the block in place: where the window is not fetched its block
    index has not moved since the point before, so the block kept from that point is this point's. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The proof data of pipeline 2 on core `c`: the arrays as the region finds them; after the body at point `t`
    each input's buffer at its block, block 6 at the new features and block 7 at their normalisation, both of the six
    input blocks there; the invariant is the class's (the scoped rest and the generator register, untouched); nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => hnew2 (iblk2 V c 0 t) (iblk2 V c 1 t) (iblk2 V c 2 t) (iblk2 V c 3 t) (iblk2 V c 4 t) (iblk2 V c 5 t)
    | ⟨7, _⟩ => l2n2 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = hnew2 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = l2n2 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation of pipeline 2, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' buffers hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIRun.lean ====
/-
  The run of the program through its three launches.

  Between two items of the program every core holds each of its unscoped buffers whole, at contents that are a
  fold from the launch memory: a stretch of host operations rewrites the buffers it writes, a launch leaves each of
  its arrays at what its pipeline's write-backs leave there and every other buffer alone.  The program's items are
  run one after the other over that thread state; the last contents are read against the final memory, so every
  weakly fair execution terminates, without a fault, with every unscoped buffer at the last fold.  No host operation
  and no launch writes an argument array, so the fold at an argument walks back to the launch memory.
-/
import proofs.«125014_j7464653161107_1_alg».proof.Proof.KIBody
import proofs.«125014_j7464653161107_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The buffer contents between the program's items: a fold through the program -/

/-- Core `c`'s buffers at launch. -/
abbrev W0 (m : (ℓ : Loc nD τ sig) → Buf (Elt F) ℓ) (ρ : Dev nD → PrngReg) : Dev nD → Valuation τ sig (Elt F) := fun c b => m ((c : Dev nD), b)

variable (m : (ℓ : Loc nD τ sig) → Buf (Elt F) ℓ) (ρ : Dev nD → PrngReg)

/-- After the first stretch of host operations, -/
abbrev W1 : Dev nD → Valuation τ sig (Elt F) := fun c => StableHlo.after hostOps0 (W0 m ρ c)
/-- the second, -/
abbrev W2 : Dev nD → Valuation τ sig (Elt F) := fun c => StableHlo.after hostOps0_1 (W1 m ρ c)
/-- and the third: what launch 0 is entered from. -/
abbrev W3 : Dev nD → Valuation τ sig (Elt F) := fun c => StableHlo.after hostOps0_2 (W2 m ρ c)
/-- The same read at the TensorCore's references (what launch 0's proof data take). -/
abbrev V3 : (c : Dev nD) → (b : Ref sig .tc) → Buf (Elt F) ((c : Thread nD τ).loc b) := fun c b => W3 m ρ c b

/-- At launch 0's exit: its arrays at what the pipeline leaves (the inputs as entered, each output's write-backs
    folded), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the TensorCore's references (launch 0's exit contents). -/
abbrev V4 : (c : Dev nD) → (b : Ref sig .tc) → Buf (Elt F) ((c : Thread nD τ).loc b) := fun c b => W4 m ρ c b
/-- At launch 0's exit each of its arrays holds what the pipeline leaves and every other buffer what it held at entry. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the host operations between launches 0 and 1: what launch 1 is entered from. -/
abbrev W5 : Dev nD → Valuation τ sig (Elt F) := fun c => StableHlo.after hostOps1 (W4 m ρ c)
/-- The same read at the TensorCore's references (what launch 1's proof data take). -/
abbrev V5 : (c : Dev nD) → (b : Ref sig .tc) → Buf (Elt F) ((c : Thread nD τ).loc b) := fun c b => W5 m ρ c b

/-- At launch 1's exit: its arrays at what the pipeline leaves (the inputs as entered, each output's write-backs
    folded), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the TensorCore's references (launch 1's exit contents). -/
abbrev V6 : (c : Dev nD) → (b : Ref sig .tc) → Buf (Elt F) ((c : Thread nD τ).loc b) := fun c b => W6 m ρ c b
/-- At launch 1's exit each of its arrays holds what the pipeline leaves and every other buffer what it held at entry. -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After the host operations between launches 1 and 2: what launch 2 is entered from. -/
abbrev W7 : Dev nD → Valuation τ sig (Elt F) := fun c => StableHlo.after hostOps2 (W6 m ρ c)
/-- The same read at the TensorCore's references (what launch 2's proof data take). -/
abbrev V7 : (c : Dev nD) → (b : Ref sig .tc) → Buf (Elt F) ((c : Thread nD τ).loc b) := fun c b => W7 m ρ c b

/-- At launch 2's exit: its arrays at what the pipeline leaves (the inputs as entered, each output's write-backs
    folded), every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- The same read at the TensorCore's references (launch 2's exit contents). -/
abbrev V8 : (c : Dev nD) → (b : Ref sig .tc) → Buf (Elt F) ((c : Thread nD τ).loc b) := fun c b => W8 m ρ c b
/-- At launch 2's exit each of its arrays holds what the pipeline leaves and every other buffer what it held at entry. -/
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-- After the last host operation: the contents the program returns with. -/
abbrev W9 : Dev nD → Valuation τ sig (Elt F) := fun c => StableHlo.after hostOps3 (W8 m ρ c)

/-! ### The arguments end as launched

No host operation writes an argument, and a launch either reads it through an input window (whose array the
pipeline leaves as entered) or does not name it, so the fold at an argument's buffer walks back to the launch memory. -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := StableHlo.after_of_writes_sub hostOps3 _ hostOps3_writes (by decide)
    _ = W7 m ρ c (Proc.devRef .tc main_arg0) := (by first
          | exact W8_of_ne m ρ c main_arg0 (by decide)
          | exact (W8_arr m ρ c 0).trans (((dat2 (V7 m ρ) c).arrAt_in 0 rfl _).trans (A_eq2 (V7 m ρ) c 0))
          | exact (W8_arr m ρ c 1).trans (((dat2 (V7 m ρ) c).arrAt_in 1 rfl _).trans (A_eq2 (V7 m ρ) c 1)))
    _ = W6 m ρ c (Proc.devRef .tc main_arg0) := StableHlo.after_of_writes_sub hostOps2 _ hostOps2_writes (by decide)
    _ = W5 m ρ c (Proc.devRef .tc main_arg0) := (by first
          | exact W6_of_ne m ρ c main_arg0 (by decide)
          | exact (W6_arr m ρ c 0).trans (((dat1 (V5 m ρ) c).arrAt_in 0 rfl _).trans (A_eq1 (V5 m ρ) c 0))
          | exact (W6_arr m ρ c 1).trans (((dat1 (V5 m ρ) c).arrAt_in 1 rfl _).trans (A_eq1 (V5 m ρ) c 1)))
    _ = W4 m ρ c (Proc.devRef .tc main_arg0) := StableHlo.after_of_writes_sub hostOps1 _ hostOps1_writes (by decide)
    _ = W3 m ρ c (Proc.devRef .tc main_arg0) := (by first
          | exact W4_of_ne m ρ c main_arg0 (by decide)
          | exact (W4_arr m ρ c 0).trans (((dat0 (V3 m ρ) c).arrAt_in 0 rfl _).trans (A_eq0 (V3 m ρ) c 0))
          | exact (W4_arr m ρ c 1).trans (((dat0 (V3 m ρ) c).arrAt_in 1 rfl _).trans (A_eq0 (V3 m ρ) c 1)))
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl

theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := StableHlo.after_of_writes_sub hostOps3 _ hostOps3_writes (by decide)
    _ = W7 m ρ c (Proc.devRef .tc main_arg1) := (by first
          | exact W8_of_ne m ρ c main_arg1 (by decide)
          | exact (W8_arr m ρ c 0).trans (((dat2 (V7 m ρ) c).arrAt_in 0 rfl _).trans (A_eq2 (V7 m ρ) c 0))
          | exact (W8_arr m ρ c 1).trans (((dat2 (V7 m ρ) c).arrAt_in 1 rfl _).trans (A_eq2 (V7 m ρ) c 1)))
    _ = W6 m ρ c (Proc.devRef .tc main_arg1) := StableHlo.after_of_writes_sub hostOps2 _ hostOps2_writes (by decide)
    _ = W5 m ρ c (Proc.devRef .tc main_arg1) := (by first
          | exact W6_of_ne m ρ c main_arg1 (by decide)
          | exact (W6_arr m ρ c 0).trans (((dat1 (V5 m ρ) c).arrAt_in 0 rfl _).trans (A_eq1 (V5 m ρ) c 0))
          | exact (W6_arr m ρ c 1).trans (((dat1 (V5 m ρ) c).arrAt_in 1 rfl _).trans (A_eq1 (V5 m ρ) c 1)))
    _ = W4 m ρ c (Proc.devRef .tc main_arg1) := StableHlo.after_of_writes_sub hostOps1 _ hostOps1_writes (by decide)
    _ = W3 m ρ c (Proc.devRef .tc main_arg1) := (by first
          | exact W4_of_ne m ρ c main_arg1 (by decide)
          | exact (W4_arr m ρ c 0).trans (((dat0 (V3 m ρ) c).arrAt_in 0 rfl _).trans (A_eq0 (V3 m ρ) c 0))
          | exact (W4_arr m ρ c 1).trans (((dat0 (V3 m ρ) c).arrAt_in 1 rfl _).trans (A_eq0 (V3 m ρ) c 1)))
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := StableHlo.after_of_writes_sub hostOps3 _ hostOps3_writes (by decide)
    _ = W7 m ρ c (Proc.devRef .tc main_arg2) := (by first
          | exact W8_of_ne m ρ c main_arg2 (by decide)
          | exact (W8_arr m ρ c 0).trans (((dat2 (V7 m ρ) c).arrAt_in 0 rfl _).trans (A_eq2 (V7 m ρ) c 0))
          | exact (W8_arr m ρ c 1).trans (((dat2 (V7 m ρ) c).arrAt_in 1 rfl _).trans (A_eq2 (V7 m ρ) c 1)))
    _ = W6 m ρ c (Proc.devRef .tc main_arg2) := StableHlo.after_of_writes_sub hostOps2 _ hostOps2_writes (by decide)
    _ = W5 m ρ c (Proc.devRef .tc main_arg2) := (by first
          | exact W6_of_ne m ρ c main_arg2 (by decide)
          | exact (W6_arr m ρ c 0).trans (((dat1 (V5 m ρ) c).arrAt_in 0 rfl _).trans (A_eq1 (V5 m ρ) c 0))
          | exact (W6_arr m ρ c 1).trans (((dat1 (V5 m ρ) c).arrAt_in 1 rfl _).trans (A_eq1 (V5 m ρ) c 1)))
    _ = W4 m ρ c (Proc.devRef .tc main_arg2) := StableHlo.after_of_writes_sub hostOps1 _ hostOps1_writes (by decide)
    _ = W3 m ρ c (Proc.devRef .tc main_arg2) := (by first
          | exact W4_of_ne m ρ c main_arg2 (by decide)
          | exact (W4_arr m ρ c 0).trans (((dat0 (V3 m ρ) c).arrAt_in 0 rfl _).trans (A_eq0 (V3 m ρ) c 0))
          | exact (W4_arr m ρ c 1).trans (((dat0 (V3 m ρ) c).arrAt_in 1 rfl _).trans (A_eq0 (V3 m ρ) c 1)))
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := StableHlo.after_of_writes_sub hostOps3 _ hostOps3_writes (by decide)
    _ = W7 m ρ c (Proc.devRef .tc main_arg3) := (by first
          | exact W8_of_ne m ρ c main_arg3 (by decide)
          | exact (W8_arr m ρ c 0).trans (((dat2 (V7 m ρ) c).arrAt_in 0 rfl _).trans (A_eq2 (V7 m ρ) c 0))
          | exact (W8_arr m ρ c 1).trans (((dat2 (V7 m ρ) c).arrAt_in 1 rfl _).trans (A_eq2 (V7 m ρ) c 1)))
    _ = W6 m ρ c (Proc.devRef .tc main_arg3) := StableHlo.after_of_writes_sub hostOps2 _ hostOps2_writes (by decide)
    _ = W5 m ρ c (Proc.devRef .tc main_arg3) := (by first
          | exact W6_of_ne m ρ c main_arg3 (by decide)
          | exact (W6_arr m ρ c 0).trans (((dat1 (V5 m ρ) c).arrAt_in 0 rfl _).trans (A_eq1 (V5 m ρ) c 0))
          | exact (W6_arr m ρ c 1).trans (((dat1 (V5 m ρ) c).arrAt_in 1 rfl _).trans (A_eq1 (V5 m ρ) c 1)))
    _ = W4 m ρ c (Proc.devRef .tc main_arg3) := StableHlo.after_of_writes_sub hostOps1 _ hostOps1_writes (by decide)
    _ = W3 m ρ c (Proc.devRef .tc main_arg3) := (by first
          | exact W4_of_ne m ρ c main_arg3 (by decide)
          | exact (W4_arr m ρ c 0).trans (((dat0 (V3 m ρ) c).arrAt_in 0 rfl _).trans (A_eq0 (V3 m ρ) c 0))
          | exact (W4_arr m ρ c 1).trans (((dat0 (V3 m ρ) c).arrAt_in 1 rfl _).trans (A_eq0 (V3 m ρ) c 1)))
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl

theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := StableHlo.after_of_writes_sub hostOps3 _ hostOps3_writes (by decide)
    _ = W7 m ρ c (Proc.devRef .tc main_arg4) := (by first
          | exact W8_of_ne m ρ c main_arg4 (by decide)
          | exact (W8_arr m ρ c 0).trans (((dat2 (V7 m ρ) c).arrAt_in 0 rfl _).trans (A_eq2 (V7 m ρ) c 0))
          | exact (W8_arr m ρ c 1).trans (((dat2 (V7 m ρ) c).arrAt_in 1 rfl _).trans (A_eq2 (V7 m ρ) c 1)))
    _ = W6 m ρ c (Proc.devRef .tc main_arg4) := StableHlo.after_of_writes_sub hostOps2 _ hostOps2_writes (by decide)
    _ = W5 m ρ c (Proc.devRef .tc main_arg4) := (by first
          | exact W6_of_ne m ρ c main_arg4 (by decide)
          | exact (W6_arr m ρ c 0).trans (((dat1 (V5 m ρ) c).arrAt_in 0 rfl _).trans (A_eq1 (V5 m ρ) c 0))
          | exact (W6_arr m ρ c 1).trans (((dat1 (V5 m ρ) c).arrAt_in 1 rfl _).trans (A_eq1 (V5 m ρ) c 1)))
    _ = W4 m ρ c (Proc.devRef .tc main_arg4) := StableHlo.after_of_writes_sub hostOps1 _ hostOps1_writes (by decide)
    _ = W3 m ρ c (Proc.devRef .tc main_arg4) := (by first
          | exact W4_of_ne m ρ c main_arg4 (by decide)
          | exact (W4_arr m ρ c 0).trans (((dat0 (V3 m ρ) c).arrAt_in 0 rfl _).trans (A_eq0 (V3 m ρ) c 0))
          | exact (W4_arr m ρ c 1).trans (((dat0 (V3 m ρ) c).arrAt_in 1 rfl _).trans (A_eq0 (V3 m ρ) c 1)))
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl

theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := StableHlo.after_of_writes_sub hostOps3 _ hostOps3_writes (by decide)
    _ = W7 m ρ c (Proc.devRef .tc main_arg5) := (by first
          | exact W8_of_ne m ρ c main_arg5 (by decide)
          | exact (W8_arr m ρ c 0).trans (((dat2 (V7 m ρ) c).arrAt_in 0 rfl _).trans (A_eq2 (V7 m ρ) c 0))
          | exact (W8_arr m ρ c 1).trans (((dat2 (V7 m ρ) c).arrAt_in 1 rfl _).trans (A_eq2 (V7 m ρ) c 1)))
    _ = W6 m ρ c (Proc.devRef .tc main_arg5) := StableHlo.after_of_writes_sub hostOps2 _ hostOps2_writes (by decide)
    _ = W5 m ρ c (Proc.devRef .tc main_arg5) := (by first
          | exact W6_of_ne m ρ c main_arg5 (by decide)
          | exact (W6_arr m ρ c 0).trans (((dat1 (V5 m ρ) c).arrAt_in 0 rfl _).trans (A_eq1 (V5 m ρ) c 0))
          | exact (W6_arr m ρ c 1).trans (((dat1 (V5 m ρ) c).arrAt_in 1 rfl _).trans (A_eq1 (V5 m ρ) c 1)))
    _ = W4 m ρ c (Proc.devRef .tc main_arg5) := StableHlo.after_of_writes_sub hostOps1 _ hostOps1_writes (by decide)
    _ = W3 m ρ c (Proc.devRef .tc main_arg5) := (by first
          | exact W4_of_ne m ρ c main_arg5 (by decide)
          | exact (W4_arr m ρ c 0).trans (((dat0 (V3 m ρ) c).arrAt_in 0 rfl _).trans (A_eq0 (V3 m ρ) c 0))
          | exact (W4_arr m ρ c 1).trans (((dat0 (V3 m ρ) c).arrAt_in 1 rfl _).trans (A_eq0 (V3 m ρ) c 1)))
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl

/-- Each of the six argument arrays holds at the end what it held at launch. -/
theorem W9_kept (c : Dev nD) (b : Ref sig .tc)
    (hb : b ∈ ([main_arg0, main_arg1, main_arg2, main_arg3, main_arg4, main_arg5] : List (Ref sig .tc))) :
    W9 m ρ c (Proc.devRef .tc b) = m ((c : Thread nD τ).loc b) := by
  simp only [List.mem_cons, List.not_mem_nil, or_false] at hb
  rcases hb with rfl | rfl | rfl | rfl | rfl | rfl
  · exact W9_main_arg0 m ρ c
  · exact W9_main_arg1 m ρ c
  · exact W9_main_arg2 m ρ c
  · exact W9_main_arg3 m ρ c
  · exact W9_main_arg4 m ρ c
  · exact W9_main_arg5 m ρ c

/-! ## The proof data family and the thread state -/

/-- Every pipeline's proof data, each at its launch's entry contents. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debts,
    at nothing. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding along:
    it ends with those references at the stretch's fold of `W`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last contents, the generator register
    at some state. -/
abbrev Tₙ (c : Dev nD) : sProp 𝕄 := iprop(StableHlo.held (c : Thread nD τ) (Pipeline.ucRefs τ sig) (W9 m ρ c) ∗ ∃ r, prngReg c r)

/-! ## The launches as segments -/

set_option backward.isDefEq.respectTransparency.types false in
/-- Launch 0 over the thread state: entered from every unscoped buffer at `W3`, left at `W4`.  Its arrays
    are split out of the unscoped buffers on entry and put back at their exit contents; the generator register goes
    into the pipeline's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at `W5`, left at `W6`.  Its arrays
    are split out of the unscoped buffers on entry and put back at their exit contents; the generator register goes
    into the pipeline's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered from every unscoped buffer at `W7`, left at `W8`.  Its arrays
    are split out of the unscoped buffers on entry and put back at their exit contents; the generator register goes
    into the pipeline's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

/-- The program's 9 items in order: a host segment per stretch from its boundary's contents, a region per launch. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)) ]
/-- The program is the run of its segments: it is the chain of its items, and the segments' run is that chain. -/
theorem main_run (c : Dev nD) : main (F := F) c = Pipeline.Seg.run (segs m ρ) := (main_chain c).trans (by chain_rfl)

set_option backward.isDefEq.respectTransparency.types false in
/-- From any memory with zero counters, every weakly fair execution of the program on the TensorCores terminates,
    nothing faulting, and in every final state each core's unscoped buffers hold the last fold `W9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The frame: from any memory with zero counters every weakly fair execution of the program terminates, nothing
    faulting, and every final state has the six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r h c =>
    ⟨(h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c)⟩) (run_all m ρ)

/-- info: 'Cert.KernelIdeal.Hand.frame' depends on axioms: [propext, Classical.choice, Quot.sound] -/
#guard_msgs in #print axioms frame

end Cert.KernelIdeal.Hand

end
-- ==== Proof.KOut.lean ====
/-
  What one launch of the dense layer's body leaves in its two output blocks, as functions of the six
  input blocks it loads: block 6 (the new features) holds the sum of the two leaky-rectified dense
  branches, block 7 the same rows scaled by the reciprocal square root of max(row's sum of squares, ε).
  Each block is written by one store through the whole block, so it is the store's value.  Also: a
  window's block at a grid point read off the array the region finds on entry.
-/
import proofs.«125014_j7464653161107_1_alg».proof.Proof.Gen.Kernel.Launch
import proofs.«125014_j7464653161107_1_alg».proof.Proof.Gen.Kernel.Skeleton
import proofs.«125014_j7464653161107_1_alg».proof.Proof.Gen.Kernel.Points
import Idealize.ShloMosaic.Lib.Pipeline.FrameBody

noncomputable section

namespace Cert.Kernel.Hand

open Cert.Kernel Cert.Kernel.Gen
open Idealize.ShloMosaic Idealize.ShloMosaic.TcCoe Idealize.SL.Sem
open Idealize.ShloMosaic.Pipeline (Dat Cfg Window)

variable {F : FTy → Type} [FloatOps F]

/-- The rectangles the body loads and stores through: each is its whole block. -/
abbrev rA : Rect S5000x64 := Rect.unit (s := S5000x64) ![0, 0] S5000x64.size inb_S5000x64_S5000x64_0_0
abbrev rB : Rect S64x64 := Rect.unit (s := S64x64) ![0, 0] S64x64.size inb_S64x64_S64x64_0_0
abbrev rC : Rect S1x64 := Rect.unit (s := S1x64) ![0, 0] S1x64.size inb_S1x64_S1x64_0_0

variable (V : (c : Dev nD) → (b : Ref sig .tc) → Buf (Elt F) ((c : Thread nD τ).loc b))

/-- Launch 0: window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Launch 0: block 6 after the body — the new features of the rows of this block. -/
def hnew0 (x0 x1 : Vec F S5000x64 .f32) (x2 : Vec F S64x64 .f32) (x3 : Vec F S1x64 .f32) (x4 : Vec F S64x64 .f32) (x5 : Vec F S1x64 .f32) : Vec F S5000x64 .f32 :=
  View.canon [⟨rA, k0_pay2 (View.ld x0 rA) (View.ld x1 rA) (View.ld x2 rB) (View.ld x3 rC) (View.ld x4 rB) (View.ld x5 rC)⟩]

/-- Launch 0: block 7 after the body — those rows normalised. -/
def l2n0 (x0 x1 : Vec F S5000x64 .f32) (x2 : Vec F S64x64 .f32) (x3 : Vec F S1x64 .f32) (x4 : Vec F S64x64 .f32) (x5 : Vec F S1x64 .f32) : Vec F S5000x64 .f32 :=
  View.canon [⟨rA, k0_pay1 (k0_pay2 (View.ld x0 rA) (View.ld x1 rA) (View.ld x2 rB) (View.ld x3 rC) (View.ld x4 rB) (View.ld x5 rC))
    (k0_pay3 (View.ld x0 rA) (View.ld x1 rA) (View.ld x2 rB) (View.ld x3 rC) (View.ld x4 rB) (View.ld x5 rC))⟩]

/-- Launch 1: window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Launch 1: block 6 after the body — the new features of the rows of this block. -/
def hnew1 (x0 x1 : Vec F S5000x64 .f32) (x2 : Vec F S64x64 .f32) (x3 : Vec F S1x64 .f32) (x4 : Vec F S64x64 .f32) (x5 : Vec F S1x64 .f32) : Vec F S5000x64 .f32 :=
  View.canon [⟨rA, k1_pay2 (View.ld x0 rA) (View.ld x1 rA) (View.ld x2 rB) (View.ld x3 rC) (View.ld x4 rB) (View.ld x5 rC)⟩]

/-- Launch 1: block 7 after the body — those rows normalised. -/
def l2n1 (x0 x1 : Vec F S5000x64 .f32) (x2 : Vec F S64x64 .f32) (x3 : Vec F S1x64 .f32) (x4 : Vec F S64x64 .f32) (x5 : Vec F S1x64 .f32) : Vec F S5000x64 .f32 :=
  View.canon [⟨rA, k1_pay1 (k1_pay2 (View.ld x0 rA) (View.ld x1 rA) (View.ld x2 rB) (View.ld x3 rC) (View.ld x4 rB) (View.ld x5 rC))
    (k1_pay3 (View.ld x0 rA) (View.ld x1 rA) (View.ld x2 rB) (View.ld x3 rC) (View.ld x4 rB) (View.ld x5 rC))⟩]

/-- Launch 2: window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Launch 2: block 6 after the body — the new features of the rows of this block. -/
def hnew2 (x0 x1 : Vec F S5000x64 .f32) (x2 : Vec F S64x64 .f32) (x3 : Vec F S1x64 .f32) (x4 : Vec F S64x64 .f32) (x5 : Vec F S1x64 .f32) : Vec F S5000x64 .f32 :=
  View.canon [⟨rA, k2_pay2 (View.ld x0 rA) (View.ld x1 rA) (View.ld x2 rB) (View.ld x3 rC) (View.ld x4 rB) (View.ld x5 rC)⟩]

/-- Launch 2: block 7 after the body — those rows normalised. -/
def l2n2 (x0 x1 : Vec F S5000x64 .f32) (x2 : Vec F S64x64 .f32) (x3 : Vec F S1x64 .f32) (x4 : Vec F S64x64 .f32) (x5 : Vec F S1x64 .f32) : Vec F S5000x64 .f32 :=
  View.canon [⟨rA, k2_pay1 (k2_pay2 (View.ld x0 rA) (View.ld x1 rA) (View.ld x2 rB) (View.ld x3 rC) (View.ld x4 rB) (View.ld x5 rC))
    (k2_pay3 (View.ld x0 rA) (View.ld x1 rA) (View.ld x2 rB) (View.ld x3 rC) (View.ld x4 rB) (View.ld x5 rC))⟩]

end Cert.Kernel.Hand

end
-- ==== Proof.KBody.lean ====
/-
  The body of each of the three launches as a Hoare triple, and the proof data of its pipeline.

  One launch's body reads its six input blocks whole (two blocks of 5000 rows of features, two
  64 x 64 weight matrices, two bias rows), computes the new features of those rows and their
  normalisation, and stores each result whole into its output block.  So after the body each
  input block is as it was found, block 6 holds `hnewK` of the six input blocks and block 7
  holds `l2nK` of them.  The proof data of the pipeline say exactly that at every grid point,
  with every array read at the contents `V` the region finds on entry; the inputs that are
  fetched only at the first point (the weights and biases, whose block index never moves) still
  hold their block at every later point.
-/
import proofs.«125014_j7464653161107_1_alg».proof.Proof.KOut
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Launch 0 -/

/-- The one store into each output block goes through the whole block, so it covers it. -/
theorem cover0 (p0 : Vec F S5000x64 .f32) (y : S5000x64.Idx) :
    ∃ pc ∈ ([⟨rA, p0⟩] : List (View.Piece (Elt F) S5000x64 .f32)), y ∈ pc.1.set :=
  View.cover_of_tiled [⟨rA, p0⟩] S5000x64.size (by rfl) y

set_option maxHeartbeats 1000000 in
/-- The body on whole staging buffers, the six inputs' at contents `x0 … x5` and the two outputs' at anything,
    runs to the continuation with the inputs' as they were, block 6 at `hnew0` and block 7 at `l2n0` of the
    inputs.  (The body reads each output block once before storing into it; what it reads there is not used.) -/
theorem sound_kernel0 (c : Dev nD) (E : Set ℕ) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S5000x64 .f32) (harg8 : arg8.IsWhole)
    (x0 x1 : Vec F S5000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (hnew0 x0 x1 x2 x3 x4 x5) ∗ owns (c : Thread nD τ) arg8 fullShare (l2n0 x0 x1 x2 x3 x4 x5)) -∗ K ⟨⟩))
      ⊢ wp frame (wpE (defs₀ (F := F)) Variants.none c none) E (cc0__dense_layer_kernel i arg1 harg1 arg2 harg2 arg3 harg3 arg4 harg4 arg5 harg5 arg6 harg6 arg7 harg7 arg8 harg8) K := by
  simp only [cc0__dense_layer_kernel_eq_skeleton]; unfold cc0__dense_layer_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0 _)
  iexists _; isplitr
  swap; · iexact H7
  ipureintro
  exact View.read_writes_eq_canon _ _ _ (cover0 _)

/-! ## The proof data of pipeline 0 -/

/-- Input window 0's current staging buffer holds its block at every point, fetched there or not, for any proof
    data whose array is `V`'s and whose body leaves the block in place: where the window is not fetched its block
    index has not moved since the point before, so the block kept from that point is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: where the window is not fetched its block
    index has not moved since the point before, so the block kept from that point is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: where the window is not fetched its block
    index has not moved since the point before, so the block kept from that point is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: where the window is not fetched its block
    index has not moved since the point before, so the block kept from that point is this point's. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place: where the window is not fetched its block
    index has not moved since the point before, so the block kept from that point is this point's. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s and whose body leaves the block in place: where the window is not fetched its block
    index has not moved since the point before, so the block kept from that point is this point's. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The proof data of pipeline 0 on core `c`: the arrays as the region finds them; after the body at point `t`
    each input's buffer at its block, block 6 at the new features and block 7 at their normalisation, both of the six
    input blocks there; the invariant is the class's (the scoped rest and the generator register, untouched); nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => hnew0 (iblk0 V c 0 t) (iblk0 V c 1 t) (iblk0 V c 2 t) (iblk0 V c 3 t) (iblk0 V c 4 t) (iblk0 V c 5 t)
    | ⟨7, _⟩ => l2n0 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = hnew0 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = l2n0 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation of pipeline 0, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' buffers hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

/-! # Launch 1 -/

/-- The one store into each output block goes through the whole block, so it covers it. -/
theorem cover1 (p0 : Vec F S5000x64 .f32) (y : S5000x64.Idx) :
    ∃ pc ∈ ([⟨rA, p0⟩] : List (View.Piece (Elt F) S5000x64 .f32)), y ∈ pc.1.set :=
  View.cover_of_tiled [⟨rA, p0⟩] S5000x64.size (by rfl) y

set_option maxHeartbeats 1000000 in
/-- The body on whole staging buffers, the six inputs' at contents `x0 … x5` and the two outputs' at anything,
    runs to the continuation with the inputs' as they were, block 6 at `hnew1` and block 7 at `l2n1` of the
    inputs.  (The body reads each output block once before storing into it; what it reads there is not used.) -/
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S5000x64 .f32) (harg8 : arg8.IsWhole)
    (x0 x1 : Vec F S5000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (hnew1 x0 x1 x2 x3 x4 x5) ∗ owns (c : Thread nD τ) arg8 fullShare (l2n1 x0 x1 x2 x3 x4 x5)) -∗ K ⟨⟩))
      ⊢ wp frame (wpE (defs₀ (F := F)) Variants.none c none) E (cc1__dense_layer_kernel i arg1 harg1 arg2 harg2 arg3 harg3 arg4 harg4 arg5 harg5 arg6 harg6 arg7 harg7 arg8 harg8) K := by
  simp only [cc1__dense_layer_kernel_eq_skeleton]; unfold cc1__dense_layer_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1 _)
  iexists _; isplitr
  swap; · iexact H7
  ipureintro
  exact View.read_writes_eq_canon _ _ _ (cover1 _)

/-! ## The proof data of pipeline 1 -/

/-- Input window 0's current staging buffer holds its block at every point, fetched there or not, for any proof
    data whose array is `V`'s and whose body leaves the block in place: where the window is not fetched its block
    index has not moved since the point before, so the block kept from that point is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: where the window is not fetched its block
    index has not moved since the point before, so the block kept from that point is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: where the window is not fetched its block
    index has not moved since the point before, so the block kept from that point is this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: where the window is not fetched its block
    index has not moved since the point before, so the block kept from that point is this point's. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: where the window is not fetched its block
    index has not moved since the point before, so the block kept from that point is this point's. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s and whose body leaves the block in place: where the window is not fetched its block
    index has not moved since the point before, so the block kept from that point is this point's. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The proof data of pipeline 1 on core `c`: the arrays as the region finds them; after the body at point `t`
    each input's buffer at its block, block 6 at the new features and block 7 at their normalisation, both of the six
    input blocks there; the invariant is the class's (the scoped rest and the generator register, untouched); nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => hnew1 (iblk1 V c 0 t) (iblk1 V c 1 t) (iblk1 V c 2 t) (iblk1 V c 3 t) (iblk1 V c 4 t) (iblk1 V c 5 t)
    | ⟨7, _⟩ => l2n1 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = hnew1 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = l2n1 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation of pipeline 1, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

/-! # Launch 2 -/

/-- The one store into each output block goes through the whole block, so it covers it. -/
theorem cover2 (p0 : Vec F S5000x64 .f32) (y : S5000x64.Idx) :
    ∃ pc ∈ ([⟨rA, p0⟩] : List (View.Piece (Elt F) S5000x64 .f32)), y ∈ pc.1.set :=
  View.cover_of_tiled [⟨rA, p0⟩] S5000x64.size (by rfl) y

set_option maxHeartbeats 1000000 in
/-- The body on whole staging buffers, the six inputs' at contents `x0 … x5` and the two outputs' at anything,
    runs to the continuation with the inputs' as they were, block 6 at `hnew2` and block 7 at `l2n2` of the
    inputs.  (The body reads each output block once before storing into it; what it reads there is not used.) -/
theorem sound_kernel2 (c : Dev nD) (E : Set ℕ) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S5000x64 .f32) (harg8 : arg8.IsWhole)
    (x0 x1 : Vec F S5000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (hnew2 x0 x1 x2 x3 x4 x5) ∗ owns (c : Thread nD τ) arg8 fullShare (l2n2 x0 x1 x2 x3 x4 x5)) -∗ K ⟨⟩))
      ⊢ wp frame (wpE (defs₀ (F := F)) Variants.none c none) E (cc2__dense_layer_kernel i arg1 harg1 arg2 harg2 arg3 harg3 arg4 harg4 arg5 harg5 arg6 harg6 arg7 harg7 arg8 harg8) K := by
  simp only [cc2__dense_layer_kernel_eq_skeleton]; unfold cc2__dense_layer_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2 _)
  iexists _; isplitr
  swap; · iexact H7
  ipureintro
  exact View.read_writes_eq_canon _ _ _ (cover2 _)

/-! ## The proof data of pipeline 2 -/

/-- Input window 0's current staging buffer holds its block at every point, fetched there or not, for any proof
    data whose array is `V`'s and whose body leaves the block in place: where the window is not fetched its block
    index has not moved since the point before, so the block kept from that point is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: where the window is not fetched its block
    index has not moved since the point before, so the block kept from that point is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: where the window is not fetched its block
    index has not moved since the point before, so the block kept from that point is this point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place: where the window is not fetched its block
    index has not moved since the point before, so the block kept from that point is this point's. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s and whose body leaves the block in place: where the window is not fetched its block
    index has not moved since the point before, so the block kept from that point is this point's. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is `V`'s and whose body leaves the block in place: where the window is not fetched its block
    index has not moved since the point before, so the block kept from that point is this point's. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The proof data of pipeline 2 on core `c`: the arrays as the region finds them; after the body at point `t`
    each input's buffer at its block, block 6 at the new features and block 7 at their normalisation, both of the six
    input blocks there; the invariant is the class's (the scoped rest and the generator register, untouched); nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => hnew2 (iblk2 V c 0 t) (iblk2 V c 1 t) (iblk2 V c 2 t) (iblk2 V c 3 t) (iblk2 V c 4 t) (iblk2 V c 5 t)
    | ⟨7, _⟩ => l2n2 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = hnew2 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = l2n2 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation of pipeline 2, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' buffers hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRun.lean ====
/-
  The run of the program through its three launches.

  Between two items of the program every core holds each of its unscoped buffers whole, at contents that are a
  fold from the launch memory: a stretch of host operations rewrites the buffers it writes, a launch leaves each of
  its arrays at what its pipeline's write-backs leave there and every other buffer alone.  The program's items are
  run one after the other over that thread state; the last contents are read against the final memory, so every
  weakly fair execution terminates, without a fault, with every unscoped buffer at the last fold.  No host operation
  and no launch writes an argument array, so the fold at an argument walks back to the launch memory.
-/
import proofs.«125014_j7464653161107_1_alg».proof.Proof.KBody
import proofs.«125014_j7464653161107_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The buffer contents between the program's items: a fold through the program -/

/-- Core `c`'s buffers at launch. -/
abbrev W0 (m : (ℓ : Loc nD τ sig) → Buf (Elt F) ℓ) (ρ : Dev nD → PrngReg) : Dev nD → Valuation τ sig (Elt F) := fun c b => m ((c : Dev nD), b)

variable (m : (ℓ : Loc nD τ sig) → Buf (Elt F) ℓ) (ρ : Dev nD → PrngReg)

/-- After the first stretch of host operations, -/
abbrev W1 : Dev nD → Valuation τ sig (Elt F) := fun c => StableHlo.after hostOps0 (W0 m ρ c)
/-- the second, -/
abbrev W2 : Dev nD → Valuation τ sig (Elt F) := fun c => StableHlo.after hostOps0_1 (W1 m ρ c)
/-- and the third: what launch 0 is entered from. -/
abbrev W3 : Dev nD → Valuation τ sig (Elt F) := fun c => StableHlo.after hostOps0_2 (W2 m ρ c)
/-- The same read at the TensorCore's references (what launch 0's proof data take). -/
abbrev V3 : (c : Dev nD) → (b : Ref sig .tc) → Buf (Elt F) ((c : Thread nD τ).loc b) := fun c b => W3 m ρ c b

/-- At launch 0's exit: its arrays at what the pipeline leaves (the inputs as entered, each output's write-backs
    folded), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the TensorCore's references (launch 0's exit contents). -/
abbrev V4 : (c : Dev nD) → (b : Ref sig .tc) → Buf (Elt F) ((c : Thread nD τ).loc b) := fun c b => W4 m ρ c b
/-- At launch 0's exit each of its arrays holds what the pipeline leaves and every other buffer what it held at entry. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the host operations between launches 0 and 1: what launch 1 is entered from. -/
abbrev W5 : Dev nD → Valuation τ sig (Elt F) := fun c => StableHlo.after hostOps1 (W4 m ρ c)
/-- The same read at the TensorCore's references (what launch 1's proof data take). -/
abbrev V5 : (c : Dev nD) → (b : Ref sig .tc) → Buf (Elt F) ((c : Thread nD τ).loc b) := fun c b => W5 m ρ c b

/-- At launch 1's exit: its arrays at what the pipeline leaves (the inputs as entered, each output's write-backs
    folded), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the TensorCore's references (launch 1's exit contents). -/
abbrev V6 : (c : Dev nD) → (b : Ref sig .tc) → Buf (Elt F) ((c : Thread nD τ).loc b) := fun c b => W6 m ρ c b
/-- At launch 1's exit each of its arrays holds what the pipeline leaves and every other buffer what it held at entry. -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After the host operations between launches 1 and 2: what launch 2 is entered from. -/
abbrev W7 : Dev nD → Valuation τ sig (Elt F) := fun c => StableHlo.after hostOps2 (W6 m ρ c)
/-- The same read at the TensorCore's references (what launch 2's proof data take). -/
abbrev V7 : (c : Dev nD) → (b : Ref sig .tc) → Buf (Elt F) ((c : Thread nD τ).loc b) := fun c b => W7 m ρ c b

/-- At launch 2's exit: its arrays at what the pipeline leaves (the inputs as entered, each output's write-backs
    folded), every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- The same read at the TensorCore's references (launch 2's exit contents). -/
abbrev V8 : (c : Dev nD) → (b : Ref sig .tc) → Buf (Elt F) ((c : Thread nD τ).loc b) := fun c b => W8 m ρ c b
/-- At launch 2's exit each of its arrays holds what the pipeline leaves and every other buffer what it held at entry. -/
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-- After the last host operation: the contents the program returns with. -/
abbrev W9 : Dev nD → Valuation τ sig (Elt F) := fun c => StableHlo.after hostOps3 (W8 m ρ c)

/-! ### The arguments end as launched

No host operation writes an argument, and a launch either reads it through an input window (whose array the
pipeline leaves as entered) or does not name it, so the fold at an argument's buffer walks back to the launch memory. -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := StableHlo.after_of_writes_sub hostOps3 _ hostOps3_writes (by decide)
    _ = W7 m ρ c (Proc.devRef .tc main_arg0) := (by first
          | exact W8_of_ne m ρ c main_arg0 (by decide)
          | exact (W8_arr m ρ c 0).trans (((dat2 (V7 m ρ) c).arrAt_in 0 rfl _).trans (A_eq2 (V7 m ρ) c 0))
          | exact (W8_arr m ρ c 1).trans (((dat2 (V7 m ρ) c).arrAt_in 1 rfl _).trans (A_eq2 (V7 m ρ) c 1)))
    _ = W6 m ρ c (Proc.devRef .tc main_arg0) := StableHlo.after_of_writes_sub hostOps2 _ hostOps2_writes (by decide)
    _ = W5 m ρ c (Proc.devRef .tc main_arg0) := (by first
          | exact W6_of_ne m ρ c main_arg0 (by decide)
          | exact (W6_arr m ρ c 0).trans (((dat1 (V5 m ρ) c).arrAt_in 0 rfl _).trans (A_eq1 (V5 m ρ) c 0))
          | exact (W6_arr m ρ c 1).trans (((dat1 (V5 m ρ) c).arrAt_in 1 rfl _).trans (A_eq1 (V5 m ρ) c 1)))
    _ = W4 m ρ c (Proc.devRef .tc main_arg0) := StableHlo.after_of_writes_sub hostOps1 _ hostOps1_writes (by decide)
    _ = W3 m ρ c (Proc.devRef .tc main_arg0) := (by first
          | exact W4_of_ne m ρ c main_arg0 (by decide)
          | exact (W4_arr m ρ c 0).trans (((dat0 (V3 m ρ) c).arrAt_in 0 rfl _).trans (A_eq0 (V3 m ρ) c 0))
          | exact (W4_arr m ρ c 1).trans (((dat0 (V3 m ρ) c).arrAt_in 1 rfl _).trans (A_eq0 (V3 m ρ) c 1)))
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl

theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := StableHlo.after_of_writes_sub hostOps3 _ hostOps3_writes (by decide)
    _ = W7 m ρ c (Proc.devRef .tc main_arg1) := (by first
          | exact W8_of_ne m ρ c main_arg1 (by decide)
          | exact (W8_arr m ρ c 0).trans (((dat2 (V7 m ρ) c).arrAt_in 0 rfl _).trans (A_eq2 (V7 m ρ) c 0))
          | exact (W8_arr m ρ c 1).trans (((dat2 (V7 m ρ) c).arrAt_in 1 rfl _).trans (A_eq2 (V7 m ρ) c 1)))
    _ = W6 m ρ c (Proc.devRef .tc main_arg1) := StableHlo.after_of_writes_sub hostOps2 _ hostOps2_writes (by decide)
    _ = W5 m ρ c (Proc.devRef .tc main_arg1) := (by first
          | exact W6_of_ne m ρ c main_arg1 (by decide)
          | exact (W6_arr m ρ c 0).trans (((dat1 (V5 m ρ) c).arrAt_in 0 rfl _).trans (A_eq1 (V5 m ρ) c 0))
          | exact (W6_arr m ρ c 1).trans (((dat1 (V5 m ρ) c).arrAt_in 1 rfl _).trans (A_eq1 (V5 m ρ) c 1)))
    _ = W4 m ρ c (Proc.devRef .tc main_arg1) := StableHlo.after_of_writes_sub hostOps1 _ hostOps1_writes (by decide)
    _ = W3 m ρ c (Proc.devRef .tc main_arg1) := (by first
          | exact W4_of_ne m ρ c main_arg1 (by decide)
          | exact (W4_arr m ρ c 0).trans (((dat0 (V3 m ρ) c).arrAt_in 0 rfl _).trans (A_eq0 (V3 m ρ) c 0))
          | exact (W4_arr m ρ c 1).trans (((dat0 (V3 m ρ) c).arrAt_in 1 rfl _).trans (A_eq0 (V3 m ρ) c 1)))
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := StableHlo.after_of_writes_sub hostOps3 _ hostOps3_writes (by decide)
    _ = W7 m ρ c (Proc.devRef .tc main_arg2) := (by first
          | exact W8_of_ne m ρ c main_arg2 (by decide)
          | exact (W8_arr m ρ c 0).trans (((dat2 (V7 m ρ) c).arrAt_in 0 rfl _).trans (A_eq2 (V7 m ρ) c 0))
          | exact (W8_arr m ρ c 1).trans (((dat2 (V7 m ρ) c).arrAt_in 1 rfl _).trans (A_eq2 (V7 m ρ) c 1)))
    _ = W6 m ρ c (Proc.devRef .tc main_arg2) := StableHlo.after_of_writes_sub hostOps2 _ hostOps2_writes (by decide)
    _ = W5 m ρ c (Proc.devRef .tc main_arg2) := (by first
          | exact W6_of_ne m ρ c main_arg2 (by decide)
          | exact (W6_arr m ρ c 0).trans (((dat1 (V5 m ρ) c).arrAt_in 0 rfl _).trans (A_eq1 (V5 m ρ) c 0))
          | exact (W6_arr m ρ c 1).trans (((dat1 (V5 m ρ) c).arrAt_in 1 rfl _).trans (A_eq1 (V5 m ρ) c 1)))
    _ = W4 m ρ c (Proc.devRef .tc main_arg2) := StableHlo.after_of_writes_sub hostOps1 _ hostOps1_writes (by decide)
    _ = W3 m ρ c (Proc.devRef .tc main_arg2) := (by first
          | exact W4_of_ne m ρ c main_arg2 (by decide)
          | exact (W4_arr m ρ c 0).trans (((dat0 (V3 m ρ) c).arrAt_in 0 rfl _).trans (A_eq0 (V3 m ρ) c 0))
          | exact (W4_arr m ρ c 1).trans (((dat0 (V3 m ρ) c).arrAt_in 1 rfl _).trans (A_eq0 (V3 m ρ) c 1)))
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := StableHlo.after_of_writes_sub hostOps3 _ hostOps3_writes (by decide)
    _ = W7 m ρ c (Proc.devRef .tc main_arg3) := (by first
          | exact W8_of_ne m ρ c main_arg3 (by decide)
          | exact (W8_arr m ρ c 0).trans (((dat2 (V7 m ρ) c).arrAt_in 0 rfl _).trans (A_eq2 (V7 m ρ) c 0))
          | exact (W8_arr m ρ c 1).trans (((dat2 (V7 m ρ) c).arrAt_in 1 rfl _).trans (A_eq2 (V7 m ρ) c 1)))
    _ = W6 m ρ c (Proc.devRef .tc main_arg3) := StableHlo.after_of_writes_sub hostOps2 _ hostOps2_writes (by decide)
    _ = W5 m ρ c (Proc.devRef .tc main_arg3) := (by first
          | exact W6_of_ne m ρ c main_arg3 (by decide)
          | exact (W6_arr m ρ c 0).trans (((dat1 (V5 m ρ) c).arrAt_in 0 rfl _).trans (A_eq1 (V5 m ρ) c 0))
          | exact (W6_arr m ρ c 1).trans (((dat1 (V5 m ρ) c).arrAt_in 1 rfl _).trans (A_eq1 (V5 m ρ) c 1)))
    _ = W4 m ρ c (Proc.devRef .tc main_arg3) := StableHlo.after_of_writes_sub hostOps1 _ hostOps1_writes (by decide)
    _ = W3 m ρ c (Proc.devRef .tc main_arg3) := (by first
          | exact W4_of_ne m ρ c main_arg3 (by decide)
          | exact (W4_arr m ρ c 0).trans (((dat0 (V3 m ρ) c).arrAt_in 0 rfl _).trans (A_eq0 (V3 m ρ) c 0))
          | exact (W4_arr m ρ c 1).trans (((dat0 (V3 m ρ) c).arrAt_in 1 rfl _).trans (A_eq0 (V3 m ρ) c 1)))
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl

theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := StableHlo.after_of_writes_sub hostOps3 _ hostOps3_writes (by decide)
    _ = W7 m ρ c (Proc.devRef .tc main_arg4) := (by first
          | exact W8_of_ne m ρ c main_arg4 (by decide)
          | exact (W8_arr m ρ c 0).trans (((dat2 (V7 m ρ) c).arrAt_in 0 rfl _).trans (A_eq2 (V7 m ρ) c 0))
          | exact (W8_arr m ρ c 1).trans (((dat2 (V7 m ρ) c).arrAt_in 1 rfl _).trans (A_eq2 (V7 m ρ) c 1)))
    _ = W6 m ρ c (Proc.devRef .tc main_arg4) := StableHlo.after_of_writes_sub hostOps2 _ hostOps2_writes (by decide)
    _ = W5 m ρ c (Proc.devRef .tc main_arg4) := (by first
          | exact W6_of_ne m ρ c main_arg4 (by decide)
          | exact (W6_arr m ρ c 0).trans (((dat1 (V5 m ρ) c).arrAt_in 0 rfl _).trans (A_eq1 (V5 m ρ) c 0))
          | exact (W6_arr m ρ c 1).trans (((dat1 (V5 m ρ) c).arrAt_in 1 rfl _).trans (A_eq1 (V5 m ρ) c 1)))
    _ = W4 m ρ c (Proc.devRef .tc main_arg4) := StableHlo.after_of_writes_sub hostOps1 _ hostOps1_writes (by decide)
    _ = W3 m ρ c (Proc.devRef .tc main_arg4) := (by first
          | exact W4_of_ne m ρ c main_arg4 (by decide)
          | exact (W4_arr m ρ c 0).trans (((dat0 (V3 m ρ) c).arrAt_in 0 rfl _).trans (A_eq0 (V3 m ρ) c 0))
          | exact (W4_arr m ρ c 1).trans (((dat0 (V3 m ρ) c).arrAt_in 1 rfl _).trans (A_eq0 (V3 m ρ) c 1)))
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl

theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := StableHlo.after_of_writes_sub hostOps3 _ hostOps3_writes (by decide)
    _ = W7 m ρ c (Proc.devRef .tc main_arg5) := (by first
          | exact W8_of_ne m ρ c main_arg5 (by decide)
          | exact (W8_arr m ρ c 0).trans (((dat2 (V7 m ρ) c).arrAt_in 0 rfl _).trans (A_eq2 (V7 m ρ) c 0))
          | exact (W8_arr m ρ c 1).trans (((dat2 (V7 m ρ) c).arrAt_in 1 rfl _).trans (A_eq2 (V7 m ρ) c 1)))
    _ = W6 m ρ c (Proc.devRef .tc main_arg5) := StableHlo.after_of_writes_sub hostOps2 _ hostOps2_writes (by decide)
    _ = W5 m ρ c (Proc.devRef .tc main_arg5) := (by first
          | exact W6_of_ne m ρ c main_arg5 (by decide)
          | exact (W6_arr m ρ c 0).trans (((dat1 (V5 m ρ) c).arrAt_in 0 rfl _).trans (A_eq1 (V5 m ρ) c 0))
          | exact (W6_arr m ρ c 1).trans (((dat1 (V5 m ρ) c).arrAt_in 1 rfl _).trans (A_eq1 (V5 m ρ) c 1)))
    _ = W4 m ρ c (Proc.devRef .tc main_arg5) := StableHlo.after_of_writes_sub hostOps1 _ hostOps1_writes (by decide)
    _ = W3 m ρ c (Proc.devRef .tc main_arg5) := (by first
          | exact W4_of_ne m ρ c main_arg5 (by decide)
          | exact (W4_arr m ρ c 0).trans (((dat0 (V3 m ρ) c).arrAt_in 0 rfl _).trans (A_eq0 (V3 m ρ) c 0))
          | exact (W4_arr m ρ c 1).trans (((dat0 (V3 m ρ) c).arrAt_in 1 rfl _).trans (A_eq0 (V3 m ρ) c 1)))
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl

/-- Each of the six argument arrays holds at the end what it held at launch. -/
theorem W9_kept (c : Dev nD) (b : Ref sig .tc)
    (hb : b ∈ ([main_arg0, main_arg1, main_arg2, main_arg3, main_arg4, main_arg5] : List (Ref sig .tc))) :
    W9 m ρ c (Proc.devRef .tc b) = m ((c : Thread nD τ).loc b) := by
  simp only [List.mem_cons, List.not_mem_nil, or_false] at hb
  rcases hb with rfl | rfl | rfl | rfl | rfl | rfl
  · exact W9_main_arg0 m ρ c
  · exact W9_main_arg1 m ρ c
  · exact W9_main_arg2 m ρ c
  · exact W9_main_arg3 m ρ c
  · exact W9_main_arg4 m ρ c
  · exact W9_main_arg5 m ρ c

/-! ## The proof data family and the thread state -/

/-- Every pipeline's proof data, each at its launch's entry contents. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debts,
    at nothing. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding along:
    it ends with those references at the stretch's fold of `W`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last contents, the generator register
    at some state. -/
abbrev Tₙ (c : Dev nD) : sProp 𝕄 := iprop(StableHlo.held (c : Thread nD τ) (Pipeline.ucRefs τ sig) (W9 m ρ c) ∗ ∃ r, prngReg c r)

/-! ## The launches as segments -/

set_option backward.isDefEq.respectTransparency.types false in
/-- Launch 0 over the thread state: entered from every unscoped buffer at `W3`, left at `W4`.  Its arrays
    are split out of the unscoped buffers on entry and put back at their exit contents; the generator register goes
    into the pipeline's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at `W5`, left at `W6`.  Its arrays
    are split out of the unscoped buffers on entry and put back at their exit contents; the generator register goes
    into the pipeline's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered from every unscoped buffer at `W7`, left at `W8`.  Its arrays
    are split out of the unscoped buffers on entry and put back at their exit contents; the generator register goes
    into the pipeline's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

/-- The program's 9 items in order: a host segment per stretch from its boundary's contents, a region per launch. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)) ]
/-- The program is the run of its segments: it is the chain of its items, and the segments' run is that chain. -/
theorem main_run (c : Dev nD) : main (F := F) c = Pipeline.Seg.run (segs m ρ) := (main_chain c).trans (by chain_rfl)

set_option backward.isDefEq.respectTransparency.types false in
/-- From any memory with zero counters, every weakly fair execution of the program on the TensorCores terminates,
    nothing faulting, and in every final state each core's unscoped buffers hold the last fold `W9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The frame: from any memory with zero counters every weakly fair execution of the program terminates, nothing
    faulting, and every final state has the six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r h c =>
    ⟨(h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c)⟩) (run_all m ρ)

/-- info: 'Cert.Kernel.Hand.frame' depends on axioms: [propext, Classical.choice, Quot.sound] -/
#guard_msgs in #print axioms frame

end Cert.Kernel.Hand

end
-- ==== Proof.RefRun.lean ====
import proofs.«125014_j7464653161107_1_alg».proof.Proof.Gen.ReferenceIdeal
import Idealize.ShloMosaic.Lib.StableHlo.Run

/-!
The reference program's run, read back as a fold of its host operations.

The reference's @main is a straight line of StableHLO operations in which seven lines are calls of module-local
functions (`_where` once, `leaky_relu` six times, each of which calls `_where_0`). A call means the callee's body executed
on the operands, so @main is the sequence of its own operations with every callee's operations standing at the call
site, over the buffers that call names. This module lists that sequence (`ops`, in five consecutive stretches), shows
@main equal to it (`main_eq`), and concludes that every weakly fair execution terminates with each buffer holding the
fold of the operations' results over the launch contents (`run`), the six argument buffers as they were (`kept`,
`frame`).
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations from its first through the edge weight `%26`: the two rows of the edge table, the degree of every node
    (a scatter-add of ones along the first row), its reciprocal square root where the degree is positive and zero elsewhere
    (the called `_where`: its three operations stand at the call, over the call's buffers), gathered at both end points of
    every edge, and the product of the two. -/
abbrev opsW : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_cst (constant S_ .f32 0x3F800000#32),
    StableHlo.unary main_cst main_v4 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v5 (broadcastInDim S100000 ![] bcast_S_S100000 : (⟨S_, .f32⟩ : BufTy).Contents (Elt F) → (⟨S100000, .f32⟩ : BufTy).Contents (Elt F)),
    StableHlo.unary main_v1 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x00000000#32),
    StableHlo.unary main_cst_1 main_v8 (broadcastInDim S100000 ![] bcast_S_S100000 : (⟨S_, .f32⟩ : BufTy).Contents (Elt F) → (⟨S100000, .f32⟩ : BufTy).Contents (Elt F)),
    StableHlo.binary main_v7 main_v8 main_v9 (cmpf .ogt : (⟨S100000, .f32⟩ : BufTy).Contents (Elt F) → (⟨S100000, .f32⟩ : BufTy).Contents (Elt F) → (⟨S100000, .i1⟩ : BufTy).Contents (Elt F)),
    StableHlo.unary main_v7 main_v10 (Host.rsqrt : (⟨S100000, .f32⟩ : BufTy).Contents (Elt F) → (⟨S100000, .f32⟩ : BufTy).Contents (Elt F)),
    StableHlo.nullary main_cst_2 (constant S_ .f32 0x00000000#32),
    StableHlo.TRef.unary (.of main_cst_2 : StableHlo.TRef sig ⟨S_, .f32⟩) main_call0.v0 id,
    StableHlo.TRef.unary main_call0.v0 main_call0.v1 (broadcastInDim S100000 ![] bcast_S_S100000),
    StableHlo.TRef.ternary (.of main_v9 : StableHlo.TRef sig ⟨S100000, .i1⟩) (.of main_v10 : StableHlo.TRef sig ⟨S100000, .f32⟩) main_call0.v1 main_call0.v2 select,
    StableHlo.nullary main_c (constantI S_ 32 0#32),
    StableHlo.unary main_c main_v12 (broadcastInDim S1600000 ![] bcast_S_S1600000 : (⟨S_, .i32⟩ : BufTy).Contents (Elt F) → (⟨S1600000, .i32⟩ : BufTy).Contents (Elt F)),
    StableHlo.binary main_v1 main_v12 main_v13 (cmpi .slt : (⟨S1600000, .i32⟩ : BufTy).Contents (Elt F) → (⟨S1600000, .i32⟩ : BufTy).Contents (Elt F) → (⟨S1600000, .i1⟩ : BufTy).Contents (Elt F)),
    StableHlo.nullary main_c_3 (constantI S_ 32 100000#32),
    StableHlo.unary main_c_3 main_v14 (broadcastInDim S1600000 ![] bcast_S_S1600000 : (⟨S_, .i32⟩ : BufTy).Contents (Elt F) → (⟨S1600000, .i32⟩ : BufTy).Contents (Elt F)),
    StableHlo.binary main_v1 main_v14 main_v15 (addi : (⟨S1600000, .i32⟩ : BufTy).Contents (Elt F) → (⟨S1600000, .i32⟩ : BufTy).Contents (Elt F) → (⟨S1600000, .i32⟩ : BufTy).Contents (Elt F)),
    StableHlo.ternary main_v13 main_v15 main_v1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v16 main_v17 (broadcastInDim S1600000x1 ![0] bcast_S1600000_S1600000x1_0 : (⟨S1600000, .i32⟩ : BufTy).Contents (Elt F) → (⟨S1600000x1, .i32⟩ : BufTy).Contents (Elt F)),
    StableHlo.binary main_v11 main_v17 main_v18 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_4 (constantI S_ 32 0#32),
    StableHlo.unary main_c_4 main_v19 (broadcastInDim S1600000 ![] bcast_S_S1600000 : (⟨S_, .i32⟩ : BufTy).Contents (Elt F) → (⟨S1600000, .i32⟩ : BufTy).Contents (Elt F)),
    StableHlo.binary main_v3 main_v19 main_v20 (cmpi .slt : (⟨S1600000, .i32⟩ : BufTy).Contents (Elt F) → (⟨S1600000, .i32⟩ : BufTy).Contents (Elt F) → (⟨S1600000, .i1⟩ : BufTy).Contents (Elt F)),
    StableHlo.nullary main_c_5 (constantI S_ 32 100000#32),
    StableHlo.unary main_c_5 main_v21 (broadcastInDim S1600000 ![] bcast_S_S1600000 : (⟨S_, .i32⟩ : BufTy).Contents (Elt F) → (⟨S1600000, .i32⟩ : BufTy).Contents (Elt F)),
    StableHlo.binary main_v3 main_v21 main_v22 (addi : (⟨S1600000, .i32⟩ : BufTy).Contents (Elt F) → (⟨S1600000, .i32⟩ : BufTy).Contents (Elt F) → (⟨S1600000, .i32⟩ : BufTy).Contents (Elt F)),
    StableHlo.ternary main_v20 main_v22 main_v3 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v23 main_v24 (broadcastInDim S1600000x1 ![0] bcast_S1600000_S1600000x1_0 : (⟨S1600000, .i32⟩ : BufTy).Contents (Elt F) → (⟨S1600000x1, .i32⟩ : BufTy).Contents (Elt F)),
    StableHlo.binary main_v11 main_v24 main_v25 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v18 main_v25 main_v26 (mulf : (⟨S1600000, .f32⟩ : BufTy).Contents (Elt F) → (⟨S1600000, .f32⟩ : BufTy).Contents (Elt F) → (⟨S1600000, .f32⟩ : BufTy).Contents (Elt F)) ]

/-- The first layer, from the weight's broadcast `%27` through the row-normalised `%67`: the weighted neighbour sum (gather,
    product, scatter-add), its dense map with bias, and the dense map with bias of its elementwise product with the features,
    each under the called `leaky_relu` (seven operations at the call, the last the nested `_where_0`'s select), the two summed
    (`%59`), and that sum times the reciprocal root of its rows' squared norms bounded below. -/
abbrev opsL1 : List (HloOp τ sig (Elt F)) :=
  [ StableHlo.unary main_v26 main_v27 (broadcastInDim S1600000x1 ![0] bcast_S1600000_S1600000x1_0 : (⟨S1600000, .f32⟩ : BufTy).Contents (Elt F) → (⟨S1600000x1, .f32⟩ : BufTy).Contents (Elt F)),
    StableHlo.nullary main_c_6 (constantI S_ 32 0#32),
    StableHlo.unary main_c_6 main_v28 (broadcastInDim S1600000 ![] bcast_S_S1600000 : (⟨S_, .i32⟩ : BufTy).Contents (Elt F) → (⟨S1600000, .i32⟩ : BufTy).Contents (Elt F)),
    StableHlo.binary main_v3 main_v28 main_v29 (cmpi .slt : (⟨S1600000, .i32⟩ : BufTy).Contents (Elt F) → (⟨S1600000, .i32⟩ : BufTy).Contents (Elt F) → (⟨S1600000, .i1⟩ : BufTy).Contents (Elt F)),
    StableHlo.nullary main_c_7 (constantI S_ 32 100000#32),
    StableHlo.unary main_c_7 main_v30 (broadcastInDim S1600000 ![] bcast_S_S1600000 : (⟨S_, .i32⟩ : BufTy).Contents (Elt F) → (⟨S1600000, .i32⟩ : BufTy).Contents (Elt F)),
    StableHlo.binary main_v3 main_v30 main_v31 (addi : (⟨S1600000, .i32⟩ : BufTy).Contents (Elt F) → (⟨S1600000, .i32⟩ : BufTy).Contents (Elt F) → (⟨S1600000, .i32⟩ : BufTy).Contents (Elt F)),
    StableHlo.ternary main_v29 main_v31 main_v3 main_v32 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v32 main_v33 (broadcastInDim S1600000x1 ![0] bcast_S1600000_S1600000x1_0 : (⟨S1600000, .i32⟩ : BufTy).Contents (Elt F) → (⟨S1600000x1, .i32⟩ : BufTy).Contents (Elt F)),
    StableHlo.binary main_arg0 main_v33 main_v34 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v27 main_v35 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v35 main_v34 main_v36 (mulf : (⟨S1600000x64, .f32⟩ : BufTy).Contents (Elt F) → (⟨S1600000x64, .f32⟩ : BufTy).Contents (Elt F) → (⟨S1600000x64, .f32⟩ : BufTy).Contents (Elt F)),
    StableHlo.nullary main_cst_8 (constant S_ .f32 0x00000000#32),
    StableHlo.unary main_cst_8 main_v37 (broadcastInDim S100000x64 ![] bcast_S_S100000x64 : (⟨S_, .f32⟩ : BufTy).Contents (Elt F) → (⟨S100000x64, .f32⟩ : BufTy).Contents (Elt F)),
    StableHlo.unary main_v1 main_v38 (broadcastInDim S1600000x1 ![0] bcast_S1600000_S1600000x1_0 : (⟨S1600000, .i32⟩ : BufTy).Contents (Elt F) → (⟨S1600000x1, .i32⟩ : BufTy).Contents (Elt F)),
    StableHlo.ternary main_v37 main_v38 main_v36 main_v39 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_arg2 main_v40 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v40 main_v41 rfl shapeCasts_S1x64x64_S64x64,
    StableHlo.binary main_v39 main_v41 main_v42 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg3 main_v43 ((extractStridedSlice S1x64 ![0, 0] · slices_S3x64_S1x64_0_0) : (⟨S3x64, .f32⟩ : BufTy).Contents (Elt F) → (⟨S1x64, .f32⟩ : BufTy).Contents (Elt F)),
    StableHlo.reshape main_v43 main_v44 rfl shapeCasts_S1x64_S64,
    StableHlo.unary main_v44 main_v45 (broadcastInDim S1x64 ![1] bcast_S64_S1x64_1 : (⟨S64, .f32⟩ : BufTy).Contents (Elt F) → (⟨S1x64, .f32⟩ : BufTy).Contents (Elt F)),
    StableHlo.unary main_v45 main_v46 (broadcastInDim S100000x64 ![0, 1] bcast_S1x64_S100000x64_0_1 : (⟨S1x64, .f32⟩ : BufTy).Contents (Elt F) → (⟨S100000x64, .f32⟩ : BufTy).Contents (Elt F)),
    StableHlo.binary main_v42 main_v46 main_v47 (addf : (⟨S100000x64, .f32⟩ : BufTy).Contents (Elt F) → (⟨S100000x64, .f32⟩ : BufTy).Contents (Elt F) → (⟨S100000x64, .f32⟩ : BufTy).Contents (Elt F)),
    StableHlo.nullary main_cst_9 (constant S_ .f32 0x3E4CCCCD#32),
    StableHlo.TRef.nullary main_call1.cst (constant S_ .f32 0x00000000#32),
    StableHlo.TRef.unary main_call1.cst main_call1.v0 (broadcastInDim S100000x64 ![] bcast_S_S100000x64),
    StableHlo.TRef.binary (.of main_v47 : StableHlo.TRef sig ⟨S100000x64, .f32⟩) main_call1.v0 main_call1.v1 (cmpf .oge),
    StableHlo.TRef.unary (.of main_cst_9 : StableHlo.TRef sig ⟨S_, .f32⟩) main_call1.v2 id,
    StableHlo.TRef.unary main_call1.v2 main_call1.v3 (broadcastInDim S100000x64 ![] bcast_S_S100000x64),
    StableHlo.TRef.binary main_call1.v3 (.of main_v47 : StableHlo.TRef sig ⟨S100000x64, .f32⟩) main_call1.v4 mulf,
    StableHlo.TRef.ternary main_call1.v1 (.of main_v47 : StableHlo.TRef sig ⟨S100000x64, .f32⟩) main_call1.v4 main_call1.call0.v0 select,
    StableHlo.binary main_arg0 main_v39 main_v49 (mulf : (⟨S100000x64, .f32⟩ : BufTy).Contents (Elt F) → (⟨S100000x64, .f32⟩ : BufTy).Contents (Elt F) → (⟨S100000x64, .f32⟩ : BufTy).Contents (Elt F)),
    StableHlo.unary main_arg4 main_v50 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v50 main_v51 rfl shapeCasts_S1x64x64_S64x64,
    StableHlo.binary main_v49 main_v51 main_v52 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg5 main_v53 ((extractStridedSlice S1x64 ![0, 0] · slices_S3x64_S1x64_0_0) : (⟨S3x64, .f32⟩ : BufTy).Contents (Elt F) → (⟨S1x64, .f32⟩ : BufTy).Contents (Elt F)),
    StableHlo.reshape main_v53 main_v54 rfl shapeCasts_S1x64_S64,
    StableHlo.unary main_v54 main_v55 (broadcastInDim S1x64 ![1] bcast_S64_S1x64_1 : (⟨S64, .f32⟩ : BufTy).Contents (Elt F) → (⟨S1x64, .f32⟩ : BufTy).Contents (Elt F)),
    StableHlo.unary main_v55 main_v56 (broadcastInDim S100000x64 ![0, 1] bcast_S1x64_S100000x64_0_1 : (⟨S1x64, .f32⟩ : BufTy).Contents (Elt F) → (⟨S100000x64, .f32⟩ : BufTy).Contents (Elt F)),
    StableHlo.binary main_v52 main_v56 main_v57 (addf : (⟨S100000x64, .f32⟩ : BufTy).Contents (Elt F) → (⟨S100000x64, .f32⟩ : BufTy).Contents (Elt F) → (⟨S100000x64, .f32⟩ : BufTy).Contents (Elt F)),
    StableHlo.nullary main_cst_10 (constant S_ .f32 0x3E4CCCCD#32),
    StableHlo.TRef.nullary main_call2.cst (constant S_ .f32 0x00000000#32),
    StableHlo.TRef.unary main_call2.cst main_call2.v0 (broadcastInDim S100000x64 ![] bcast_S_S100000x64),
    StableHlo.TRef.binary (.of main_v57 : StableHlo.TRef sig ⟨S100000x64, .f32⟩) main_call2.v0 main_call2.v1 (cmpf .oge),
    StableHlo.TRef.unary (.of main_cst_10 : StableHlo.TRef sig ⟨S_, .f32⟩) main_call2.v2 id,
    StableHlo.TRef.unary main_call2.v2 main_call2.v3 (broadcastInDim S100000x64 ![] bcast_S_S100000x64),
    StableHlo.TRef.binary main_call2.v3 (.of main_v57 : StableHlo.TRef sig ⟨S100000x64, .f32⟩) main_call2.v4 mulf,
    StableHlo.TRef.ternary main_call2.v1 (.of main_v57 : StableHlo.TRef sig ⟨S100000x64, .f32⟩) main_call2.v4 main_call2.call0.v0 select,
    StableHlo.binary main_v48 main_v58 main_v59 (addf : (⟨S100000x64, .f32⟩ : BufTy).Contents (Elt F) → (⟨S100000x64, .f32⟩ : BufTy).Contents (Elt F) → (⟨S100000x64, .f32⟩ : BufTy).Contents (Elt F)),
    StableHlo.binary main_v59 main_v59 main_v60 (mulf : (⟨S100000x64, .f32⟩ : BufTy).Contents (Elt F) → (⟨S100000x64, .f32⟩ : BufTy).Contents (Elt F) → (⟨S100000x64, .f32⟩ : BufTy).Contents (Elt F)),
    StableHlo.nullary main_cst_11 (constant S_ .f32 0x00000000#32),
    StableHlo.binary main_v60 main_cst_11 main_v61 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_v61 main_v62 (broadcastInDim S100000x1 ![0] bcast_S100000_S100000x1_0 : (⟨S100000, .f32⟩ : BufTy).Contents (Elt F) → (⟨S100000x1, .f32⟩ : BufTy).Contents (Elt F)),
    StableHlo.nullary main_cst_12 (constant S_ .f32 0x2B8CBCCC#32),
    StableHlo.unary main_cst_12 main_v63 (broadcastInDim S100000x1 ![] bcast_S_S100000x1 : (⟨S_, .f32⟩ : BufTy).Contents (Elt F) → (⟨S100000x1, .f32⟩ : BufTy).Contents (Elt F)),
    StableHlo.binary main_v62 main_v63 main_v64 (maximumf : (⟨S100000x1, .f32⟩ : BufTy).Contents (Elt F) → (⟨S100000x1, .f32⟩ : BufTy).Contents (Elt F) → (⟨S100000x1, .f32⟩ : BufTy).Contents (Elt F)),
    StableHlo.unary main_v64 main_v65 (Host.rsqrt : (⟨S100000x1, .f32⟩ : BufTy).Contents (Elt F) → (⟨S100000x1, .f32⟩ : BufTy).Contents (Elt F)),
    StableHlo.unary main_v65 main_v66 (broadcastInDim S100000x64 ![0, 1] bcast_S100000x1_S100000x64_0_1 : (⟨S100000x1, .f32⟩ : BufTy).Contents (Elt F) → (⟨S100000x64, .f32⟩ : BufTy).Contents (Elt F)),
    StableHlo.binary main_v59 main_v66 main_v67 (mulf : (⟨S100000x64, .f32⟩ : BufTy).Contents (Elt F) → (⟨S100000x64, .f32⟩ : BufTy).Contents (Elt F) → (⟨S100000x64, .f32⟩ : BufTy).Contents (Elt F)) ]

/-- The second layer, the same stretch over the first layer's sum `%59`: from `%68` through `%108`, its sum `%100`. -/
abbrev opsL2 : List (HloOp τ sig (Elt F)) :=
  [ StableHlo.unary main_v26 main_v68 (broadcastInDim S1600000x1 ![0] bcast_S1600000_S1600000x1_0 : (⟨S1600000, .f32⟩ : BufTy).Contents (Elt F) → (⟨S1600000x1, .f32⟩ : BufTy).Contents (Elt F)),
    StableHlo.nullary main_c_13 (constantI S_ 32 0#32),
    StableHlo.unary main_c_13 main_v69 (broadcastInDim S1600000 ![] bcast_S_S1600000 : (⟨S_, .i32⟩ : BufTy).Contents (Elt F) → (⟨S1600000, .i32⟩ : BufTy).Contents (Elt F)),
    StableHlo.binary main_v3 main_v69 main_v70 (cmpi .slt : (⟨S1600000, .i32⟩ : BufTy).Contents (Elt F) → (⟨S1600000, .i32⟩ : BufTy).Contents (Elt F) → (⟨S1600000, .i1⟩ : BufTy).Contents (Elt F)),
    StableHlo.nullary main_c_14 (constantI S_ 32 100000#32),
    StableHlo.unary main_c_14 main_v71 (broadcastInDim S1600000 ![] bcast_S_S1600000 : (⟨S_, .i32⟩ : BufTy).Contents (Elt F) → (⟨S1600000, .i32⟩ : BufTy).Contents (Elt F)),
    StableHlo.binary main_v3 main_v71 main_v72 (addi : (⟨S1600000, .i32⟩ : BufTy).Contents (Elt F) → (⟨S1600000, .i32⟩ : BufTy).Contents (Elt F) → (⟨S1600000, .i32⟩ : BufTy).Contents (Elt F)),
    StableHlo.ternary main_v70 main_v72 main_v3 main_v73 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v73 main_v74 (broadcastInDim S1600000x1 ![0] bcast_S1600000_S1600000x1_0 : (⟨S1600000, .i32⟩ : BufTy).Contents (Elt F) → (⟨S1600000x1, .i32⟩ : BufTy).Contents (Elt F)),
    StableHlo.binary main_v59 main_v74 main_v75 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v68 main_v76 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v76 main_v75 main_v77 (mulf : (⟨S1600000x64, .f32⟩ : BufTy).Contents (Elt F) → (⟨S1600000x64, .f32⟩ : BufTy).Contents (Elt F) → (⟨S1600000x64, .f32⟩ : BufTy).Contents (Elt F)),
    StableHlo.nullary main_cst_15 (constant S_ .f32 0x00000000#32),
    StableHlo.unary main_cst_15 main_v78 (broadcastInDim S100000x64 ![] bcast_S_S100000x64 : (⟨S_, .f32⟩ : BufTy).Contents (Elt F) → (⟨S100000x64, .f32⟩ : BufTy).Contents (Elt F)),
    StableHlo.unary main_v1 main_v79 (broadcastInDim S1600000x1 ![0] bcast_S1600000_S1600000x1_0 : (⟨S1600000, .i32⟩ : BufTy).Contents (Elt F) → (⟨S1600000x1, .i32⟩ : BufTy).Contents (Elt F)),
    StableHlo.ternary main_v78 main_v79 main_v77 main_v80 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_arg2 main_v81 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v81 main_v82 rfl shapeCasts_S1x64x64_S64x64,
    StableHlo.binary main_v80 main_v82 main_v83 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg3 main_v84 ((extractStridedSlice S1x64 ![1, 0] · slices_S3x64_S1x64_1_0) : (⟨S3x64, .f32⟩ : BufTy).Contents (Elt F) → (⟨S1x64, .f32⟩ : BufTy).Contents (Elt F)),
    StableHlo.reshape main_v84 main_v85 rfl shapeCasts_S1x64_S64,
    StableHlo.unary main_v85 main_v86 (broadcastInDim S1x64 ![1] bcast_S64_S1x64_1 : (⟨S64, .f32⟩ : BufTy).Contents (Elt F) → (⟨S1x64, .f32⟩ : BufTy).Contents (Elt F)),
    StableHlo.unary main_v86 main_v87 (broadcastInDim S100000x64 ![0, 1] bcast_S1x64_S100000x64_0_1 : (⟨S1x64, .f32⟩ : BufTy).Contents (Elt F) → (⟨S100000x64, .f32⟩ : BufTy).Contents (Elt F)),
    StableHlo.binary main_v83 main_v87 main_v88 (addf : (⟨S100000x64, .f32⟩ : BufTy).Contents (Elt F) → (⟨S100000x64, .f32⟩ : BufTy).Contents (Elt F) → (⟨S100000x64, .f32⟩ : BufTy).Contents (Elt F)),
    StableHlo.nullary main_cst_16 (constant S_ .f32 0x3E4CCCCD#32),
    StableHlo.TRef.nullary main_call3.cst (constant S_ .f32 0x00000000#32),
    StableHlo.TRef.unary main_call3.cst main_call3.v0 (broadcastInDim S100000x64 ![] bcast_S_S100000x64),
    StableHlo.TRef.binary (.of main_v88 : StableHlo.TRef sig ⟨S100000x64, .f32⟩) main_call3.v0 main_call3.v1 (cmpf .oge),
    StableHlo.TRef.unary (.of main_cst_16 : StableHlo.TRef sig ⟨S_, .f32⟩) main_call3.v2 id,
    StableHlo.TRef.unary main_call3.v2 main_call3.v3 (broadcastInDim S100000x64 ![] bcast_S_S100000x64),
    StableHlo.TRef.binary main_call3.v3 (.of main_v88 : StableHlo.TRef sig ⟨S100000x64, .f32⟩) main_call3.v4 mulf,
    StableHlo.TRef.ternary main_call3.v1 (.of main_v88 : StableHlo.TRef sig ⟨S100000x64, .f32⟩) main_call3.v4 main_call3.call0.v0 select,
    StableHlo.binary main_v59 main_v80 main_v90 (mulf : (⟨S100000x64, .f32⟩ : BufTy).Contents (Elt F) → (⟨S100000x64, .f32⟩ : BufTy).Contents (Elt F) → (⟨S100000x64, .f32⟩ : BufTy).Contents (Elt F)),
    StableHlo.unary main_arg4 main_v91 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v91 main_v92 rfl shapeCasts_S1x64x64_S64x64,
    StableHlo.binary main_v90 main_v92 main_v93 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg5 main_v94 ((extractStridedSlice S1x64 ![1, 0] · slices_S3x64_S1x64_1_0) : (⟨S3x64, .f32⟩ : BufTy).Contents (Elt F) → (⟨S1x64, .f32⟩ : BufTy).Contents (Elt F)),
    StableHlo.reshape main_v94 main_v95 rfl shapeCasts_S1x64_S64,
    StableHlo.unary main_v95 main_v96 (broadcastInDim S1x64 ![1] bcast_S64_S1x64_1 : (⟨S64, .f32⟩ : BufTy).Contents (Elt F) → (⟨S1x64, .f32⟩ : BufTy).Contents (Elt F)),
    StableHlo.unary main_v96 main_v97 (broadcastInDim S100000x64 ![0, 1] bcast_S1x64_S100000x64_0_1 : (⟨S1x64, .f32⟩ : BufTy).Contents (Elt F) → (⟨S100000x64, .f32⟩ : BufTy).Contents (Elt F)),
    StableHlo.binary main_v93 main_v97 main_v98 (addf : (⟨S100000x64, .f32⟩ : BufTy).Contents (Elt F) → (⟨S100000x64, .f32⟩ : BufTy).Contents (Elt F) → (⟨S100000x64, .f32⟩ : BufTy).Contents (Elt F)),
    StableHlo.nullary main_cst_17 (constant S_ .f32 0x3E4CCCCD#32),
    StableHlo.TRef.nullary main_call4.cst (constant S_ .f32 0x00000000#32),
    StableHlo.TRef.unary main_call4.cst main_call4.v0 (broadcastInDim S100000x64 ![] bcast_S_S100000x64),
    StableHlo.TRef.binary (.of main_v98 : StableHlo.TRef sig ⟨S100000x64, .f32⟩) main_call4.v0 main_call4.v1 (cmpf .oge),
    StableHlo.TRef.unary (.of main_cst_17 : StableHlo.TRef sig ⟨S_, .f32⟩) main_call4.v2 id,
    StableHlo.TRef.unary main_call4.v2 main_call4.v3 (broadcastInDim S100000x64 ![] bcast_S_S100000x64),
    StableHlo.TRef.binary main_call4.v3 (.of main_v98 : StableHlo.TRef sig ⟨S100000x64, .f32⟩) main_call4.v4 mulf,
    StableHlo.TRef.ternary main_call4.v1 (.of main_v98 : StableHlo.TRef sig ⟨S100000x64, .f32⟩) main_call4.v4 main_call4.call0.v0 select,
    StableHlo.binary main_v89 main_v99 main_v100 (addf : (⟨S100000x64, .f32⟩ : BufTy).Contents (Elt F) → (⟨S100000x64, .f32⟩ : BufTy).Contents (Elt F) → (⟨S100000x64, .f32⟩ : BufTy).Contents (Elt F)),
    StableHlo.binary main_v100 main_v100 main_v101 (mulf : (⟨S100000x64, .f32⟩ : BufTy).Contents (Elt F) → (⟨S100000x64, .f32⟩ : BufTy).Contents (Elt F) → (⟨S100000x64, .f32⟩ : BufTy).Contents (Elt F)),
    StableHlo.nullary main_cst_18 (constant S_ .f32 0x00000000#32),
    StableHlo.binary main_v101 main_cst_18 main_v102 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_v102 main_v103 (broadcastInDim S100000x1 ![0] bcast_S100000_S100000x1_0 : (⟨S100000, .f32⟩ : BufTy).Contents (Elt F) → (⟨S100000x1, .f32⟩ : BufTy).Contents (Elt F)),
    StableHlo.nullary main_cst_19 (constant S_ .f32 0x2B8CBCCC#32),
    StableHlo.unary main_cst_19 main_v104 (broadcastInDim S100000x1 ![] bcast_S_S100000x1 : (⟨S_, .f32⟩ : BufTy).Contents (Elt F) → (⟨S100000x1, .f32⟩ : BufTy).Contents (Elt F)),
    StableHlo.binary main_v103 main_v104 main_v105 (maximumf : (⟨S100000x1, .f32⟩ : BufTy).Contents (Elt F) → (⟨S100000x1, .f32⟩ : BufTy).Contents (Elt F) → (⟨S100000x1, .f32⟩ : BufTy).Contents (Elt F)),
    StableHlo.unary main_v105 main_v106 (Host.rsqrt : (⟨S100000x1, .f32⟩ : BufTy).Contents (Elt F) → (⟨S100000x1, .f32⟩ : BufTy).Contents (Elt F)),
    StableHlo.unary main_v106 main_v107 (broadcastInDim S100000x64 ![0, 1] bcast_S100000x1_S100000x64_0_1 : (⟨S100000x1, .f32⟩ : BufTy).Contents (Elt F) → (⟨S100000x64, .f32⟩ : BufTy).Contents (Elt F)),
    StableHlo.binary main_v100 main_v107 main_v108 (mulf : (⟨S100000x64, .f32⟩ : BufTy).Contents (Elt F) → (⟨S100000x64, .f32⟩ : BufTy).Contents (Elt F) → (⟨S100000x64, .f32⟩ : BufTy).Contents (Elt F)) ]

/-- The third layer, over the second layer's sum `%100`: from `%109` through `%149`. -/
abbrev opsL3 : List (HloOp τ sig (Elt F)) :=
  [ StableHlo.unary main_v26 main_v109 (broadcastInDim S1600000x1 ![0] bcast_S1600000_S1600000x1_0 : (⟨S1600000, .f32⟩ : BufTy).Contents (Elt F) → (⟨S1600000x1, .f32⟩ : BufTy).Contents (Elt F)),
    StableHlo.nullary main_c_20 (constantI S_ 32 0#32),
    StableHlo.unary main_c_20 main_v110 (broadcastInDim S1600000 ![] bcast_S_S1600000 : (⟨S_, .i32⟩ : BufTy).Contents (Elt F) → (⟨S1600000, .i32⟩ : BufTy).Contents (Elt F)),
    StableHlo.binary main_v3 main_v110 main_v111 (cmpi .slt : (⟨S1600000, .i32⟩ : BufTy).Contents (Elt F) → (⟨S1600000, .i32⟩ : BufTy).Contents (Elt F) → (⟨S1600000, .i1⟩ : BufTy).Contents (Elt F)),
    StableHlo.nullary main_c_21 (constantI S_ 32 100000#32),
    StableHlo.unary main_c_21 main_v112 (broadcastInDim S1600000 ![] bcast_S_S1600000 : (⟨S_, .i32⟩ : BufTy).Contents (Elt F) → (⟨S1600000, .i32⟩ : BufTy).Contents (Elt F)),
    StableHlo.binary main_v3 main_v112 main_v113 (addi : (⟨S1600000, .i32⟩ : BufTy).Contents (Elt F) → (⟨S1600000, .i32⟩ : BufTy).Contents (Elt F) → (⟨S1600000, .i32⟩ : BufTy).Contents (Elt F)),
    StableHlo.ternary main_v111 main_v113 main_v3 main_v114 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v114 main_v115 (broadcastInDim S1600000x1 ![0] bcast_S1600000_S1600000x1_0 : (⟨S1600000, .i32⟩ : BufTy).Contents (Elt F) → (⟨S1600000x1, .i32⟩ : BufTy).Contents (Elt F)),
    StableHlo.binary main_v100 main_v115 main_v116 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v109 main_v117 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v117 main_v116 main_v118 (mulf : (⟨S1600000x64, .f32⟩ : BufTy).Contents (Elt F) → (⟨S1600000x64, .f32⟩ : BufTy).Contents (Elt F) → (⟨S1600000x64, .f32⟩ : BufTy).Contents (Elt F)),
    StableHlo.nullary main_cst_22 (constant S_ .f32 0x00000000#32),
    StableHlo.unary main_cst_22 main_v119 (broadcastInDim S100000x64 ![] bcast_S_S100000x64 : (⟨S_, .f32⟩ : BufTy).Contents (Elt F) → (⟨S100000x64, .f32⟩ : BufTy).Contents (Elt F)),
    StableHlo.unary main_v1 main_v120 (broadcastInDim S1600000x1 ![0] bcast_S1600000_S1600000x1_0 : (⟨S1600000, .i32⟩ : BufTy).Contents (Elt F) → (⟨S1600000x1, .i32⟩ : BufTy).Contents (Elt F)),
    StableHlo.ternary main_v119 main_v120 main_v118 main_v121 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_arg2 main_v122 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v122 main_v123 rfl shapeCasts_S1x64x64_S64x64,
    StableHlo.binary main_v121 main_v123 main_v124 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg3 main_v125 ((extractStridedSlice S1x64 ![2, 0] · slices_S3x64_S1x64_2_0) : (⟨S3x64, .f32⟩ : BufTy).Contents (Elt F) → (⟨S1x64, .f32⟩ : BufTy).Contents (Elt F)),
    StableHlo.reshape main_v125 main_v126 rfl shapeCasts_S1x64_S64,
    StableHlo.unary main_v126 main_v127 (broadcastInDim S1x64 ![1] bcast_S64_S1x64_1 : (⟨S64, .f32⟩ : BufTy).Contents (Elt F) → (⟨S1x64, .f32⟩ : BufTy).Contents (Elt F)),
    StableHlo.unary main_v127 main_v128 (broadcastInDim S100000x64 ![0, 1] bcast_S1x64_S100000x64_0_1 : (⟨S1x64, .f32⟩ : BufTy).Contents (Elt F) → (⟨S100000x64, .f32⟩ : BufTy).Contents (Elt F)),
    StableHlo.binary main_v124 main_v128 main_v129 (addf : (⟨S100000x64, .f32⟩ : BufTy).Contents (Elt F) → (⟨S100000x64, .f32⟩ : BufTy).Contents (Elt F) → (⟨S100000x64, .f32⟩ : BufTy).Contents (Elt F)),
    StableHlo.nullary main_cst_23 (constant S_ .f32 0x3E4CCCCD#32),
    StableHlo.TRef.nullary main_call5.cst (constant S_ .f32 0x00000000#32),
    StableHlo.TRef.unary main_call5.cst main_call5.v0 (broadcastInDim S100000x64 ![] bcast_S_S100000x64),
    StableHlo.TRef.binary (.of main_v129 : StableHlo.TRef sig ⟨S100000x64, .f32⟩) main_call5.v0 main_call5.v1 (cmpf .oge),
    StableHlo.TRef.unary (.of main_cst_23 : StableHlo.TRef sig ⟨S_, .f32⟩) main_call5.v2 id,
    StableHlo.TRef.unary main_call5.v2 main_call5.v3 (broadcastInDim S100000x64 ![] bcast_S_S100000x64),
    StableHlo.TRef.binary main_call5.v3 (.of main_v129 : StableHlo.TRef sig ⟨S100000x64, .f32⟩) main_call5.v4 mulf,
    StableHlo.TRef.ternary main_call5.v1 (.of main_v129 : StableHlo.TRef sig ⟨S100000x64, .f32⟩) main_call5.v4 main_call5.call0.v0 select,
    StableHlo.binary main_v100 main_v121 main_v131 (mulf : (⟨S100000x64, .f32⟩ : BufTy).Contents (Elt F) → (⟨S100000x64, .f32⟩ : BufTy).Contents (Elt F) → (⟨S100000x64, .f32⟩ : BufTy).Contents (Elt F)),
    StableHlo.unary main_arg4 main_v132 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v132 main_v133 rfl shapeCasts_S1x64x64_S64x64,
    StableHlo.binary main_v131 main_v133 main_v134 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg5 main_v135 ((extractStridedSlice S1x64 ![2, 0] · slices_S3x64_S1x64_2_0) : (⟨S3x64, .f32⟩ : BufTy).Contents (Elt F) → (⟨S1x64, .f32⟩ : BufTy).Contents (Elt F)),
    StableHlo.reshape main_v135 main_v136 rfl shapeCasts_S1x64_S64,
    StableHlo.unary main_v136 main_v137 (broadcastInDim S1x64 ![1] bcast_S64_S1x64_1 : (⟨S64, .f32⟩ : BufTy).Contents (Elt F) → (⟨S1x64, .f32⟩ : BufTy).Contents (Elt F)),
    StableHlo.unary main_v137 main_v138 (broadcastInDim S100000x64 ![0, 1] bcast_S1x64_S100000x64_0_1 : (⟨S1x64, .f32⟩ : BufTy).Contents (Elt F) → (⟨S100000x64, .f32⟩ : BufTy).Contents (Elt F)),
    StableHlo.binary main_v134 main_v138 main_v139 (addf : (⟨S100000x64, .f32⟩ : BufTy).Contents (Elt F) → (⟨S100000x64, .f32⟩ : BufTy).Contents (Elt F) → (⟨S100000x64, .f32⟩ : BufTy).Contents (Elt F)),
    StableHlo.nullary main_cst_24 (constant S_ .f32 0x3E4CCCCD#32),
    StableHlo.TRef.nullary main_call6.cst (constant S_ .f32 0x00000000#32),
    StableHlo.TRef.unary main_call6.cst main_call6.v0 (broadcastInDim S100000x64 ![] bcast_S_S100000x64),
    StableHlo.TRef.binary (.of main_v139 : StableHlo.TRef sig ⟨S100000x64, .f32⟩) main_call6.v0 main_call6.v1 (cmpf .oge),
    StableHlo.TRef.unary (.of main_cst_24 : StableHlo.TRef sig ⟨S_, .f32⟩) main_call6.v2 id,
    StableHlo.TRef.unary main_call6.v2 main_call6.v3 (broadcastInDim S100000x64 ![] bcast_S_S100000x64),
    StableHlo.TRef.binary main_call6.v3 (.of main_v139 : StableHlo.TRef sig ⟨S100000x64, .f32⟩) main_call6.v4 mulf,
    StableHlo.TRef.ternary main_call6.v1 (.of main_v139 : StableHlo.TRef sig ⟨S100000x64, .f32⟩) main_call6.v4 main_call6.call0.v0 select,
    StableHlo.binary main_v130 main_v140 main_v141 (addf : (⟨S100000x64, .f32⟩ : BufTy).Contents (Elt F) → (⟨S100000x64, .f32⟩ : BufTy).Contents (Elt F) → (⟨S100000x64, .f32⟩ : BufTy).Contents (Elt F)),
    StableHlo.binary main_v141 main_v141 main_v142 (mulf : (⟨S100000x64, .f32⟩ : BufTy).Contents (Elt F) → (⟨S100000x64, .f32⟩ : BufTy).Contents (Elt F) → (⟨S100000x64, .f32⟩ : BufTy).Contents (Elt F)),
    StableHlo.nullary main_cst_25 (constant S_ .f32 0x00000000#32),
    StableHlo.binary main_v142 main_cst_25 main_v143 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_v143 main_v144 (broadcastInDim S100000x1 ![0] bcast_S100000_S100000x1_0 : (⟨S100000, .f32⟩ : BufTy).Contents (Elt F) → (⟨S100000x1, .f32⟩ : BufTy).Contents (Elt F)),
    StableHlo.nullary main_cst_26 (constant S_ .f32 0x2B8CBCCC#32),
    StableHlo.unary main_cst_26 main_v145 (broadcastInDim S100000x1 ![] bcast_S_S100000x1 : (⟨S_, .f32⟩ : BufTy).Contents (Elt F) → (⟨S100000x1, .f32⟩ : BufTy).Contents (Elt F)),
    StableHlo.binary main_v144 main_v145 main_v146 (maximumf : (⟨S100000x1, .f32⟩ : BufTy).Contents (Elt F) → (⟨S100000x1, .f32⟩ : BufTy).Contents (Elt F) → (⟨S100000x1, .f32⟩ : BufTy).Contents (Elt F)),
    StableHlo.unary main_v146 main_v147 (Host.rsqrt : (⟨S100000x1, .f32⟩ : BufTy).Contents (Elt F) → (⟨S100000x1, .f32⟩ : BufTy).Contents (Elt F)),
    StableHlo.unary main_v147 main_v148 (broadcastInDim S100000x64 ![0, 1] bcast_S100000x1_S100000x64_0_1 : (⟨S100000x1, .f32⟩ : BufTy).Contents (Elt F) → (⟨S100000x64, .f32⟩ : BufTy).Contents (Elt F)),
    StableHlo.binary main_v141 main_v148 main_v149 (mulf : (⟨S100000x64, .f32⟩ : BufTy).Contents (Elt F) → (⟨S100000x64, .f32⟩ : BufTy).Contents (Elt F) → (⟨S100000x64, .f32⟩ : BufTy).Contents (Elt F)) ]

/-- The one operation after the layers: the features and the three normalised layers concatenated along the feature axis,
    written to the result `%150`. -/
abbrev opsC : List (HloOp τ sig (Elt F)) :=
  [ StableHlo.nary ![main_arg0, main_v67, main_v108, main_v149] main_v150 (fun u => concatenate S100000x256 1 [⟨S100000x64, u 0⟩, ⟨S100000x64, u 1⟩, ⟨S100000x64, u 2⟩, ⟨S100000x64, u 3⟩] concatenates_S100000x64_S100000x64_S100000x64_S100000x64_S100000x256_d1) ]

/-- @main's operations in order, every call's body listed at the call site over that call's buffers. -/
abbrev ops : List (HloOp τ sig (Elt F)) := opsW ++ (opsL1 ++ (opsL2 ++ (opsL3 ++ opsC)))

/-- `opsW` with each operation of a called function written as the plain operation at the buffers themselves, its function
    at the buffers' types. -/
abbrev opsWp : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_cst (constant S_ .f32 0x3F800000#32),
    StableHlo.unary main_cst main_v4 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v5 (broadcastInDim S100000 ![] bcast_S_S100000 : (⟨S_, .f32⟩ : BufTy).Contents (Elt F) → (⟨S100000, .f32⟩ : BufTy).Contents (Elt F)),
    StableHlo.unary main_v1 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x00000000#32),
    StableHlo.unary main_cst_1 main_v8 (broadcastInDim S100000 ![] bcast_S_S100000 : (⟨S_, .f32⟩ : BufTy).Contents (Elt F) → (⟨S100000, .f32⟩ : BufTy).Contents (Elt F)),
    StableHlo.binary main_v7 main_v8 main_v9 (cmpf .ogt : (⟨S100000, .f32⟩ : BufTy).Contents (Elt F) → (⟨S100000, .f32⟩ : BufTy).Contents (Elt F) → (⟨S100000, .i1⟩ : BufTy).Contents (Elt F)),
    StableHlo.unary main_v7 main_v10 (Host.rsqrt : (⟨S100000, .f32⟩ : BufTy).Contents (Elt F) → (⟨S100000, .f32⟩ : BufTy).Contents (Elt F)),
    StableHlo.nullary main_cst_2 (constant S_ .f32 0x00000000#32),
    StableHlo.unary main_cst_2 main_call0_v0 (id : (⟨S_, .f32⟩ : BufTy).Contents (Elt F) → (⟨S_, .f32⟩ : BufTy).Contents (Elt F)),
    StableHlo.unary main_call0_v0 main_call0_v1 (broadcastInDim S100000 ![] bcast_S_S100000 : (⟨S_, .f32⟩ : BufTy).Contents (Elt F) → (⟨S100000, .f32⟩ : BufTy).Contents (Elt F)),
    StableHlo.ternary main_v9 main_v10 main_call0_v1 main_v11 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)),
    StableHlo.nullary main_c (constantI S_ 32 0#32),
    StableHlo.unary main_c main_v12 (broadcastInDim S1600000 ![] bcast_S_S1600000 : (⟨S_, .i32⟩ : BufTy).Contents (Elt F) → (⟨S1600000, .i32⟩ : BufTy).Contents (Elt F)),
    StableHlo.binary main_v1 main_v12 main_v13 (cmpi .slt : (⟨S1600000, .i32⟩ : BufTy).Contents (Elt F) → (⟨S1600000, .i32⟩ : BufTy).Contents (Elt F) → (⟨S1600000, .i1⟩ : BufTy).Contents (Elt F)),
    StableHlo.nullary main_c_3 (constantI S_ 32 100000#32),
    StableHlo.unary main_c_3 main_v14 (broadcastInDim S1600000 ![] bcast_S_S1600000 : (⟨S_, .i32⟩ : BufTy).Contents (Elt F) → (⟨S1600000, .i32⟩ : BufTy).Contents (Elt F)),
    StableHlo.binary main_v1 main_v14 main_v15 (addi : (⟨S1600000, .i32⟩ : BufTy).Contents (Elt F) → (⟨S1600000, .i32⟩ : BufTy).Contents (Elt F) → (⟨S1600000, .i32⟩ : BufTy).Contents (Elt F)),
    StableHlo.ternary main_v13 main_v15 main_v1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v16 main_v17 (broadcastInDim S1600000x1 ![0] bcast_S1600000_S1600000x1_0 : (⟨S1600000, .i32⟩ : BufTy).Contents (Elt F) → (⟨S1600000x1, .i32⟩ : BufTy).Contents (Elt F)),
    StableHlo.binary main_v11 main_v17 main_v18 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_4 (constantI S_ 32 0#32),
    StableHlo.unary main_c_4 main_v19 (broadcastInDim S1600000 ![] bcast_S_S1600000 : (⟨S_, .i32⟩ : BufTy).Contents (Elt F) → (⟨S1600000, .i32⟩ : BufTy).Contents (Elt F)),
    StableHlo.binary main_v3 main_v19 main_v20 (cmpi .slt : (⟨S1600000, .i32⟩ : BufTy).Contents (Elt F) → (⟨S1600000, .i32⟩ : BufTy).Contents (Elt F) → (⟨S1600000, .i1⟩ : BufTy).Contents (Elt F)),
    StableHlo.nullary main_c_5 (constantI S_ 32 100000#32),
    StableHlo.unary main_c_5 main_v21 (broadcastInDim S1600000 ![] bcast_S_S1600000 : (⟨S_, .i32⟩ : BufTy).Contents (Elt F) → (⟨S1600000, .i32⟩ : BufTy).Contents (Elt F)),
    StableHlo.binary main_v3 main_v21 main_v22 (addi : (⟨S1600000, .i32⟩ : BufTy).Contents (Elt F) → (⟨S1600000, .i32⟩ : BufTy).Contents (Elt F) → (⟨S1600000, .i32⟩ : BufTy).Contents (Elt F)),
    StableHlo.ternary main_v20 main_v22 main_v3 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v23 main_v24 (broadcastInDim S1600000x1 ![0] bcast_S1600000_S1600000x1_0 : (⟨S1600000, .i32⟩ : BufTy).Contents (Elt F) → (⟨S1600000x1, .i32⟩ : BufTy).Contents (Elt F)),
    StableHlo.binary main_v11 main_v24 main_v25 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v18 main_v25 main_v26 (mulf : (⟨S1600000, .f32⟩ : BufTy).Contents (Elt F) → (⟨S1600000, .f32⟩ : BufTy).Contents (Elt F) → (⟨S1600000, .f32⟩ : BufTy).Contents (Elt F)) ]

/-- `opsL1` with each operation of a called function written as the plain operation at the buffers themselves, its function
    at the buffers' types. -/
abbrev opsL1p : List (HloOp τ sig (Elt F)) :=
  [ StableHlo.unary main_v26 main_v27 (broadcastInDim S1600000x1 ![0] bcast_S1600000_S1600000x1_0 : (⟨S1600000, .f32⟩ : BufTy).Contents (Elt F) → (⟨S1600000x1, .f32⟩ : BufTy).Contents (Elt F)),
    StableHlo.nullary main_c_6 (constantI S_ 32 0#32),
    StableHlo.unary main_c_6 main_v28 (broadcastInDim S1600000 ![] bcast_S_S1600000 : (⟨S_, .i32⟩ : BufTy).Contents (Elt F) → (⟨S1600000, .i32⟩ : BufTy).Contents (Elt F)),
    StableHlo.binary main_v3 main_v28 main_v29 (cmpi .slt : (⟨S1600000, .i32⟩ : BufTy).Contents (Elt F) → (⟨S1600000, .i32⟩ : BufTy).Contents (Elt F) → (⟨S1600000, .i1⟩ : BufTy).Contents (Elt F)),
    StableHlo.nullary main_c_7 (constantI S_ 32 100000#32),
    StableHlo.unary main_c_7 main_v30 (broadcastInDim S1600000 ![] bcast_S_S1600000 : (⟨S_, .i32⟩ : BufTy).Contents (Elt F) → (⟨S1600000, .i32⟩ : BufTy).Contents (Elt F)),
    StableHlo.binary main_v3 main_v30 main_v31 (addi : (⟨S1600000, .i32⟩ : BufTy).Contents (Elt F) → (⟨S1600000, .i32⟩ : BufTy).Contents (Elt F) → (⟨S1600000, .i32⟩ : BufTy).Contents (Elt F)),
    StableHlo.ternary main_v29 main_v31 main_v3 main_v32 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v32 main_v33 (broadcastInDim S1600000x1 ![0] bcast_S1600000_S1600000x1_0 : (⟨S1600000, .i32⟩ : BufTy).Contents (Elt F) → (⟨S1600000x1, .i32⟩ : BufTy).Contents (Elt F)),
    StableHlo.binary main_arg0 main_v33 main_v34 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v27 main_v35 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v35 main_v34 main_v36 (mulf : (⟨S1600000x64, .f32⟩ : BufTy).Contents (Elt F) → (⟨S1600000x64, .f32⟩ : BufTy).Contents (Elt F) → (⟨S1600000x64, .f32⟩ : BufTy).Contents (Elt F)),
    StableHlo.nullary main_cst_8 (constant S_ .f32 0x00000000#32),
    StableHlo.unary main_cst_8 main_v37 (broadcastInDim S100000x64 ![] bcast_S_S100000x64 : (⟨S_, .f32⟩ : BufTy).Contents (Elt F) → (⟨S100000x64, .f32⟩ : BufTy).Contents (Elt F)),
    StableHlo.unary main_v1 main_v38 (broadcastInDim S1600000x1 ![0] bcast_S1600000_S1600000x1_0 : (⟨S1600000, .i32⟩ : BufTy).Contents (Elt F) → (⟨S1600000x1, .i32⟩ : BufTy).Contents (Elt F)),
    StableHlo.ternary main_v37 main_v38 main_v36 main_v39 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_arg2 main_v40 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v40 main_v41 rfl shapeCasts_S1x64x64_S64x64,
    StableHlo.binary main_v39 main_v41 main_v42 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg3 main_v43 ((extractStridedSlice S1x64 ![0, 0] · slices_S3x64_S1x64_0_0) : (⟨S3x64, .f32⟩ : BufTy).Contents (Elt F) → (⟨S1x64, .f32⟩ : BufTy).Contents (Elt F)),
    StableHlo.reshape main_v43 main_v44 rfl shapeCasts_S1x64_S64,
    StableHlo.unary main_v44 main_v45 (broadcastInDim S1x64 ![1] bcast_S64_S1x64_1 : (⟨S64, .f32⟩ : BufTy).Contents (Elt F) → (⟨S1x64, .f32⟩ : BufTy).Contents (Elt F)),
    StableHlo.unary main_v45 main_v46 (broadcastInDim S100000x64 ![0, 1] bcast_S1x64_S100000x64_0_1 : (⟨S1x64, .f32⟩ : BufTy).Contents (Elt F) → (⟨S100000x64, .f32⟩ : BufTy).Contents (Elt F)),
    StableHlo.binary main_v42 main_v46 main_v47 (addf : (⟨S100000x64, .f32⟩ : BufTy).Contents (Elt F) → (⟨S100000x64, .f32⟩ : BufTy).Contents (Elt F) → (⟨S100000x64, .f32⟩ : BufTy).Contents (Elt F)),
    StableHlo.nullary main_cst_9 (constant S_ .f32 0x3E4CCCCD#32),
    StableHlo.nullary main_call1_cst (constant S_ .f32 0x00000000#32),
    StableHlo.unary main_call1_cst main_call1_v0 (broadcastInDim S100000x64 ![] bcast_S_S100000x64 : (⟨S_, .f32⟩ : BufTy).Contents (Elt F) → (⟨S100000x64, .f32⟩ : BufTy).Contents (Elt F)),
    StableHlo.binary main_v47 main_call1_v0 main_call1_v1 (cmpf .oge : (⟨S100000x64, .f32⟩ : BufTy).Contents (Elt F) → (⟨S100000x64, .f32⟩ : BufTy).Contents (Elt F) → (⟨S100000x64, .i1⟩ : BufTy).Contents (Elt F)),
    StableHlo.unary main_cst_9 main_call1_v2 (id : (⟨S_, .f32⟩ : BufTy).Contents (Elt F) → (⟨S_, .f32⟩ : BufTy).Contents (Elt F)),
    StableHlo.unary main_call1_v2 main_call1_v3 (broadcastInDim S100000x64 ![] bcast_S_S100000x64 : (⟨S_, .f32⟩ : BufTy).Contents (Elt F) → (⟨S100000x64, .f32⟩ : BufTy).Contents (Elt F)),
    StableHlo.binary main_call1_v3 main_v47 main_call1_v4 (mulf : (⟨S100000x64, .f32⟩ : BufTy).Contents (Elt F) → (⟨S100000x64, .f32⟩ : BufTy).Contents (Elt F) → (⟨S100000x64, .f32⟩ : BufTy).Contents (Elt F)),
    StableHlo.ternary main_call1_v1 main_v47 main_call1_v4 main_v48 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)),
    StableHlo.binary main_arg0 main_v39 main_v49 (mulf : (⟨S100000x64, .f32⟩ : BufTy).Contents (Elt F) → (⟨S100000x64, .f32⟩ : BufTy).Contents (Elt F) → (⟨S100000x64, .f32⟩ : BufTy).Contents (Elt F)),
    StableHlo.unary main_arg4 main_v50 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v50 main_v51 rfl shapeCasts_S1x64x64_S64x64,
    StableHlo.binary main_v49 main_v51 main_v52 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg5 main_v53 ((extractStridedSlice S1x64 ![0, 0] · slices_S3x64_S1x64_0_0) : (⟨S3x64, .f32⟩ : BufTy).Contents (Elt F) → (⟨S1x64, .f32⟩ : BufTy).Contents (Elt F)),
    StableHlo.reshape main_v53 main_v54 rfl shapeCasts_S1x64_S64,
    StableHlo.unary main_v54 main_v55 (broadcastInDim S1x64 ![1] bcast_S64_S1x64_1 : (⟨S64, .f32⟩ : BufTy).Contents (Elt F) → (⟨S1x64, .f32⟩ : BufTy).Contents (Elt F)),
    StableHlo.unary main_v55 main_v56 (broadcastInDim S100000x64 ![0, 1] bcast_S1x64_S100000x64_0_1 : (⟨S1x64, .f32⟩ : BufTy).Contents (Elt F) → (⟨S100000x64, .f32⟩ : BufTy).Contents (Elt F)),
    StableHlo.binary main_v52 main_v56 main_v57 (addf : (⟨S100000x64, .f32⟩ : BufTy).Contents (Elt F) → (⟨S100000x64, .f32⟩ : BufTy).Contents (Elt F) → (⟨S100000x64, .f32⟩ : BufTy).Contents (Elt F)),
    StableHlo.nullary main_cst_10 (constant S_ .f32 0x3E4CCCCD#32),
    StableHlo.nullary main_call2_cst (constant S_ .f32 0x00000000#32),
    StableHlo.unary main_call2_cst main_call2_v0 (broadcastInDim S100000x64 ![] bcast_S_S100000x64 : (⟨S_, .f32⟩ : BufTy).Contents (Elt F) → (⟨S100000x64, .f32⟩ : BufTy).Contents (Elt F)),
    StableHlo.binary main_v57 main_call2_v0 main_call2_v1 (cmpf .oge : (⟨S100000x64, .f32⟩ : BufTy).Contents (Elt F) → (⟨S100000x64, .f32⟩ : BufTy).Contents (Elt F) → (⟨S100000x64, .i1⟩ : BufTy).Contents (Elt F)),
    StableHlo.unary main_cst_10 main_call2_v2 (id : (⟨S_, .f32⟩ : BufTy).Contents (Elt F) → (⟨S_, .f32⟩ : BufTy).Contents (Elt F)),
    StableHlo.unary main_call2_v2 main_call2_v3 (broadcastInDim S100000x64 ![] bcast_S_S100000x64 : (⟨S_, .f32⟩ : BufTy).Contents (Elt F) → (⟨S100000x64, .f32⟩ : BufTy).Contents (Elt F)),
    StableHlo.binary main_call2_v3 main_v57 main_call2_v4 (mulf : (⟨S100000x64, .f32⟩ : BufTy).Contents (Elt F) → (⟨S100000x64, .f32⟩ : BufTy).Contents (Elt F) → (⟨S100000x64, .f32⟩ : BufTy).Contents (Elt F)),
    StableHlo.ternary main_call2_v1 main_v57 main_call2_v4 main_v58 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)),
    StableHlo.binary main_v48 main_v58 main_v59 (addf : (⟨S100000x64, .f32⟩ : BufTy).Contents (Elt F) → (⟨S100000x64, .f32⟩ : BufTy).Contents (Elt F) → (⟨S100000x64, .f32⟩ : BufTy).Contents (Elt F)),
    StableHlo.binary main_v59 main_v59 main_v60 (mulf : (⟨S100000x64, .f32⟩ : BufTy).Contents (Elt F) → (⟨S100000x64, .f32⟩ : BufTy).Contents (Elt F) → (⟨S100000x64, .f32⟩ : BufTy).Contents (Elt F)),
    StableHlo.nullary main_cst_11 (constant S_ .f32 0x00000000#32),
    StableHlo.binary main_v60 main_cst_11 main_v61 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_v61 main_v62 (broadcastInDim S100000x1 ![0] bcast_S100000_S100000x1_0 : (⟨S100000, .f32⟩ : BufTy).Contents (Elt F) → (⟨S100000x1, .f32⟩ : BufTy).Contents (Elt F)),
    StableHlo.nullary main_cst_12 (constant S_ .f32 0x2B8CBCCC#32),
    StableHlo.unary main_cst_12 main_v63 (broadcastInDim S100000x1 ![] bcast_S_S100000x1 : (⟨S_, .f32⟩ : BufTy).Contents (Elt F) → (⟨S100000x1, .f32⟩ : BufTy).Contents (Elt F)),
    StableHlo.binary main_v62 main_v63 main_v64 (maximumf : (⟨S100000x1, .f32⟩ : BufTy).Contents (Elt F) → (⟨S100000x1, .f32⟩ : BufTy).Contents (Elt F) → (⟨S100000x1, .f32⟩ : BufTy).Contents (Elt F)),
    StableHlo.unary main_v64 main_v65 (Host.rsqrt : (⟨S100000x1, .f32⟩ : BufTy).Contents (Elt F) → (⟨S100000x1, .f32⟩ : BufTy).Contents (Elt F)),
    StableHlo.unary main_v65 main_v66 (broadcastInDim S100000x64 ![0, 1] bcast_S100000x1_S100000x64_0_1 : (⟨S100000x1, .f32⟩ : BufTy).Contents (Elt F) → (⟨S100000x64, .f32⟩ : BufTy).Contents (Elt F)),
    StableHlo.binary main_v59 main_v66 main_v67 (mulf : (⟨S100000x64, .f32⟩ : BufTy).Contents (Elt F) → (⟨S100000x64, .f32⟩ : BufTy).Contents (Elt F) → (⟨S100000x64, .f32⟩ : BufTy).Contents (Elt F)) ]

/-- `opsL2` with each operation of a called function written as the plain operation at the buffers themselves, its function
    at the buffers' types. -/
abbrev opsL2p : List (HloOp τ sig (Elt F)) :=
  [ StableHlo.unary main_v26 main_v68 (broadcastInDim S1600000x1 ![0] bcast_S1600000_S1600000x1_0 : (⟨S1600000, .f32⟩ : BufTy).Contents (Elt F) → (⟨S1600000x1, .f32⟩ : BufTy).Contents (Elt F)),
    StableHlo.nullary main_c_13 (constantI S_ 32 0#32),
    StableHlo.unary main_c_13 main_v69 (broadcastInDim S1600000 ![] bcast_S_S1600000 : (⟨S_, .i32⟩ : BufTy).Contents (Elt F) → (⟨S1600000, .i32⟩ : BufTy).Contents (Elt F)),
    StableHlo.binary main_v3 main_v69 main_v70 (cmpi .slt : (⟨S1600000, .i32⟩ : BufTy).Contents (Elt F) → (⟨S1600000, .i32⟩ : BufTy).Contents (Elt F) → (⟨S1600000, .i1⟩ : BufTy).Contents (Elt F)),
    StableHlo.nullary main_c_14 (constantI S_ 32 100000#32),
    StableHlo.unary main_c_14 main_v71 (broadcastInDim S1600000 ![] bcast_S_S1600000 : (⟨S_, .i32⟩ : BufTy).Contents (Elt F) → (⟨S1600000, .i32⟩ : BufTy).Contents (Elt F)),
    StableHlo.binary main_v3 main_v71 main_v72 (addi : (⟨S1600000, .i32⟩ : BufTy).Contents (Elt F) → (⟨S1600000, .i32⟩ : BufTy).Contents (Elt F) → (⟨S1600000, .i32⟩ : BufTy).Contents (Elt F)),
    StableHlo.ternary main_v70 main_v72 main_v3 main_v73 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v73 main_v74 (broadcastInDim S1600000x1 ![0] bcast_S1600000_S1600000x1_0 : (⟨S1600000, .i32⟩ : BufTy).Contents (Elt F) → (⟨S1600000x1, .i32⟩ : BufTy).Contents (Elt F)),
    StableHlo.binary main_v59 main_v74 main_v75 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v68 main_v76 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v76 main_v75 main_v77 (mulf : (⟨S1600000x64, .f32⟩ : BufTy).Contents (Elt F) → (⟨S1600000x64, .f32⟩ : BufTy).Contents (Elt F) → (⟨S1600000x64, .f32⟩ : BufTy).Contents (Elt F)),
    StableHlo.nullary main_cst_15 (constant S_ .f32 0x00000000#32),
    StableHlo.unary main_cst_15 main_v78 (broadcastInDim S100000x64 ![] bcast_S_S100000x64 : (⟨S_, .f32⟩ : BufTy).Contents (Elt F) → (⟨S100000x64, .f32⟩ : BufTy).Contents (Elt F)),
    StableHlo.unary main_v1 main_v79 (broadcastInDim S1600000x1 ![0] bcast_S1600000_S1600000x1_0 : (⟨S1600000, .i32⟩ : BufTy).Contents (Elt F) → (⟨S1600000x1, .i32⟩ : BufTy).Contents (Elt F)),
    StableHlo.ternary main_v78 main_v79 main_v77 main_v80 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_arg2 main_v81 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v81 main_v82 rfl shapeCasts_S1x64x64_S64x64,
    StableHlo.binary main_v80 main_v82 main_v83 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg3 main_v84 ((extractStridedSlice S1x64 ![1, 0] · slices_S3x64_S1x64_1_0) : (⟨S3x64, .f32⟩ : BufTy).Contents (Elt F) → (⟨S1x64, .f32⟩ : BufTy).Contents (Elt F)),
    StableHlo.reshape main_v84 main_v85 rfl shapeCasts_S1x64_S64,
    StableHlo.unary main_v85 main_v86 (broadcastInDim S1x64 ![1] bcast_S64_S1x64_1 : (⟨S64, .f32⟩ : BufTy).Contents (Elt F) → (⟨S1x64, .f32⟩ : BufTy).Contents (Elt F)),
    StableHlo.unary main_v86 main_v87 (broadcastInDim S100000x64 ![0, 1] bcast_S1x64_S100000x64_0_1 : (⟨S1x64, .f32⟩ : BufTy).Contents (Elt F) → (⟨S100000x64, .f32⟩ : BufTy).Contents (Elt F)),
    StableHlo.binary main_v83 main_v87 main_v88 (addf : (⟨S100000x64, .f32⟩ : BufTy).Contents (Elt F) → (⟨S100000x64, .f32⟩ : BufTy).Contents (Elt F) → (⟨S100000x64, .f32⟩ : BufTy).Contents (Elt F)),
    StableHlo.nullary main_cst_16 (constant S_ .f32 0x3E4CCCCD#32),
    StableHlo.nullary main_call3_cst (constant S_ .f32 0x00000000#32),
    StableHlo.unary main_call3_cst main_call3_v0 (broadcastInDim S100000x64 ![] bcast_S_S100000x64 : (⟨S_, .f32⟩ : BufTy).Contents (Elt F) → (⟨S100000x64, .f32⟩ : BufTy).Contents (Elt F)),
    StableHlo.binary main_v88 main_call3_v0 main_call3_v1 (cmpf .oge : (⟨S100000x64, .f32⟩ : BufTy).Contents (Elt F) → (⟨S100000x64, .f32⟩ : BufTy).Contents (Elt F) → (⟨S100000x64, .i1⟩ : BufTy).Contents (Elt F)),
    StableHlo.unary main_cst_16 main_call3_v2 (id : (⟨S_, .f32⟩ : BufTy).Contents (Elt F) → (⟨S_, .f32⟩ : BufTy).Contents (Elt F)),
    StableHlo.unary main_call3_v2 main_call3_v3 (broadcastInDim S100000x64 ![] bcast_S_S100000x64 : (⟨S_, .f32⟩ : BufTy).Contents (Elt F) → (⟨S100000x64, .f32⟩ : BufTy).Contents (Elt F)),
    StableHlo.binary main_call3_v3 main_v88 main_call3_v4 (mulf : (⟨S100000x64, .f32⟩ : BufTy).Contents (Elt F) → (⟨S100000x64, .f32⟩ : BufTy).Contents (Elt F) → (⟨S100000x64, .f32⟩ : BufTy).Contents (Elt F)),
    StableHlo.ternary main_call3_v1 main_v88 main_call3_v4 main_v89 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)),
    StableHlo.binary main_v59 main_v80 main_v90 (mulf : (⟨S100000x64, .f32⟩ : BufTy).Contents (Elt F) → (⟨S100000x64, .f32⟩ : BufTy).Contents (Elt F) → (⟨S100000x64, .f32⟩ : BufTy).Contents (Elt F)),
    StableHlo.unary main_arg4 main_v91 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v91 main_v92 rfl shapeCasts_S1x64x64_S64x64,
    StableHlo.binary main_v90 main_v92 main_v93 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg5 main_v94 ((extractStridedSlice S1x64 ![1, 0] · slices_S3x64_S1x64_1_0) : (⟨S3x64, .f32⟩ : BufTy).Contents (Elt F) → (⟨S1x64, .f32⟩ : BufTy).Contents (Elt F)),
    StableHlo.reshape main_v94 main_v95 rfl shapeCasts_S1x64_S64,
    StableHlo.unary main_v95 main_v96 (broadcastInDim S1x64 ![1] bcast_S64_S1x64_1 : (⟨S64, .f32⟩ : BufTy).Contents (Elt F) → (⟨S1x64, .f32⟩ : BufTy).Contents (Elt F)),
    StableHlo.unary main_v96 main_v97 (broadcastInDim S100000x64 ![0, 1] bcast_S1x64_S100000x64_0_1 : (⟨S1x64, .f32⟩ : BufTy).Contents (Elt F) → (⟨S100000x64, .f32⟩ : BufTy).Contents (Elt F)),
    StableHlo.binary main_v93 main_v97 main_v98 (addf : (⟨S100000x64, .f32⟩ : BufTy).Contents (Elt F) → (⟨S100000x64, .f32⟩ : BufTy).Contents (Elt F) → (⟨S100000x64, .f32⟩ : BufTy).Contents (Elt F)),
    StableHlo.nullary main_cst_17 (constant S_ .f32 0x3E4CCCCD#32),
    StableHlo.nullary main_call4_cst (constant S_ .f32 0x00000000#32),
    StableHlo.unary main_call4_cst main_call4_v0 (broadcastInDim S100000x64 ![] bcast_S_S100000x64 : (⟨S_, .f32⟩ : BufTy).Contents (Elt F) → (⟨S100000x64, .f32⟩ : BufTy).Contents (Elt F)),
    StableHlo.binary main_v98 main_call4_v0 main_call4_v1 (cmpf .oge : (⟨S100000x64, .f32⟩ : BufTy).Contents (Elt F) → (⟨S100000x64, .f32⟩ : BufTy).Contents (Elt F) → (⟨S100000x64, .i1⟩ : BufTy).Contents (Elt F)),
    StableHlo.unary main_cst_17 main_call4_v2 (id : (⟨S_, .f32⟩ : BufTy).Contents (Elt F) → (⟨S_, .f32⟩ : BufTy).Contents (Elt F)),
    StableHlo.unary main_call4_v2 main_call4_v3 (broadcastInDim S100000x64 ![] bcast_S_S100000x64 : (⟨S_, .f32⟩ : BufTy).Contents (Elt F) → (⟨S100000x64, .f32⟩ : BufTy).Contents (Elt F)),
    StableHlo.binary main_call4_v3 main_v98 main_call4_v4 (mulf : (⟨S100000x64, .f32⟩ : BufTy).Contents (Elt F) → (⟨S100000x64, .f32⟩ : BufTy).Contents (Elt F) → (⟨S100000x64, .f32⟩ : BufTy).Contents (Elt F)),
    StableHlo.ternary main_call4_v1 main_v98 main_call4_v4 main_v99 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)),
    StableHlo.binary main_v89 main_v99 main_v100 (addf : (⟨S100000x64, .f32⟩ : BufTy).Contents (Elt F) → (⟨S100000x64, .f32⟩ : BufTy).Contents (Elt F) → (⟨S100000x64, .f32⟩ : BufTy).Contents (Elt F)),
    StableHlo.binary main_v100 main_v100 main_v101 (mulf : (⟨S100000x64, .f32⟩ : BufTy).Contents (Elt F) → (⟨S100000x64, .f32⟩ : BufTy).Contents (Elt F) → (⟨S100000x64, .f32⟩ : BufTy).Contents (Elt F)),
    StableHlo.nullary main_cst_18 (constant S_ .f32 0x00000000#32),
    StableHlo.binary main_v101 main_cst_18 main_v102 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_v102 main_v103 (broadcastInDim S100000x1 ![0] bcast_S100000_S100000x1_0 : (⟨S100000, .f32⟩ : BufTy).Contents (Elt F) → (⟨S100000x1, .f32⟩ : BufTy).Contents (Elt F)),
    StableHlo.nullary main_cst_19 (constant S_ .f32 0x2B8CBCCC#32),
    StableHlo.unary main_cst_19 main_v104 (broadcastInDim S100000x1 ![] bcast_S_S100000x1 : (⟨S_, .f32⟩ : BufTy).Contents (Elt F) → (⟨S100000x1, .f32⟩ : BufTy).Contents (Elt F)),
    StableHlo.binary main_v103 main_v104 main_v105 (maximumf : (⟨S100000x1, .f32⟩ : BufTy).Contents (Elt F) → (⟨S100000x1, .f32⟩ : BufTy).Contents (Elt F) → (⟨S100000x1, .f32⟩ : BufTy).Contents (Elt F)),
    StableHlo.unary main_v105 main_v106 (Host.rsqrt : (⟨S100000x1, .f32⟩ : BufTy).Contents (Elt F) → (⟨S100000x1, .f32⟩ : BufTy).Contents (Elt F)),
    StableHlo.unary main_v106 main_v107 (broadcastInDim S100000x64 ![0, 1] bcast_S100000x1_S100000x64_0_1 : (⟨S100000x1, .f32⟩ : BufTy).Contents (Elt F) → (⟨S100000x64, .f32⟩ : BufTy).Contents (Elt F)),
    StableHlo.binary main_v100 main_v107 main_v108 (mulf : (⟨S100000x64, .f32⟩ : BufTy).Contents (Elt F) → (⟨S100000x64, .f32⟩ : BufTy).Contents (Elt F) → (⟨S100000x64, .f32⟩ : BufTy).Contents (Elt F)) ]

/-- `opsL3` with each operation of a called function written as the plain operation at the buffers themselves, its function
    at the buffers' types. -/
abbrev opsL3p : List (HloOp τ sig (Elt F)) :=
  [ StableHlo.unary main_v26 main_v109 (broadcastInDim S1600000x1 ![0] bcast_S1600000_S1600000x1_0 : (⟨S1600000, .f32⟩ : BufTy).Contents (Elt F) → (⟨S1600000x1, .f32⟩ : BufTy).Contents (Elt F)),
    StableHlo.nullary main_c_20 (constantI S_ 32 0#32),
    StableHlo.unary main_c_20 main_v110 (broadcastInDim S1600000 ![] bcast_S_S1600000 : (⟨S_, .i32⟩ : BufTy).Contents (Elt F) → (⟨S1600000, .i32⟩ : BufTy).Contents (Elt F)),
    StableHlo.binary main_v3 main_v110 main_v111 (cmpi .slt : (⟨S1600000, .i32⟩ : BufTy).Contents (Elt F) → (⟨S1600000, .i32⟩ : BufTy).Contents (Elt F) → (⟨S1600000, .i1⟩ : BufTy).Contents (Elt F)),
    StableHlo.nullary main_c_21 (constantI S_ 32 100000#32),
    StableHlo.unary main_c_21 main_v112 (broadcastInDim S1600000 ![] bcast_S_S1600000 : (⟨S_, .i32⟩ : BufTy).Contents (Elt F) → (⟨S1600000, .i32⟩ : BufTy).Contents (Elt F)),
    StableHlo.binary main_v3 main_v112 main_v113 (addi : (⟨S1600000, .i32⟩ : BufTy).Contents (Elt F) → (⟨S1600000, .i32⟩ : BufTy).Contents (Elt F) → (⟨S1600000, .i32⟩ : BufTy).Contents (Elt F)),
    StableHlo.ternary main_v111 main_v113 main_v3 main_v114 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v114 main_v115 (broadcastInDim S1600000x1 ![0] bcast_S1600000_S1600000x1_0 : (⟨S1600000, .i32⟩ : BufTy).Contents (Elt F) → (⟨S1600000x1, .i32⟩ : BufTy).Contents (Elt F)),
    StableHlo.binary main_v100 main_v115 main_v116 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v109 main_v117 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v117 main_v116 main_v118 (mulf : (⟨S1600000x64, .f32⟩ : BufTy).Contents (Elt F) → (⟨S1600000x64, .f32⟩ : BufTy).Contents (Elt F) → (⟨S1600000x64, .f32⟩ : BufTy).Contents (Elt F)),
    StableHlo.nullary main_cst_22 (constant S_ .f32 0x00000000#32),
    StableHlo.unary main_cst_22 main_v119 (broadcastInDim S100000x64 ![] bcast_S_S100000x64 : (⟨S_, .f32⟩ : BufTy).Contents (Elt F) → (⟨S100000x64, .f32⟩ : BufTy).Contents (Elt F)),
    StableHlo.unary main_v1 main_v120 (broadcastInDim S1600000x1 ![0] bcast_S1600000_S1600000x1_0 : (⟨S1600000, .i32⟩ : BufTy).Contents (Elt F) → (⟨S1600000x1, .i32⟩ : BufTy).Contents (Elt F)),
    StableHlo.ternary main_v119 main_v120 main_v118 main_v121 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_arg2 main_v122 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v122 main_v123 rfl shapeCasts_S1x64x64_S64x64,
    StableHlo.binary main_v121 main_v123 main_v124 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg3 main_v125 ((extractStridedSlice S1x64 ![2, 0] · slices_S3x64_S1x64_2_0) : (⟨S3x64, .f32⟩ : BufTy).Contents (Elt F) → (⟨S1x64, .f32⟩ : BufTy).Contents (Elt F)),
    StableHlo.reshape main_v125 main_v126 rfl shapeCasts_S1x64_S64,
    StableHlo.unary main_v126 main_v127 (broadcastInDim S1x64 ![1] bcast_S64_S1x64_1 : (⟨S64, .f32⟩ : BufTy).Contents (Elt F) → (⟨S1x64, .f32⟩ : BufTy).Contents (Elt F)),
    StableHlo.unary main_v127 main_v128 (broadcastInDim S100000x64 ![0, 1] bcast_S1x64_S100000x64_0_1 : (⟨S1x64, .f32⟩ : BufTy).Contents (Elt F) → (⟨S100000x64, .f32⟩ : BufTy).Contents (Elt F)),
    StableHlo.binary main_v124 main_v128 main_v129 (addf : (⟨S100000x64, .f32⟩ : BufTy).Contents (Elt F) → (⟨S100000x64, .f32⟩ : BufTy).Contents (Elt F) → (⟨S100000x64, .f32⟩ : BufTy).Contents (Elt F)),
    StableHlo.nullary main_cst_23 (constant S_ .f32 0x3E4CCCCD#32),
    StableHlo.nullary main_call5_cst (constant S_ .f32 0x00000000#32),
    StableHlo.unary main_call5_cst main_call5_v0 (broadcastInDim S100000x64 ![] bcast_S_S100000x64 : (⟨S_, .f32⟩ : BufTy).Contents (Elt F) → (⟨S100000x64, .f32⟩ : BufTy).Contents (Elt F)),
    StableHlo.binary main_v129 main_call5_v0 main_call5_v1 (cmpf .oge : (⟨S100000x64, .f32⟩ : BufTy).Contents (Elt F) → (⟨S100000x64, .f32⟩ : BufTy).Contents (Elt F) → (⟨S100000x64, .i1⟩ : BufTy).Contents (Elt F)),
    StableHlo.unary main_cst_23 main_call5_v2 (id : (⟨S_, .f32⟩ : BufTy).Contents (Elt F) → (⟨S_, .f32⟩ : BufTy).Contents (Elt F)),
    StableHlo.unary main_call5_v2 main_call5_v3 (broadcastInDim S100000x64 ![] bcast_S_S100000x64 : (⟨S_, .f32⟩ : BufTy).Contents (Elt F) → (⟨S100000x64, .f32⟩ : BufTy).Contents (Elt F)),
    StableHlo.binary main_call5_v3 main_v129 main_call5_v4 (mulf : (⟨S100000x64, .f32⟩ : BufTy).Contents (Elt F) → (⟨S100000x64, .f32⟩ : BufTy).Contents (Elt F) → (⟨S100000x64, .f32⟩ : BufTy).Contents (Elt F)),
    StableHlo.ternary main_call5_v1 main_v129 main_call5_v4 main_v130 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)),
    StableHlo.binary main_v100 main_v121 main_v131 (mulf : (⟨S100000x64, .f32⟩ : BufTy).Contents (Elt F) → (⟨S100000x64, .f32⟩ : BufTy).Contents (Elt F) → (⟨S100000x64, .f32⟩ : BufTy).Contents (Elt F)),
    StableHlo.unary main_arg4 main_v132 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v132 main_v133 rfl shapeCasts_S1x64x64_S64x64,
    StableHlo.binary main_v131 main_v133 main_v134 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg5 main_v135 ((extractStridedSlice S1x64 ![2, 0] · slices_S3x64_S1x64_2_0) : (⟨S3x64, .f32⟩ : BufTy).Contents (Elt F) → (⟨S1x64, .f32⟩ : BufTy).Contents (Elt F)),
    StableHlo.reshape main_v135 main_v136 rfl shapeCasts_S1x64_S64,
    StableHlo.unary main_v136 main_v137 (broadcastInDim S1x64 ![1] bcast_S64_S1x64_1 : (⟨S64, .f32⟩ : BufTy).Contents (Elt F) → (⟨S1x64, .f32⟩ : BufTy).Contents (Elt F)),
    StableHlo.unary main_v137 main_v138 (broadcastInDim S100000x64 ![0, 1] bcast_S1x64_S100000x64_0_1 : (⟨S1x64, .f32⟩ : BufTy).Contents (Elt F) → (⟨S100000x64, .f32⟩ : BufTy).Contents (Elt F)),
    StableHlo.binary main_v134 main_v138 main_v139 (addf : (⟨S100000x64, .f32⟩ : BufTy).Contents (Elt F) → (⟨S100000x64, .f32⟩ : BufTy).Contents (Elt F) → (⟨S100000x64, .f32⟩ : BufTy).Contents (Elt F)),
    StableHlo.nullary main_cst_24 (constant S_ .f32 0x3E4CCCCD#32),
    StableHlo.nullary main_call6_cst (constant S_ .f32 0x00000000#32),
    StableHlo.unary main_call6_cst main_call6_v0 (broadcastInDim S100000x64 ![] bcast_S_S100000x64 : (⟨S_, .f32⟩ : BufTy).Contents (Elt F) → (⟨S100000x64, .f32⟩ : BufTy).Contents (Elt F)),
    StableHlo.binary main_v139 main_call6_v0 main_call6_v1 (cmpf .oge : (⟨S100000x64, .f32⟩ : BufTy).Contents (Elt F) → (⟨S100000x64, .f32⟩ : BufTy).Contents (Elt F) → (⟨S100000x64, .i1⟩ : BufTy).Contents (Elt F)),
    StableHlo.unary main_cst_24 main_call6_v2 (id : (⟨S_, .f32⟩ : BufTy).Contents (Elt F) → (⟨S_, .f32⟩ : BufTy).Contents (Elt F)),
    StableHlo.unary main_call6_v2 main_call6_v3 (broadcastInDim S100000x64 ![] bcast_S_S100000x64 : (⟨S_, .f32⟩ : BufTy).Contents (Elt F) → (⟨S100000x64, .f32⟩ : BufTy).Contents (Elt F)),
    StableHlo.binary main_call6_v3 main_v139 main_call6_v4 (mulf : (⟨S100000x64, .f32⟩ : BufTy).Contents (Elt F) → (⟨S100000x64, .f32⟩ : BufTy).Contents (Elt F) → (⟨S100000x64, .f32⟩ : BufTy).Contents (Elt F)),
    StableHlo.ternary main_call6_v1 main_v139 main_call6_v4 main_v140 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)),
    StableHlo.binary main_v130 main_v140 main_v141 (addf : (⟨S100000x64, .f32⟩ : BufTy).Contents (Elt F) → (⟨S100000x64, .f32⟩ : BufTy).Contents (Elt F) → (⟨S100000x64, .f32⟩ : BufTy).Contents (Elt F)),
    StableHlo.binary main_v141 main_v141 main_v142 (mulf : (⟨S100000x64, .f32⟩ : BufTy).Contents (Elt F) → (⟨S100000x64, .f32⟩ : BufTy).Contents (Elt F) → (⟨S100000x64, .f32⟩ : BufTy).Contents (Elt F)),
    StableHlo.nullary main_cst_25 (constant S_ .f32 0x00000000#32),
    StableHlo.binary main_v142 main_cst_25 main_v143 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_v143 main_v144 (broadcastInDim S100000x1 ![0] bcast_S100000_S100000x1_0 : (⟨S100000, .f32⟩ : BufTy).Contents (Elt F) → (⟨S100000x1, .f32⟩ : BufTy).Contents (Elt F)),
    StableHlo.nullary main_cst_26 (constant S_ .f32 0x2B8CBCCC#32),
    StableHlo.unary main_cst_26 main_v145 (broadcastInDim S100000x1 ![] bcast_S_S100000x1 : (⟨S_, .f32⟩ : BufTy).Contents (Elt F) → (⟨S100000x1, .f32⟩ : BufTy).Contents (Elt F)),
    StableHlo.binary main_v144 main_v145 main_v146 (maximumf : (⟨S100000x1, .f32⟩ : BufTy).Contents (Elt F) → (⟨S100000x1, .f32⟩ : BufTy).Contents (Elt F) → (⟨S100000x1, .f32⟩ : BufTy).Contents (Elt F)),
    StableHlo.unary main_v146 main_v147 (Host.rsqrt : (⟨S100000x1, .f32⟩ : BufTy).Contents (Elt F) → (⟨S100000x1, .f32⟩ : BufTy).Contents (Elt F)),
    StableHlo.unary main_v147 main_v148 (broadcastInDim S100000x64 ![0, 1] bcast_S100000x1_S100000x64_0_1 : (⟨S100000x1, .f32⟩ : BufTy).Contents (Elt F) → (⟨S100000x64, .f32⟩ : BufTy).Contents (Elt F)),
    StableHlo.binary main_v141 main_v148 main_v149 (mulf : (⟨S100000x64, .f32⟩ : BufTy).Contents (Elt F) → (⟨S100000x64, .f32⟩ : BufTy).Contents (Elt F) → (⟨S100000x64, .f32⟩ : BufTy).Contents (Elt F)) ]

/-- `opsC` with each operation of a called function written as the plain operation at the buffers themselves, its function
    at the buffers' types (no operation of this stretch is a called function's: the same list). -/
abbrev opsCp : List (HloOp τ sig (Elt F)) :=
  [ StableHlo.nary ![main_arg0, main_v67, main_v108, main_v149] main_v150 (fun u => concatenate S100000x256 1 [⟨S100000x64, u 0⟩, ⟨S100000x64, u 1⟩, ⟨S100000x64, u 2⟩, ⟨S100000x64, u 3⟩] concatenates_S100000x64_S100000x64_S100000x64_S100000x64_S100000x256_d1) ]

/-- A typed reference taken at its buffer's own type moves contents by the identity: the stretch is its plain form. -/
theorem opsW_plain : (opsW : List (HloOp τ sig (Elt F))) = opsWp := rfl

/-- A typed reference taken at its buffer's own type moves contents by the identity: the stretch is its plain form. -/
theorem opsL1_plain : (opsL1 : List (HloOp τ sig (Elt F))) = opsL1p := rfl

/-- A typed reference taken at its buffer's own type moves contents by the identity: the stretch is its plain form. -/
theorem opsL2_plain : (opsL2 : List (HloOp τ sig (Elt F))) = opsL2p := rfl

/-- A typed reference taken at its buffer's own type moves contents by the identity: the stretch is its plain form. -/
theorem opsL3_plain : (opsL3 : List (HloOp τ sig (Elt F))) = opsL3p := rfl

/-- A typed reference taken at its buffer's own type moves contents by the identity: the stretch is its plain form. -/
theorem opsC_plain : (opsC : List (HloOp τ sig (Elt F))) = opsCp := rfl

/-- All of @main's operations in the plain form. -/
theorem ops_plain : (ops : List (HloOp τ sig (Elt F))) = opsWp ++ (opsL1p ++ (opsL2p ++ (opsL3p ++ opsCp))) := rfl

set_option maxRecDepth 8192 in
set_option maxHeartbeats 4000000 in
/-- @main is that straight line: its windows run in order, every call unfolded to its callee's operations over the call's
    buffers, sequencing reassociated — all by computation. -/
theorem main_eq (c : Dev nD) : main (F := F) c = seq ops := rfl

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- A property of every element of two lists holds of every element of their concatenation. -/
theorem forall_concat {α : Type} {p : α → Prop} {l₁ l₂ : List α} (h₁ : l₁.Forall p) (h₂ : l₂.Forall p) : (l₁ ++ l₂).Forall p :=
  List.forall_iff_forall_mem.mpr fun a h =>
    (List.mem_append.mp h).elim (List.forall_iff_forall_mem.mp h₁ a) (List.forall_iff_forall_mem.mp h₂ a)

set_option maxRecDepth 8192 in
/-- Every operation of `opsW` touches TensorCore references only. -/
theorem opsW_sub : (opsW : List (HloOp τ sig (Elt F))).Forall fun op => op.bufs ⊆ tcRefs τ sig :=
  ⟨unary_bufs_sub .., reshape_bufs_sub .., unary_bufs_sub .., reshape_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., nullary_bufs_sub .., unary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub ..⟩

set_option maxRecDepth 8192 in
/-- Every operation of `opsL1` touches TensorCore references only. -/
theorem opsL1_sub : (opsL1 : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., unary_bufs_sub .., reshape_bufs_sub ..,
    binary_bufs_sub .., unary_bufs_sub .., reshape_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., binary_bufs_sub .., unary_bufs_sub .., reshape_bufs_sub .., binary_bufs_sub ..,
    unary_bufs_sub .., reshape_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., binary_bufs_sub .., binary_bufs_sub .., nullary_bufs_sub .., binary_bufs_sub .., unary_bufs_sub ..,
    nullary_bufs_sub .., unary_bufs_sub .., binary_bufs_sub .., unary_bufs_sub .., unary_bufs_sub .., binary_bufs_sub ..⟩

set_option maxRecDepth 8192 in
/-- Every operation of `opsL2` touches TensorCore references only. -/
theorem opsL2_sub : (opsL2 : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., unary_bufs_sub .., reshape_bufs_sub ..,
    binary_bufs_sub .., unary_bufs_sub .., reshape_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., binary_bufs_sub .., unary_bufs_sub .., reshape_bufs_sub .., binary_bufs_sub ..,
    unary_bufs_sub .., reshape_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., binary_bufs_sub .., binary_bufs_sub .., nullary_bufs_sub .., binary_bufs_sub .., unary_bufs_sub ..,
    nullary_bufs_sub .., unary_bufs_sub .., binary_bufs_sub .., unary_bufs_sub .., unary_bufs_sub .., binary_bufs_sub ..⟩

set_option maxRecDepth 8192 in
/-- Every operation of `opsL3` touches TensorCore references only. -/
theorem opsL3_sub : (opsL3 : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., unary_bufs_sub .., reshape_bufs_sub ..,
    binary_bufs_sub .., unary_bufs_sub .., reshape_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., binary_bufs_sub .., unary_bufs_sub .., reshape_bufs_sub .., binary_bufs_sub ..,
    unary_bufs_sub .., reshape_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., binary_bufs_sub .., binary_bufs_sub .., nullary_bufs_sub .., binary_bufs_sub .., unary_bufs_sub ..,
    nullary_bufs_sub .., unary_bufs_sub .., binary_bufs_sub .., unary_bufs_sub .., unary_bufs_sub .., binary_bufs_sub ..⟩

set_option maxRecDepth 8192 in
/-- Every operation of `opsC` touches TensorCore references only. -/
theorem opsC_sub : (opsC : List (HloOp τ sig (Elt F))).Forall fun op => op.bufs ⊆ tcRefs τ sig :=
  nary_bufs_sub ..

/-- Every operation of @main touches TensorCore references only. -/
theorem ops_sub : (ops : List (HloOp τ sig (Elt F))).Forall fun op => op.bufs ⊆ tcRefs τ sig :=
  forall_concat opsW_sub (forall_concat opsL1_sub (forall_concat opsL2_sub (forall_concat opsL3_sub opsC_sub)))

set_option maxRecDepth 8192 in
/-- Every operation of `opsW` determines the contents of what it writes. -/
theorem opsW_fresh : (opsW : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl⟩

set_option maxRecDepth 8192 in
/-- Every operation of `opsL1` determines the contents of what it writes. -/
theorem opsL1_fresh : (opsL1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- Every operation of `opsL2` determines the contents of what it writes. -/
theorem opsL2_fresh : (opsL2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- Every operation of `opsL3` determines the contents of what it writes. -/
theorem opsL3_fresh : (opsL3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- Every operation of `opsC` determines the contents of what it writes. -/
theorem opsC_fresh : (opsC : List (HloOp τ sig (Elt F))).Forall fun op => op.fresh = ∅ :=
  rfl

/-- Every operation of @main determines the contents of what it writes. -/
theorem ops_fresh : (ops : List (HloOp τ sig (Elt F))).Forall fun op => op.fresh = ∅ :=
  forall_concat opsW_fresh (forall_concat opsL1_fresh (forall_concat opsL2_fresh (forall_concat opsL3_fresh opsC_fresh)))

/-- On every device, for any float values, from any memory with zero counters: every weakly fair execution of @main
    terminates, and every TensorCore buffer ends at the fold of the operations' results over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = StableHlo.after ops (StableHlo.launchContents m d) (Proc.devRef .tc b) :=
  run_seq scopedRefs_eq scopedSems_eq defs main (fun _ => ops) main_eq (fun _ => ops_sub) m ρ
    (fun _ => List.forall_iff_forall_mem.mp ops_fresh)

/-- The buffers `opsW` writes, in order. -/
abbrev writtenW : List (Ref sig .tc) :=
  [main_v0, main_v1, main_v2, main_v3, main_cst, main_v4, main_cst_0, main_v5, main_v6, main_v7, main_cst_1, main_v8, main_v9, main_v10, main_cst_2, main_call0.v0.ref, main_call0.v1.ref, main_call0.v2.ref, main_c, main_v12, main_v13, main_c_3, main_v14, main_v15, main_v16, main_v17, main_v18, main_c_4, main_v19, main_v20, main_c_5, main_v21, main_v22, main_v23, main_v24, main_v25, main_v26]

/-- The buffers `opsL1` writes, in order. -/
abbrev writtenL1 : List (Ref sig .tc) :=
  [main_v27, main_c_6, main_v28, main_v29, main_c_7, main_v30, main_v31, main_v32, main_v33, main_v34, main_v35, main_v36, main_cst_8, main_v37, main_v38, main_v39, main_v40, main_v41, main_v42, main_v43, main_v44, main_v45, main_v46, main_v47, main_cst_9, main_call1.cst.ref, main_call1.v0.ref, main_call1.v1.ref, main_call1.v2.ref, main_call1.v3.ref, main_call1.v4.ref, main_call1.call0.v0.ref, main_v49, main_v50, main_v51, main_v52, main_v53, main_v54, main_v55, main_v56, main_v57, main_cst_10, main_call2.cst.ref, main_call2.v0.ref, main_call2.v1.ref, main_call2.v2.ref, main_call2.v3.ref, main_call2.v4.ref, main_call2.call0.v0.ref, main_v59, main_v60, main_cst_11, main_v61, main_v62, main_cst_12, main_v63, main_v64, main_v65, main_v66, main_v67]

/-- The buffers `opsL2` writes, in order. -/
abbrev writtenL2 : List (Ref sig .tc) :=
  [main_v68, main_c_13, main_v69, main_v70, main_c_14, main_v71, main_v72, main_v73, main_v74, main_v75, main_v76, main_v77, main_cst_15, main_v78, main_v79, main_v80, main_v81, main_v82, main_v83, main_v84, main_v85, main_v86, main_v87, main_v88, main_cst_16, main_call3.cst.ref, main_call3.v0.ref, main_call3.v1.ref, main_call3.v2.ref, main_call3.v3.ref, main_call3.v4.ref, main_call3.call0.v0.ref, main_v90, main_v91, main_v92, main_v93, main_v94, main_v95, main_v96, main_v97, main_v98, main_cst_17, main_call4.cst.ref, main_call4.v0.ref, main_call4.v1.ref, main_call4.v2.ref, main_call4.v3.ref, main_call4.v4.ref, main_call4.call0.v0.ref, main_v100, main_v101, main_cst_18, main_v102, main_v103, main_cst_19, main_v104, main_v105, main_v106, main_v107, main_v108]

/-- The buffers `opsL3` writes, in order. -/
abbrev writtenL3 : List (Ref sig .tc) :=
  [main_v109, main_c_20, main_v110, main_v111, main_c_21, main_v112, main_v113, main_v114, main_v115, main_v116, main_v117, main_v118, main_cst_22, main_v119, main_v120, main_v121, main_v122, main_v123, main_v124, main_v125, main_v126, main_v127, main_v128, main_v129, main_cst_23, main_call5.cst.ref, main_call5.v0.ref, main_call5.v1.ref, main_call5.v2.ref, main_call5.v3.ref, main_call5.v4.ref, main_call5.call0.v0.ref, main_v131, main_v132, main_v133, main_v134, main_v135, main_v136, main_v137, main_v138, main_v139, main_cst_24, main_call6.cst.ref, main_call6.v0.ref, main_call6.v1.ref, main_call6.v2.ref, main_call6.v3.ref, main_call6.v4.ref, main_call6.call0.v0.ref, main_v141, main_v142, main_cst_25, main_v143, main_v144, main_cst_26, main_v145, main_v146, main_v147, main_v148, main_v149]

/-- The buffers `opsC` writes, in order. -/
abbrev writtenC : List (Ref sig .tc) :=
  [main_v150]

/-- An operation writing the one buffer `y` writes inside any list of references holding `y`. -/
theorem writes_sub_of_mem {op : HloOp τ sig (Elt F)} {W : List (Ref sig .tc)} (y : Ref sig .tc)
    (h : op.writes = {Proc.devRef .tc y}) (hy : y ∈ W) : op.writes ⊆ (W.map (Proc.devRef (τ := τ) .tc)).toFinset := by
  rw [h, Finset.singleton_subset_iff, List.mem_toFinset]
  exact List.mem_map.mpr ⟨y, hy, rfl⟩

set_option maxRecDepth 8192 in
/-- Each operation of `opsW` writes its own result buffer, one of `writtenW`. -/
theorem opsW_writes : (opsW : List (HloOp τ sig (Elt F))).Forall fun op => op.writes ⊆ ((writtenW).map (Proc.devRef (τ := τ) .tc)).toFinset :=
  ⟨writes_sub_of_mem main_v0 rfl (by decide), writes_sub_of_mem main_v1 rfl (by decide), writes_sub_of_mem main_v2 rfl (by decide),
    writes_sub_of_mem main_v3 rfl (by decide), writes_sub_of_mem main_cst rfl (by decide), writes_sub_of_mem main_v4 rfl (by decide),
    writes_sub_of_mem main_cst_0 rfl (by decide), writes_sub_of_mem main_v5 rfl (by decide), writes_sub_of_mem main_v6 rfl (by decide),
    writes_sub_of_mem main_v7 rfl (by decide), writes_sub_of_mem main_cst_1 rfl (by decide), writes_sub_of_mem main_v8 rfl (by decide),
    writes_sub_of_mem main_v9 rfl (by decide), writes_sub_of_mem main_v10 rfl (by decide), writes_sub_of_mem main_cst_2 rfl (by decide),
    writes_sub_of_mem (main_call0.v0.ref) rfl (by decide), writes_sub_of_mem (main_call0.v1.ref) rfl (by decide), writes_sub_of_mem (main_call0.v2.ref) rfl (by decide),
    writes_sub_of_mem main_c rfl (by decide), writes_sub_of_mem main_v12 rfl (by decide), writes_sub_of_mem main_v13 rfl (by decide),
    writes_sub_of_mem main_c_3 rfl (by decide), writes_sub_of_mem main_v14 rfl (by decide), writes_sub_of_mem main_v15 rfl (by decide),
    writes_sub_of_mem main_v16 rfl (by decide), writes_sub_of_mem main_v17 rfl (by decide), writes_sub_of_mem main_v18 rfl (by decide),
    writes_sub_of_mem main_c_4 rfl (by decide), writes_sub_of_mem main_v19 rfl (by decide), writes_sub_of_mem main_v20 rfl (by decide),
    writes_sub_of_mem main_c_5 rfl (by decide), writes_sub_of_mem main_v21 rfl (by decide), writes_sub_of_mem main_v22 rfl (by decide),
    writes_sub_of_mem main_v23 rfl (by decide), writes_sub_of_mem main_v24 rfl (by decide), writes_sub_of_mem main_v25 rfl (by decide),
    writes_sub_of_mem main_v26 rfl (by decide)⟩

set_option maxRecDepth 8192 in
/-- Each operation of `opsL1` writes its own result buffer, one of `writtenL1`. -/
theorem opsL1_writes : (opsL1 : List (HloOp τ sig (Elt F))).Forall fun op => op.writes ⊆ ((writtenL1).map (Proc.devRef (τ := τ) .tc)).toFinset :=
  ⟨writes_sub_of_mem main_v27 rfl (by decide), writes_sub_of_mem main_c_6 rfl (by decide), writes_sub_of_mem main_v28 rfl (by decide),
    writes_sub_of_mem main_v29 rfl (by decide), writes_sub_of_mem main_c_7 rfl (by decide), writes_sub_of_mem main_v30 rfl (by decide),
    writes_sub_of_mem main_v31 rfl (by decide), writes_sub_of_mem main_v32 rfl (by decide), writes_sub_of_mem main_v33 rfl (by decide),
    writes_sub_of_mem main_v34 rfl (by decide), writes_sub_of_mem main_v35 rfl (by decide), writes_sub_of_mem main_v36 rfl (by decide),
    writes_sub_of_mem main_cst_8 rfl (by decide), writes_sub_of_mem main_v37 rfl (by decide), writes_sub_of_mem main_v38 rfl (by decide),
    writes_sub_of_mem main_v39 rfl (by decide), writes_sub_of_mem main_v40 rfl (by decide), writes_sub_of_mem main_v41 rfl (by decide),
    writes_sub_of_mem main_v42 rfl (by decide), writes_sub_of_mem main_v43 rfl (by decide), writes_sub_of_mem main_v44 rfl (by decide),
    writes_sub_of_mem main_v45 rfl (by decide), writes_sub_of_mem main_v46 rfl (by decide), writes_sub_of_mem main_v47 rfl (by decide),
    writes_sub_of_mem main_cst_9 rfl (by decide), writes_sub_of_mem (main_call1.cst.ref) rfl (by decide), writes_sub_of_mem (main_call1.v0.ref) rfl (by decide),
    writes_sub_of_mem (main_call1.v1.ref) rfl (by decide), writes_sub_of_mem (main_call1.v2.ref) rfl (by decide), writes_sub_of_mem (main_call1.v3.ref) rfl (by decide),
    writes_sub_of_mem (main_call1.v4.ref) rfl (by decide), writes_sub_of_mem (main_call1.call0.v0.ref) rfl (by decide), writes_sub_of_mem main_v49 rfl (by decide),
    writes_sub_of_mem main_v50 rfl (by decide), writes_sub_of_mem main_v51 rfl (by decide), writes_sub_of_mem main_v52 rfl (by decide),
    writes_sub_of_mem main_v53 rfl (by decide), writes_sub_of_mem main_v54 rfl (by decide), writes_sub_of_mem main_v55 rfl (by decide),
    writes_sub_of_mem main_v56 rfl (by decide), writes_sub_of_mem main_v57 rfl (by decide), writes_sub_of_mem main_cst_10 rfl (by decide),
    writes_sub_of_mem (main_call2.cst.ref) rfl (by decide), writes_sub_of_mem (main_call2.v0.ref) rfl (by decide), writes_sub_of_mem (main_call2.v1.ref) rfl (by decide),
    writes_sub_of_mem (main_call2.v2.ref) rfl (by decide), writes_sub_of_mem (main_call2.v3.ref) rfl (by decide), writes_sub_of_mem (main_call2.v4.ref) rfl (by decide),
    writes_sub_of_mem (main_call2.call0.v0.ref) rfl (by decide), writes_sub_of_mem main_v59 rfl (by decide), writes_sub_of_mem main_v60 rfl (by decide),
    writes_sub_of_mem main_cst_11 rfl (by decide), writes_sub_of_mem main_v61 rfl (by decide), writes_sub_of_mem main_v62 rfl (by decide),
    writes_sub_of_mem main_cst_12 rfl (by decide), writes_sub_of_mem main_v63 rfl (by decide), writes_sub_of_mem main_v64 rfl (by decide),
    writes_sub_of_mem main_v65 rfl (by decide), writes_sub_of_mem main_v66 rfl (by decide), writes_sub_of_mem main_v67 rfl (by decide)⟩

set_option maxRecDepth 8192 in
/-- Each operation of `opsL2` writes its own result buffer, one of `writtenL2`. -/
theorem opsL2_writes : (opsL2 : List (HloOp τ sig (Elt F))).Forall fun op => op.writes ⊆ ((writtenL2).map (Proc.devRef (τ := τ) .tc)).toFinset :=
  ⟨writes_sub_of_mem main_v68 rfl (by decide), writes_sub_of_mem main_c_13 rfl (by decide), writes_sub_of_mem main_v69 rfl (by decide),
    writes_sub_of_mem main_v70 rfl (by decide), writes_sub_of_mem main_c_14 rfl (by decide), writes_sub_of_mem main_v71 rfl (by decide),
    writes_sub_of_mem main_v72 rfl (by decide), writes_sub_of_mem main_v73 rfl (by decide), writes_sub_of_mem main_v74 rfl (by decide),
    writes_sub_of_mem main_v75 rfl (by decide), writes_sub_of_mem main_v76 rfl (by decide), writes_sub_of_mem main_v77 rfl (by decide),
    writes_sub_of_mem main_cst_15 rfl (by decide), writes_sub_of_mem main_v78 rfl (by decide), writes_sub_of_mem main_v79 rfl (by decide),
    writes_sub_of_mem main_v80 rfl (by decide), writes_sub_of_mem main_v81 rfl (by decide), writes_sub_of_mem main_v82 rfl (by decide),
    writes_sub_of_mem main_v83 rfl (by decide), writes_sub_of_mem main_v84 rfl (by decide), writes_sub_of_mem main_v85 rfl (by decide),
    writes_sub_of_mem main_v86 rfl (by decide), writes_sub_of_mem main_v87 rfl (by decide), writes_sub_of_mem main_v88 rfl (by decide),
    writes_sub_of_mem main_cst_16 rfl (by decide), writes_sub_of_mem (main_call3.cst.ref) rfl (by decide), writes_sub_of_mem (main_call3.v0.ref) rfl (by decide),
    writes_sub_of_mem (main_call3.v1.ref) rfl (by decide), writes_sub_of_mem (main_call3.v2.ref) rfl (by decide), writes_sub_of_mem (main_call3.v3.ref) rfl (by decide),
    writes_sub_of_mem (main_call3.v4.ref) rfl (by decide), writes_sub_of_mem (main_call3.call0.v0.ref) rfl (by decide), writes_sub_of_mem main_v90 rfl (by decide),
    writes_sub_of_mem main_v91 rfl (by decide), writes_sub_of_mem main_v92 rfl (by decide), writes_sub_of_mem main_v93 rfl (by decide),
    writes_sub_of_mem main_v94 rfl (by decide), writes_sub_of_mem main_v95 rfl (by decide), writes_sub_of_mem main_v96 rfl (by decide),
    writes_sub_of_mem main_v97 rfl (by decide), writes_sub_of_mem main_v98 rfl (by decide), writes_sub_of_mem main_cst_17 rfl (by decide),
    writes_sub_of_mem (main_call4.cst.ref) rfl (by decide), writes_sub_of_mem (main_call4.v0.ref) rfl (by decide), writes_sub_of_mem (main_call4.v1.ref) rfl (by decide),
    writes_sub_of_mem (main_call4.v2.ref) rfl (by decide), writes_sub_of_mem (main_call4.v3.ref) rfl (by decide), writes_sub_of_mem (main_call4.v4.ref) rfl (by decide),
    writes_sub_of_mem (main_call4.call0.v0.ref) rfl (by decide), writes_sub_of_mem main_v100 rfl (by decide), writes_sub_of_mem main_v101 rfl (by decide),
    writes_sub_of_mem main_cst_18 rfl (by decide), writes_sub_of_mem main_v102 rfl (by decide), writes_sub_of_mem main_v103 rfl (by decide),
    writes_sub_of_mem main_cst_19 rfl (by decide), writes_sub_of_mem main_v104 rfl (by decide), writes_sub_of_mem main_v105 rfl (by decide),
    writes_sub_of_mem main_v106 rfl (by decide), writes_sub_of_mem main_v107 rfl (by decide), writes_sub_of_mem main_v108 rfl (by decide)⟩

set_option maxRecDepth 8192 in
/-- Each operation of `opsL3` writes its own result buffer, one of `writtenL3`. -/
theorem opsL3_writes : (opsL3 : List (HloOp τ sig (Elt F))).Forall fun op => op.writes ⊆ ((writtenL3).map (Proc.devRef (τ := τ) .tc)).toFinset :=
  ⟨writes_sub_of_mem main_v109 rfl (by decide), writes_sub_of_mem main_c_20 rfl (by decide), writes_sub_of_mem main_v110 rfl (by decide),
    writes_sub_of_mem main_v111 rfl (by decide), writes_sub_of_mem main_c_21 rfl (by decide), writes_sub_of_mem main_v112 rfl (by decide),
    writes_sub_of_mem main_v113 rfl (by decide), writes_sub_of_mem main_v114 rfl (by decide), writes_sub_of_mem main_v115 rfl (by decide),
    writes_sub_of_mem main_v116 rfl (by decide), writes_sub_of_mem main_v117 rfl (by decide), writes_sub_of_mem main_v118 rfl (by decide),
    writes_sub_of_mem main_cst_22 rfl (by decide), writes_sub_of_mem main_v119 rfl (by decide), writes_sub_of_mem main_v120 rfl (by decide),
    writes_sub_of_mem main_v121 rfl (by decide), writes_sub_of_mem main_v122 rfl (by decide), writes_sub_of_mem main_v123 rfl (by decide),
    writes_sub_of_mem main_v124 rfl (by decide), writes_sub_of_mem main_v125 rfl (by decide), writes_sub_of_mem main_v126 rfl (by decide),
    writes_sub_of_mem main_v127 rfl (by decide), writes_sub_of_mem main_v128 rfl (by decide), writes_sub_of_mem main_v129 rfl (by decide),
    writes_sub_of_mem main_cst_23 rfl (by decide), writes_sub_of_mem (main_call5.cst.ref) rfl (by decide), writes_sub_of_mem (main_call5.v0.ref) rfl (by decide),
    writes_sub_of_mem (main_call5.v1.ref) rfl (by decide), writes_sub_of_mem (main_call5.v2.ref) rfl (by decide), writes_sub_of_mem (main_call5.v3.ref) rfl (by decide),
    writes_sub_of_mem (main_call5.v4.ref) rfl (by decide), writes_sub_of_mem (main_call5.call0.v0.ref) rfl (by decide), writes_sub_of_mem main_v131 rfl (by decide),
    writes_sub_of_mem main_v132 rfl (by decide), writes_sub_of_mem main_v133 rfl (by decide), writes_sub_of_mem main_v134 rfl (by decide),
    writes_sub_of_mem main_v135 rfl (by decide), writes_sub_of_mem main_v136 rfl (by decide), writes_sub_of_mem main_v137 rfl (by decide),
    writes_sub_of_mem main_v138 rfl (by decide), writes_sub_of_mem main_v139 rfl (by decide), writes_sub_of_mem main_cst_24 rfl (by decide),
    writes_sub_of_mem (main_call6.cst.ref) rfl (by decide), writes_sub_of_mem (main_call6.v0.ref) rfl (by decide), writes_sub_of_mem (main_call6.v1.ref) rfl (by decide),
    writes_sub_of_mem (main_call6.v2.ref) rfl (by decide), writes_sub_of_mem (main_call6.v3.ref) rfl (by decide), writes_sub_of_mem (main_call6.v4.ref) rfl (by decide),
    writes_sub_of_mem (main_call6.call0.v0.ref) rfl (by decide), writes_sub_of_mem main_v141 rfl (by decide), writes_sub_of_mem main_v142 rfl (by decide),
    writes_sub_of_mem main_cst_25 rfl (by decide), writes_sub_of_mem main_v143 rfl (by decide), writes_sub_of_mem main_v144 rfl (by decide),
    writes_sub_of_mem main_cst_26 rfl (by decide), writes_sub_of_mem main_v145 rfl (by decide), writes_sub_of_mem main_v146 rfl (by decide),
    writes_sub_of_mem main_v147 rfl (by decide), writes_sub_of_mem main_v148 rfl (by decide), writes_sub_of_mem main_v149 rfl (by decide)⟩

set_option maxRecDepth 8192 in
/-- Each operation of `opsC` writes its own result buffer, one of `writtenC`. -/
theorem opsC_writes : (opsC : List (HloOp τ sig (Elt F))).Forall fun op => op.writes ⊆ ((writtenC).map (Proc.devRef (τ := τ) .tc)).toFinset :=
  writes_sub_of_mem main_v150 rfl (by decide)

/-- Running two lists of operations one after the other is running their concatenation. -/
theorem after_concat (l₁ l₂ : List (HloOp τ sig (Elt F))) (V : Valuation τ sig (Elt F)) : after (l₁ ++ l₂) V = after l₂ (after l₁ V) := by
  induction l₁ generalizing V with
  | nil => rfl
  | cons op l ih => rw [List.cons_append, after_cons, after_cons, ih]

/-- No argument buffer is among the written ones. -/
theorem args_not_written : ∀ b ∈ ([main_arg0, main_arg1, main_arg2, main_arg3, main_arg4, main_arg5] : List (Ref sig .tc)),
    b ∉ writtenW ∧ b ∉ writtenL1 ∧ b ∉ writtenL2 ∧ b ∉ writtenL3 ∧ b ∉ writtenC := by decide

/-- No operation writes an argument: after the operations each argument buffer holds its launch contents. -/
theorem kept (m : (ℓ : Loc nD τ sig) → Buf (Elt F) ℓ) (d : Dev nD) (b : Ref sig .tc)
    (hb : b ∈ ([main_arg0, main_arg1, main_arg2, main_arg3, main_arg4, main_arg5] : List (Ref sig .tc))) :
    StableHlo.after ops (StableHlo.launchContents m d) (Proc.devRef .tc b) = m ((d.tc : Thread nD τ).loc b) := by
  obtain ⟨hW, h1, h2, h3, hC⟩ := args_not_written b hb
  rw [after_concat, after_concat, after_concat, after_concat, after_of_writes_sub opsC _ opsC_writes hC,
    after_of_writes_sub opsL3 _ opsL3_writes h3, after_of_writes_sub opsL2 _ opsL2_writes h2,
    after_of_writes_sub opsL1 _ opsL1_writes h1, after_of_writes_sub opsW _ opsW_writes hW]

/-- The reference's frame: every weakly fair execution of @main terminates with the six argument buffers unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨(h c main_arg0).trans (kept m c main_arg0 (by decide)),
     (h c main_arg1).trans (kept m c main_arg1 (by decide)),
     (h c main_arg2).trans (kept m c main_arg2 (by decide)),
     (h c main_arg3).trans (kept m c main_arg3 (by decide)),
     (h c main_arg4).trans (kept m c main_arg4 (by decide)),
     (h c main_arg5).trans (kept m c main_arg5 (by decide))⟩)
    (run m ρ)

end Cert.ReferenceIdeal.RefRun

end
-- ==== Proof.Spec.lean ====
/-
  The layer on one row, over the extended reals.

  For a node's feature row h and its aggregated row a (64 entries each), 64×64 matrices Wg, Wi and biases bg, bi:
    new(c)  = lrelu(Σ_k a(k)·Wg(k,c) + bg(c)) + lrelu(Σ_k (h(k)·a(k))·Wi(k,c) + bi(c)),
    lrelu(z) = z if z ≥ 0, else slope·z,
  and the normalised row  unit(c) = new(c) · rsqrt(max(Σ_k new(k)², ε)).
  Both programs compute exactly this per row; the constants are the shared f32 words, never evaluated.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The f32 word of the slope 0.2, of zero, and of ε = 1e-12, as extended reals. -/
def slope : EReal := Ideal.ofBits .f32 0x3E4CCCCD#32
def zeroF : EReal := Ideal.ofBits .f32 0x00000000#32
def eps : EReal := Ideal.ofBits .f32 0x2B8CBCCC#32

/-- The leaky rectifier: z where z ≥ 0, slope·z elsewhere. -/
def lrelu (z : EReal) : EReal :=
  Scalar.select (FloatOps.cmpf (F := Ideal) (φ := .f32) .oge z zeroF) z (slope * z)

/-- One dense branch on a row: Σ_k x(k)·W(k,c) + b(c). -/
def dense (x : Fin 64 → EReal) (W : Fin 64 → Fin 64 → EReal) (b : Fin 64 → EReal) (c : Fin 64) : EReal :=
  (∑ k : Fin 64, x k * W k c) + b c

/-- The new feature row from the row h and the aggregated row a. -/
def rowH (h a : Fin 64 → EReal) (Wg : Fin 64 → Fin 64 → EReal) (bg : Fin 64 → EReal)
    (Wi : Fin 64 → Fin 64 → EReal) (bi : Fin 64 → EReal) (c : Fin 64) : EReal :=
  lrelu (dense a Wg bg c) + lrelu (dense (fun k => h k * a k) Wi bi c)

/-- The row scaled to unit length (with the ε guard under the root). -/
def rowN (x : Fin 64 → EReal) (c : Fin 64) : EReal :=
  x c * Ideal.rsqrt (max (∑ k : Fin 64, x k * x k) eps)

/-- The layer over whole arrays, index by index: entry (r, c) of the new features is the row formula of row r of the
    features h and of the aggregate a (N×64 arrays), with a 64×64 matrix and a 1×64 bias row per branch. -/
def LayerH {N : ℕ} (h a : (⟨2, ![N, 64]⟩ : Shape).Idx → EReal) (wg : (⟨2, ![64, 64]⟩ : Shape).Idx → EReal) (bg : (⟨2, ![1, 64]⟩ : Shape).Idx → EReal)
    (wi : (⟨2, ![64, 64]⟩ : Shape).Idx → EReal) (bi : (⟨2, ![1, 64]⟩ : Shape).Idx → EReal) : (⟨2, ![N, 64]⟩ : Shape).Idx → EReal :=
  fun i => rowH (fun k => h (ix2 (⟨(i 0).val, idx2_lt0 i⟩ : Fin N) k)) (fun k => a (ix2 (⟨(i 0).val, idx2_lt0 i⟩ : Fin N) k))
    (fun k c => wg (ix2 k c)) (fun c => bg (ix2 (0 : Fin 1) c)) (fun k c => wi (ix2 k c)) (fun c => bi (ix2 (0 : Fin 1) c)) ⟨(i 1).val, idx2_lt1 i⟩

/-- Every row of an N×64 array scaled to unit length. -/
def LayerN {N : ℕ} (x : (⟨2, ![N, 64]⟩ : Shape).Idx → EReal) : (⟨2, ![N, 64]⟩ : Shape).Idx → EReal :=
  fun i => rowN (fun k => x (ix2 (⟨(i 0).val, idx2_lt0 i⟩ : Fin N) k)) ⟨(i 1).val, idx2_lt1 i⟩

theorem LayerH_ix2 {N : ℕ} (h a : (⟨2, ![N, 64]⟩ : Shape).Idx → EReal) (wg : (⟨2, ![64, 64]⟩ : Shape).Idx → EReal) (bg : (⟨2, ![1, 64]⟩ : Shape).Idx → EReal)
    (wi : (⟨2, ![64, 64]⟩ : Shape).Idx → EReal) (bi : (⟨2, ![1, 64]⟩ : Shape).Idx → EReal) (r : Fin N) (q : Fin 64) :
    LayerH h a wg bg wi bi (ix2 r q) = rowH (fun k => h (ix2 r k)) (fun k => a (ix2 r k))
      (fun k c => wg (ix2 k c)) (fun c => bg (ix2 (0 : Fin 1) c)) (fun k c => wi (ix2 k c)) (fun c => bi (ix2 (0 : Fin 1) c)) q := rfl

theorem LayerN_ix2 {N : ℕ} (x : (⟨2, ![N, 64]⟩ : Shape).Idx → EReal) (r : Fin N) (q : Fin 64) :
    LayerN x (ix2 r q) = rowN (fun k => x (ix2 r k)) q := rfl

end Cert.Spec

end
-- ==== Proof.Shared.lean ====
/-
  The whole computation as one function of the six argument arrays, over the extended reals.

  From the 2×E array of edges (E = 1600000): the destination row and the source row of each edge; the degree of every node
  (a scatter-add of ones at the destination rows), its reciprocal root where positive and zero elsewhere; the weight of an
  edge, the product of the two at its end points (negative indices wrapped by the number of nodes, as indexing does).
  One aggregation of a feature array h: gather the source rows, scale by the edge weights, scatter-add at the destination
  rows. One layer: the row formula of (h, aggregate of h) with that layer's slices of the parameters. The result: the
  features and the three layers' normalised outputs side by side.  Both programs are read against this one function.
-/
import proofs.«125014_j7464653161107_1_alg».proof.Proof.Spec
import Idealize.ShloMosaic.PureOps.Ideal
import Idealize.ShloMosaic.PureOps.ShapeOps

set_option maxRecDepth 65536

noncomputable section

namespace Cert.Shared

open Idealize.ShloMosaic Idealize.ShloMosaic.ValueIdx Cert.Spec

abbrev T0 : Shape := ⟨0, ![]⟩
abbrev TN : Shape := ⟨1, ![100000]⟩
abbrev TE : Shape := ⟨1, ![1600000]⟩
abbrev T2E : Shape := ⟨2, ![2, 1600000]⟩
abbrev T1E : Shape := ⟨2, ![1, 1600000]⟩
abbrev TE1 : Shape := ⟨2, ![1600000, 1]⟩
abbrev TE64 : Shape := ⟨2, ![1600000, 64]⟩
abbrev TN64 : Shape := ⟨2, ![100000, 64]⟩
abbrev TN256 : Shape := ⟨2, ![100000, 256]⟩
abbrev T3x64x64 : Shape := ⟨3, ![3, 64, 64]⟩
abbrev T1x64x64 : Shape := ⟨3, ![1, 64, 64]⟩
abbrev T64x64 : Shape := ⟨2, ![64, 64]⟩
abbrev T3x64 : Shape := ⟨2, ![3, 64]⟩
abbrev T1x64 : Shape := ⟨2, ![1, 64]⟩
abbrev T64 : Shape := ⟨1, ![64]⟩

theorem sl2E (r : ℕ) (hr : r < 2) : T2E.Slices ![r, 0] T1E := by interval_cases r <;> decide
theorem sc1E : T1E.ShapeCasts TE := by decide
theorem bc0E : T0.BroadcastsInDim TE (![] : Fin 0 → Fin TE.rank) := by decide
theorem bc0N : T0.BroadcastsInDim TN (![] : Fin 0 → Fin TN.rank) := by decide
theorem bc0N64 : T0.BroadcastsInDim TN64 (![] : Fin 0 → Fin TN64.rank) := by decide
theorem bcE1 : TE.BroadcastsInDim TE1 (![0] : Fin 1 → Fin TE1.rank) := by decide
theorem bcE64 : TE1.BroadcastsInDim TE64 (![0, 1] : Fin 2 → Fin TE64.rank) := by decide
theorem sl3m (L : ℕ) (hL : L < 3) : T3x64x64.Slices ![L, 0, 0] T1x64x64 := by interval_cases L <;> decide
theorem sl3v (L : ℕ) (hL : L < 3) : T3x64.Slices ![L, 0] T1x64 := by interval_cases L <;> decide
theorem scm : T1x64x64.ShapeCasts T64x64 := by decide
theorem scv : T1x64.ShapeCasts T64 := by decide
theorem scr : T64.ShapeCasts T1x64 := by decide
theorem cat4 : Shape.Concatenates [TN64, TN64, TN64, TN64] TN256 1 := by decide

/-- The dimension records of the four irregular operations. -/
def scatN : ScatterDims TN TE1 TE where
  updateWindowDims := []
  insertedWindowDims := [0]
  scatterDimsToOperandDims := [0]
  indexVectorDim := 1
  wf := by decide
def gathN : GatherDims TN TE1 TE where
  offsetDims := []
  collapsedSliceDims := [0]
  operandBatchingDims := []
  startIndicesBatchingDims := []
  startIndexMap := [0]
  indexVectorDim := 1
  sliceSizes := ![1]
  wf := by decide
def gathN64 : GatherDims TN64 TE1 TE64 where
  offsetDims := [1]
  collapsedSliceDims := [0]
  operandBatchingDims := []
  startIndicesBatchingDims := []
  startIndexMap := [0]
  indexVectorDim := 1
  sliceSizes := ![1, 64]
  wf := by decide
def scatN64 : ScatterDims TN64 TE1 TE64 where
  updateWindowDims := [1]
  insertedWindowDims := [0]
  scatterDimsToOperandDims := [0]
  indexVectorDim := 1
  wf := by decide

/-- Row r (0: destinations, 1: sources) of the edge array, as a vector. -/
def edgeRow (r : ℕ) (hr : r < 2) (ei : IVec T2E 32) : IVec TE 32 :=
  shapeCast TE (extractStridedSlice T1E ![r, 0] ei (sl2E r hr)) sc1E
/-- A negative index wrapped by the number of nodes. -/
def wrap (v : IVec TE 32) : IVec TE 32 :=
  select (cmpi .slt v (broadcastInDim TE ![] bc0E (constantI T0 32 0#32))) (addi v (broadcastInDim TE ![] bc0E (constantI T0 32 100000#32))) v
/-- A vector of indices as a column. -/
def col (v : IVec TE 32) : IVec TE1 32 := broadcastInDim TE1 ![0] bcE1 v
/-- The degree of every node. -/
def deg (ei : IVec T2E 32) : FVec Ideal TN .f32 :=
  Host.scatterAdd scatN (broadcastInDim TN ![] bc0N (constant T0 .f32 0x00000000#32)) (col (edgeRow 0 (by decide) ei))
    (broadcastInDim TE ![] bc0E (constant T0 .f32 0x3F800000#32))
/-- Its reciprocal root where positive, zero elsewhere. -/
def dinv (ei : IVec T2E 32) : FVec Ideal TN .f32 :=
  select (cmpf .ogt (deg ei) (broadcastInDim TN ![] bc0N (constant T0 .f32 0x00000000#32))) (Host.rsqrt (deg ei))
    (broadcastInDim TN ![] bc0N (id (constant T0 .f32 0x00000000#32)))
/-- The weight of every edge. -/
def wts (ei : IVec T2E 32) : FVec Ideal TE .f32 :=
  mulf (Host.gather gathN (dinv ei) (col (wrap (edgeRow 0 (by decide) ei)))) (Host.gather gathN (dinv ei) (col (wrap (edgeRow 1 (by decide) ei))))
/-- One aggregation of the feature array h, from the edge weights w and the edges' destination rows and source rows. -/
def aggT (w : FVec Ideal TE .f32) (rows cols : IVec TE 32) (h : FVec Ideal TN64 .f32) : FVec Ideal TN64 .f32 :=
  Host.scatterAdd scatN64 (broadcastInDim TN64 ![] bc0N64 (constant T0 .f32 0x00000000#32)) (col rows)
    (mulf (broadcastInDim TE64 ![0, 1] bcE64 (broadcastInDim TE1 ![0] bcE1 w)) (Host.gather gathN64 h (col (wrap cols))))
def agg (ei : IVec T2E 32) (h : FVec Ideal TN64 .f32) : FVec Ideal TN64 .f32 :=
  aggT (wts ei) (edgeRow 0 (by decide) ei) (edgeRow 1 (by decide) ei) h
/-- Layer L's 64×64 matrix out of a 3×64×64 parameter, and its bias out of a 3×64 parameter, as a vector and as a 1×64 row. -/
def matL (L : ℕ) (hL : L < 3) (g : FVec Ideal T3x64x64 .f32) : FVec Ideal T64x64 .f32 :=
  shapeCast T64x64 (extractStridedSlice T1x64x64 ![L, 0, 0] g (sl3m L hL)) scm
def vecL (L : ℕ) (hL : L < 3) (b : FVec Ideal T3x64 .f32) : FVec Ideal T64 .f32 :=
  shapeCast T64 (extractStridedSlice T1x64 ![L, 0] b (sl3v L hL)) scv
def rowL (L : ℕ) (hL : L < 3) (b : FVec Ideal T3x64 .f32) : FVec Ideal T1x64 .f32 := shapeCast T1x64 (vecL L hL b) scr
/-- One layer: the new features from the features h. -/
def step (L : ℕ) (hL : L < 3) (ei : IVec T2E 32) (g : FVec Ideal T3x64x64 .f32) (bg : FVec Ideal T3x64 .f32) (i : FVec Ideal T3x64x64 .f32) (bi : FVec Ideal T3x64 .f32)
    (h : FVec Ideal TN64 .f32) : FVec Ideal TN64 .f32 :=
  LayerH h (agg ei h) (matL L hL g) (rowL L hL bg) (matL L hL i) (rowL L hL bi)
/-- The result: the features and the three layers' normalised outputs side by side. -/
def out (x : FVec Ideal TN64 .f32) (ei : IVec T2E 32) (g : FVec Ideal T3x64x64 .f32) (bg : FVec Ideal T3x64 .f32) (i : FVec Ideal T3x64x64 .f32) (bi : FVec Ideal T3x64 .f32) :
    FVec Ideal TN256 .f32 :=
  concatenate TN256 1 [⟨TN64, x⟩, ⟨TN64, LayerN (step 0 (by decide) ei g bg i bi x)⟩,
    ⟨TN64, LayerN (step 1 (by decide) ei g bg i bi (step 0 (by decide) ei g bg i bi x))⟩,
    ⟨TN64, LayerN (step 2 (by decide) ei g bg i bi (step 1 (by decide) ei g bg i bi (step 0 (by decide) ei g bg i bi x)))⟩] cat4

end Cert.Shared

end
-- ==== Proof.Assemble.lean ====
/-
  The five claims, assembled.

  Each of the three programs runs to its end from any memory and leaves its six argument arrays as it found them
  (the three frames).  The ideal pass rewrote no operation, so the idealised kernel program is the kernel program's
  own text read over the extended reals and there is nothing to preserve.  The last claim compares the two idealised
  programs from memories that agree on the arguments: the kernel program's result array at the end of its run and
  the reference's are each equal to one and the same function `Cert.Shared.out` of the six arguments, so they are
  equal to each other, entry by entry.  Those two equalities are taken here as hypotheses `hK` and `hR`.
-/
import proofs.«125014_j7464653161107_1_alg».proof.Defs
import proofs.«125014_j7464653161107_1_alg».proof.Proof.Gen.Pre_finite_inputs
import proofs.«125014_j7464653161107_1_alg».proof.Proof.KIRun
import proofs.«125014_j7464653161107_1_alg».proof.Proof.KRun
import proofs.«125014_j7464653161107_1_alg».proof.Proof.RefRun
import proofs.«125014_j7464653161107_1_alg».proof.Proof.Shared

set_option maxRecDepth 16384

noncomputable section

namespace Cert.Proof.Assemble

open Idealize.ShloMosaic Idealize.SL.Sem

/-- The kernel program, read at the machine's words, runs and leaves its arguments unchanged. -/
theorem frame_k : Cert.frame_Kernel := fun m ρ _ => Cert.Kernel.Hand.frame (F := Bits) m ρ
/-- The same program read over the extended reals does too, -/
theorem frame_ki : Cert.frame_KernelIdeal := fun m ρ _ => Cert.KernelIdeal.Hand.frame (F := Ideal) m ρ
/-- and so does the reference. -/
theorem frame_ri : Cert.frame_ReferenceIdeal := fun m ρ _ => Cert.ReferenceIdeal.RefRun.frame (F := Ideal) m ρ
/-- No operation was rewritten on the way to the extended reals. -/
theorem preserves : Cert.preserves_Kernel_KernelIdeal := trivial

/-- `Cert.Shared.out` at equal arguments. -/
theorem out_congr {x x' : FVec Ideal Cert.Shared.TN64 .f32} {ei ei' : IVec Cert.Shared.T2E 32}
    {g g' : FVec Ideal Cert.Shared.T3x64x64 .f32} {bg bg' : FVec Ideal Cert.Shared.T3x64 .f32}
    {i i' : FVec Ideal Cert.Shared.T3x64x64 .f32} {bi bi' : FVec Ideal Cert.Shared.T3x64 .f32}
    (h0 : x' = x) (h1 : ei' = ei) (h2 : g' = g) (h3 : bg' = bg) (h4 : i' = i) (h5 : bi' = bi) :
    Cert.Shared.out x' ei' g' bg' i' bi' = Cert.Shared.out x ei g bg i bi := by
  subst h0 h1 h2 h3 h4 h5; rfl

/-- The two idealised programs, run from memories that agree on the six arguments, both terminate with the
    arguments unchanged and with equal result arrays: each result is `Cert.Shared.out` of the arguments (`hK` for
    the kernel program's last buffer contents, `hR` for the fold of the reference's operations), and the arguments
    are the same. -/
theorem algebraic_of
    (hK : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
        (Cert.KernelIdeal.Hand.W9 m ρ c (Proc.devRef .tc Cert.KernelIdeal.main_v99) : FVec Ideal Cert.Shared.TN256 .f32)
          = Cert.Shared.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))
    (hR : ∀ (m : (ℓ : Loc Cert.ReferenceIdeal.nD Cert.ReferenceIdeal.τ Cert.ReferenceIdeal.sig) → Buf (Elt Ideal) ℓ) (d : Dev Cert.ReferenceIdeal.nD),
        (StableHlo.after (Cert.ReferenceIdeal.RefRun.ops (F := Ideal)) (StableHlo.launchContents m d) (Proc.devRef .tc Cert.ReferenceIdeal.main_v150) : FVec Ideal Cert.Shared.TN256 .f32)
          = Cert.Shared.out (m ((d.tc : Thread Cert.ReferenceIdeal.nD Cert.ReferenceIdeal.τ).loc Cert.ReferenceIdeal.main_arg0)) (m ((d.tc : Thread Cert.ReferenceIdeal.nD Cert.ReferenceIdeal.τ).loc Cert.ReferenceIdeal.main_arg1)) (m ((d.tc : Thread Cert.ReferenceIdeal.nD Cert.ReferenceIdeal.τ).loc Cert.ReferenceIdeal.main_arg2)) (m ((d.tc : Thread Cert.ReferenceIdeal.nD Cert.ReferenceIdeal.τ).loc Cert.ReferenceIdeal.main_arg3)) (m ((d.tc : Thread Cert.ReferenceIdeal.nD Cert.ReferenceIdeal.τ).loc Cert.ReferenceIdeal.main_arg4)) (m ((d.tc : Thread Cert.ReferenceIdeal.nD Cert.ReferenceIdeal.τ).loc Cert.ReferenceIdeal.main_arg5))) :
    Cert.algebraic_KernelIdeal_ReferenceIdeal := by
  intro m ρ m' ρ' _ hagree
  refine ⟨fun c => Cert.Shared.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run _ _ _).mono (fun r h c =>
      ⟨(h c _ (Cert.KernelIdeal.Hand.mem_uc Cert.KernelIdeal.main_v99 (by decide))).trans (hK m ρ c),
       (h c _ (Cert.KernelIdeal.Hand.mem_uc Cert.KernelIdeal.main_arg0 (by decide))).trans (Cert.KernelIdeal.Hand.W9_main_arg0 m ρ c),
       (h c _ (Cert.KernelIdeal.Hand.mem_uc Cert.KernelIdeal.main_arg1 (by decide))).trans (Cert.KernelIdeal.Hand.W9_main_arg1 m ρ c),
       (h c _ (Cert.KernelIdeal.Hand.mem_uc Cert.KernelIdeal.main_arg2 (by decide))).trans (Cert.KernelIdeal.Hand.W9_main_arg2 m ρ c),
       (h c _ (Cert.KernelIdeal.Hand.mem_uc Cert.KernelIdeal.main_arg3 (by decide))).trans (Cert.KernelIdeal.Hand.W9_main_arg3 m ρ c),
       (h c _ (Cert.KernelIdeal.Hand.mem_uc Cert.KernelIdeal.main_arg4 (by decide))).trans (Cert.KernelIdeal.Hand.W9_main_arg4 m ρ c),
       (h c _ (Cert.KernelIdeal.Hand.mem_uc Cert.KernelIdeal.main_arg5 (by decide))).trans (Cert.KernelIdeal.Hand.W9_main_arg5 m ρ c)⟩)
      (Cert.KernelIdeal.Hand.run_all m ρ)
  · exact (θ_run _ _ _).mono (fun r h c =>
      ⟨(h c Cert.ReferenceIdeal.main_v150).trans ((hR m' c).trans
          (out_congr (hagree c).1 (hagree c).2.1 (hagree c).2.2.1 (hagree c).2.2.2.1 (hagree c).2.2.2.2.1 (hagree c).2.2.2.2.2)),
       (h c Cert.ReferenceIdeal.main_arg0).trans (Cert.ReferenceIdeal.RefRun.kept m' c Cert.ReferenceIdeal.main_arg0 (by decide)),
       (h c Cert.ReferenceIdeal.main_arg1).trans (Cert.ReferenceIdeal.RefRun.kept m' c Cert.ReferenceIdeal.main_arg1 (by decide)),
       (h c Cert.ReferenceIdeal.main_arg2).trans (Cert.ReferenceIdeal.RefRun.kept m' c Cert.ReferenceIdeal.main_arg2 (by decide)),
       (h c Cert.ReferenceIdeal.main_arg3).trans (Cert.ReferenceIdeal.RefRun.kept m' c Cert.ReferenceIdeal.main_arg3 (by decide)),
       (h c Cert.ReferenceIdeal.main_arg4).trans (Cert.ReferenceIdeal.RefRun.kept m' c Cert.ReferenceIdeal.main_arg4 (by decide)),
       (h c Cert.ReferenceIdeal.main_arg5).trans (Cert.ReferenceIdeal.RefRun.kept m' c Cert.ReferenceIdeal.main_arg5 (by decide))⟩)
      (Cert.ReferenceIdeal.RefRun.run m' ρ')

end Cert.Proof.Assemble

end
-- ==== Proof.LibPlainDot.lean ====
/-
  A plain matrix product, M×K by K×N, at the ideal values, read at an index as the sum over the contracted coordinate of
  the products of the operands' entries — for the vector unit's `tpu.matmul` into the zero accumulator and for the host's
  `dot_general` alike. The contraction has one axis, of extent K: its index is that one coordinate (`contrE`), the left
  operand's index at (r, c) and k is (r, k), the right operand's is (k, c).
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The one-axis contraction index of a plain product is its coordinate. -/
def contrE (M K N : Nat) : (DotDims.plain M K N).contr.Idx ≃ Fin K :=
  contrEquiv1 (DotDims.plain M K N) K rfl rfl

theorem contrE_symm_val (k : Fin K) :
    ((contrE M K N).symm k ⟨0, by have h : (DotDims.plain M K N).contr.rank = 1 := rfl; omega⟩ : ℕ) = k.val :=
  contrEquiv1_symm_val (DotDims.plain M K N) K rfl rfl k

/-- The left operand is read at (row of the result, contracted coordinate). -/
theorem lhsIdx_eq (r : Fin M) (c : Fin N) (k : Fin K) :
    (DotDims.plain M K N).lhsIdx (ix2 r c) ((contrE M K N).symm k) = ix2 r k := by
  funext a
  apply Fin.ext
  match a with
  | ⟨0, _⟩ => rfl
  | ⟨1, _⟩ => exact ((DotDims.plain M K N).lhsIdx_val_of_single (cl := 1) rfl (ix2 r c) _).trans (contrE_symm_val k)

/-- The right operand is read at (contracted coordinate, column of the result). -/
theorem rhsIdx_eq (r : Fin M) (c : Fin N) (k : Fin K) :
    (DotDims.plain M K N).rhsIdx (ix2 r c) ((contrE M K N).symm k) = ix2 k c := by
  funext a
  apply Fin.ext
  match a with
  | ⟨0, _⟩ => exact ((DotDims.plain M K N).rhsIdx_val_of_single (cr := 0) rfl (ix2 r c) _).trans (contrE_symm_val k)
  | ⟨1, _⟩ => rfl

/-- The sum over the contraction index of a plain product, re-indexed by the contracted coordinate. -/
theorem sum_contr (f : (⟨2, ![M, K]⟩ : Shape).Idx → EReal) (g : (⟨2, ![K, N]⟩ : Shape).Idx → EReal) (r : Fin M) (c : Fin N) :
    (∑ k : (DotDims.plain M K N).contr.Idx, f ((DotDims.plain M K N).lhsIdx (ix2 r c) k) * g ((DotDims.plain M K N).rhsIdx (ix2 r c) k))
      = ∑ k : Fin K, f (ix2 r k) * g (ix2 k c) := by
  rw [← Equiv.sum_comp (contrE M K N).symm]
  exact Finset.sum_congr rfl fun k _ => by rw [lhsIdx_eq, rhsIdx_eq]

/-- `tpu.matmul` into the zero accumulator, at (r, c). -/
theorem matmul_zero_apply {φ₁ φ₂ : FTy} (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant (⟨2, ![M, N]⟩ : Shape) .f32 0x00000000#32) (ix2 r c)
      = ∑ k : Fin K, x (ix2 r k) * w (ix2 k c) :=
  (Ideal.matmul_constant_zero_apply (DotDims.plain M K N) prec x w (ix2 r c)).trans (sum_contr x w r c)

/-- The host's `dot_general`, at (r, c). -/
theorem dotGeneral_apply {φ₁ φ₂ : FTy} (prec : Option ContractPrecision) (sched : HostSchedule)
    (x : FVec Ideal ⟨2, ![M, K]⟩ φ₁) (w : FVec Ideal ⟨2, ![K, N]⟩ φ₂) (r : Fin M) (c : Fin N) :
    FloatOps.dotGeneral (DotDims.plain M K N) prec sched x w (ix2 r c) = ∑ k : Fin K, x (ix2 r k) * w (ix2 k c) :=
  (Ideal.dotGeneral_apply (DotDims.plain M K N) prec sched x w (ix2 r c)).trans (sum_contr x w r c)

end Idealize.ShloMosaic.PlainDot

end
-- ==== Proof.LibAxisFold.lean ====
/-
  A reduction over one axis of a two-axis array on the extended reals, read at a row or a column.

  For an a×b array X:
    * the index over row p with coordinate k inserted on the second axis is (p, k); over column c with coordinate r
      inserted on the first axis it is (r, c);
    * the vector unit's sum over the second axis, at row p, is Σ_k X(p, k); over the first axis, at column c, Σ_r X(r, c);
    * its maximum over the second axis from the accumulator pattern acc, at row p, is the fold of max over k of X(p, k)
      from the value of acc.
-/
import Idealize.ShloMosaic.PureOps.Ideal.Laws
import Idealize.ShloMosaic.Lib.ValueIdx

noncomputable section

namespace Idealize.ShloMosaic.AxisFold

open Idealize.ShloMosaic Idealize.ShloMosaic.ValueIdx

/-- Row p with k inserted on the second axis is (p, k). -/
theorem lift_second {a b : ℕ} (h : Shape.Reduces ⟨2, ![a, b]⟩ [1] ⟨1, ![a]⟩) (p : Fin a) (k : Fin b) :
    h.lift (ix1 p) k = ix2 p k := by
  funext ax
  apply Fin.ext
  match ax with
  | ⟨0, _⟩ => rfl
  | ⟨1, _⟩ => rfl

/-- Column c with r inserted on the first axis is (r, c). -/
theorem lift_first {a b : ℕ} (h : Shape.Reduces ⟨2, ![a, b]⟩ [0] ⟨1, ![b]⟩) (c : Fin b) (r : Fin a) :
    h.lift (ix1 c) r = ix2 r c := by
  funext ax
  apply Fin.ext
  match ax with
  | ⟨0, _⟩ => rfl
  | ⟨1, _⟩ => rfl

/-- The vector unit's sum over the second axis, at row p. -/
theorem sum_second_apply {a b : ℕ} (X : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ X 0x00000000#32 h hφ hacc (ix1 p) = ∑ k : Fin b, X (ix2 p k) := by
  refine (Ideal.multiReduction_add_single X 0x00000000#32 h hφ hacc (ix1 p)).trans ?_
  exact Finset.sum_congr rfl fun k _ => congrArg X (lift_second h p k)

/-- The vector unit's sum over the first axis, at column c. -/
theorem sum_first_apply {a b : ℕ} (X : FVec Ideal ⟨2, ![a, b]⟩ .f32) (h : Shape.Reduces ⟨2, ![a, b]⟩ [0] ⟨1, ![b]⟩)
    (hφ : FKind.Formats .f32) (hacc : (0x00000000#32 : BitVec 32) = FKind.add.neutral .f32 hφ) (c : Fin b) :
    multiReduction .add [0] ⟨1, ![b]⟩ X 0x00000000#32 h hφ hacc (ix1 c) = ∑ r : Fin a, X (ix2 r c) := by
  refine (Ideal.multiReduction_add_single X 0x00000000#32 h hφ hacc (ix1 c)).trans ?_
  exact Finset.sum_congr rfl fun r _ => congrArg X (lift_first h c r)

/-- The vector unit's maximum over the second axis from the pattern acc, at row p. -/
theorem max_second_apply {a b : ℕ} (X : FVec Ideal ⟨2, ![a, b]⟩ .f32) (acc : BitVec 32) (h : Shape.Reduces ⟨2, ![a, b]⟩ [1] ⟨1, ![a]⟩)
    (hφ : FKind.Formats .f32) (hacc : acc = FKind.maximumf.neutral .f32 hφ) (p : Fin a) :
    multiReduction .maximumf [1] ⟨1, ![a]⟩ X acc h hφ hacc (ix1 p)
      = (Finset.univ : Finset (Fin b)).fold max (Ideal.ofBits .f32 acc) (fun k => X (ix2 p k)) := by
  refine (Ideal.multiReduction_maximumf_single X acc h hφ hacc (ix1 p)).trans ?_
  have e : (X ∘ h.lift (ix1 p)) = fun k : Fin b => X (ix2 p k) :=
    funext fun k => congrArg X (lift_second h p k)
  rw [e]
  rfl

end Idealize.ShloMosaic.AxisFold

end
-- ==== Proof.LibKeepdims.lean ====
/-
  A column kept as a unit axis: the two layout operations a row-wise reduction with its axis kept goes through.

  * A length-a vector cast to an a×1 array reads, at (i, u), the vector at i (the unit coordinate u is 0).
  * An a×1 array broadcast to a×b reads, at (p, c), the column's entry at (p, 0), whatever the column c.
-/
import Idealize.ShloMosaic.Lib.Pipeline.Value
import Idealize.ShloMosaic.Lib.ValueIdx
import Idealize.ShloMosaic.Lib.ValueLayout

noncomputable section

namespace Idealize.ShloMosaic.Keepdims

open Idealize.ShloMosaic Idealize.ShloMosaic.ValueIdx

variable {α : Type}

/-- A vector of length a cast to a×1 reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a×1 column broadcast to a×b reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.KIPay.lean ====
/-
  The dense layer's body, read at one entry of its output blocks, at the ideal values.

  Entry (p, q) of the block of new features is the row formula of row p of the two input blocks: the two products
  into the zero accumulator are sums over the 64 contracted coordinates (the narrowing to bf16 is the identity on
  extended reals), each bias block is one row repeated over the 5000 rows, and the rectifier, the sum of the two
  branches, the row's sum of squares, the guard and the reciprocal root act entry by entry or row by row.
-/
import proofs.«125014_j7464653161107_1_alg».proof.Proof.KIOut
import proofs.«125014_j7464653161107_1_alg».proof.Proof.Spec
import proofs.«125014_j7464653161107_1_alg».proof.Proof.LibPlainDot
import proofs.«125014_j7464653161107_1_alg».proof.Proof.LibAxisFold
import proofs.«125014_j7464653161107_1_alg».proof.Proof.LibKeepdims
import Idealize.ShloMosaic.Lib.Pipeline.Value
import Idealize.ShloMosaic.Lib.ValueLayout

noncomputable section

open scoped BigOperators

namespace Cert.KernelIdeal.Hand

open Cert.KernelIdeal Cert.KernelIdeal.Gen Cert.Spec
open Idealize.ShloMosaic Idealize.ShloMosaic.ValueIdx

/-- The printed contraction record is the plain M×K by K×N one. -/
theorem dot_plain : dot_S5000x64_S64x64_S5000x64_1_0_0_1_n_n = DotDims.plain 5000 64 64 := rfl

/-- One branch: the product of a 5000×64 block with a 64×64 matrix into the zero accumulator, plus a 1×64 bias block
    repeated over the rows, at (p, q), is the dense row formula of row p. -/
theorem branch_apply (x : FVec Ideal S5000x64 .f32) (w : FVec Ideal S64x64 .f32) (b : FVec Ideal S1x64 .f32) (p : Fin 5000) (q : Fin 64) :
    addf (matmul dot_S5000x64_S64x64_S5000x64_1_0_0_1_n_n none (truncf .bf16 x bitsLt_bf16_f32) (truncf .bf16 w bitsLt_bf16_f32)
        (constant S5000x64 .f32 0x00000000#32)) (broadcastTo S5000x64 b broadcasts_S1x64_S5000x64) (ix2 p q)
      = dense (fun k => x (ix2 p k)) (fun k c => w (ix2 k c)) (fun c => b (ix2 (0 : Fin 1) c)) q := by
  show FloatOps.matmul dot_S5000x64_S64x64_S5000x64_1_0_0_1_n_n none (truncf .bf16 x bitsLt_bf16_f32) (truncf .bf16 w bitsLt_bf16_f32)
        (constant S5000x64 .f32 0x00000000#32) (ix2 p q) + broadcastTo S5000x64 b broadcasts_S1x64_S5000x64 (ix2 p q) = _
  rw [dot_plain, PlainDot.matmul_zero_apply, broadcastTo_1b_ab_apply]
  rfl

/-- The new features of a block as one term of the six loaded blocks (what each of the three bodies computes once its
    casts of a block to its own shape are dropped). -/
def newT (v0 v1 : FVec Ideal S5000x64 .f32) (v3 : FVec Ideal S64x64 .f32) (v5 : FVec Ideal S1x64 .f32) (v7 : FVec Ideal S64x64 .f32) (v9 : FVec Ideal S1x64 .f32) : FVec Ideal S5000x64 .f32 :=
  let A := addf (matmul dot_S5000x64_S64x64_S5000x64_1_0_0_1_n_n none (truncf .bf16 v1 bitsLt_bf16_f32) (truncf .bf16 v3 bitsLt_bf16_f32)
        (constant S5000x64 .f32 0x00000000#32)) (broadcastTo S5000x64 v5 broadcasts_S1x64_S5000x64)
  let B := addf (matmul dot_S5000x64_S64x64_S5000x64_1_0_0_1_n_n none (truncf .bf16 (mulf v0 v1) bitsLt_bf16_f32) (truncf .bf16 v7 bitsLt_bf16_f32)
        (constant S5000x64 .f32 0x00000000#32)) (broadcastTo S5000x64 v9 broadcasts_S1x64_S5000x64)
  addf (select (cmpf .oge A (broadcast S5000x64 (Scalar.ofBits .f32 0x00000000#32))) A (mulf (broadcast S5000x64 (Scalar.ofBits .f32 0x3E4CCCCD#32)) A))
    (select (cmpf .oge B (broadcast S5000x64 (Scalar.ofBits .f32 0x00000000#32))) B (mulf (broadcast S5000x64 (Scalar.ofBits .f32 0x3E4CCCCD#32)) B))

/-- Entry (p, q) of the new features is the row formula of row p. -/
theorem newT_apply (v0 v1 : FVec Ideal S5000x64 .f32) (v3 : FVec Ideal S64x64 .f32) (v5 : FVec Ideal S1x64 .f32) (v7 : FVec Ideal S64x64 .f32) (v9 : FVec Ideal S1x64 .f32) (p : Fin 5000) (q : Fin 64) :
    newT v0 v1 v3 v5 v7 v9 (ix2 p q)
      = rowH (fun k => v0 (ix2 p k)) (fun k => v1 (ix2 p k)) (fun k c => v3 (ix2 k c)) (fun c => v5 (ix2 (0 : Fin 1) c))
          (fun k c => v7 (ix2 k c)) (fun c => v9 (ix2 (0 : Fin 1) c)) q := by
  have hA := branch_apply v1 v3 v5 p q
  have hB : addf (matmul dot_S5000x64_S64x64_S5000x64_1_0_0_1_n_n none (truncf .bf16 (mulf v0 v1) bitsLt_bf16_f32) (truncf .bf16 v7 bitsLt_bf16_f32)
        (constant S5000x64 .f32 0x00000000#32)) (broadcastTo S5000x64 v9 broadcasts_S1x64_S5000x64) (ix2 p q)
      = dense (fun k => v0 (ix2 p k) * v1 (ix2 p k)) (fun k c => v7 (ix2 k c)) (fun c => v9 (ix2 (0 : Fin 1) c)) q :=
    branch_apply (mulf v0 v1) v7 v9 p q
  unfold rowH lrelu
  beta_reduce
  rw [← hA, ← hB]
  rfl

/-- The normalising factor column of a block x: reciprocal root of max(row's sum of squares, ε), as the body spells it. -/
def normT (x : FVec Ideal S5000x64 .f32) : FVec Ideal S5000x1 .f32 :=
  rsqrt (maximumf (shapeCast S5000x1 (multiReduction .add [1] S5000 (mulf x x) 0x00000000#32 reduces_S5000x64_S5000 (.inl rfl) rfl) shapeCasts_S5000_S5000x1)
    (broadcast S5000x1 (Scalar.ofBits .f32 0x2B8CBCCC#32)))

/-- Entry (p, q) of a block times its normalising column repeated along the row is the unit-row formula of row p. -/
theorem scaled_apply (x : FVec Ideal S5000x64 .f32) (p : Fin 5000) (q : Fin 64) :
    mulf x (broadcastTo S5000x64 (normT x) broadcasts_S5000x1_S5000x64) (ix2 p q) = rowN (fun k => x (ix2 p k)) q := by
  show x (ix2 p q) * broadcastTo S5000x64 (normT x) broadcasts_S5000x1_S5000x64 (ix2 p q) = _
  rw [Keepdims.broadcastTo_a1_ab_apply]
  show x (ix2 p q) * Ideal.rsqrt (max (shapeCast S5000x1 (multiReduction .add [1] S5000 (mulf x x) 0x00000000#32 reduces_S5000x64_S5000 (.inl rfl) rfl) shapeCasts_S5000_S5000x1 (ix2 p (0 : Fin 1))) eps) = _
  rw [Keepdims.shapeCast_a_a1_apply]
  have hs : multiReduction .add [1] S5000 (mulf x x) 0x00000000#32 reduces_S5000x64_S5000 (.inl rfl) rfl (ix1 p)
      = ∑ k : Fin 64, (mulf x x) (ix2 p k) := AxisFold.sum_second_apply (mulf x x) reduces_S5000x64_S5000 (.inl rfl) rfl p
  exact congrArg (fun s => x (ix2 p q) * Ideal.rsqrt (max s eps)) hs

/-- Launch 0's stored values are these terms: its casts of a block to the block's own shape change nothing. -/
theorem pay2_0_eq (v0 v1 : FVec Ideal S5000x64 .f32) (v3 : FVec Ideal S64x64 .f32) (v5 : FVec Ideal S1x64 .f32) (v7 : FVec Ideal S64x64 .f32) (v9 : FVec Ideal S1x64 .f32) :
    k0_pay2 (F := Ideal) v0 v1 v3 v5 v7 v9 = newT v0 v1 v3 v5 v7 v9 := by
  unfold k0_pay2 newT
  simp only [shapeCast_self]
theorem pay1_0_eq (v0 v1 : FVec Ideal S5000x64 .f32) (v3 : FVec Ideal S64x64 .f32) (v5 : FVec Ideal S1x64 .f32) (v7 : FVec Ideal S64x64 .f32) (v9 : FVec Ideal S1x64 .f32) :
    k0_pay1 (F := Ideal) (k0_pay2 v0 v1 v3 v5 v7 v9) (k0_pay3 v0 v1 v3 v5 v7 v9)
      = mulf (newT v0 v1 v3 v5 v7 v9) (broadcastTo S5000x64 (normT (newT v0 v1 v3 v5 v7 v9)) broadcasts_S5000x1_S5000x64) := by
  unfold k0_pay1 k0_pay3
  rw [pay2_0_eq]
  rfl

/-- Launch 1's stored values are these terms: its casts of a block to the block's own shape change nothing. -/
theorem pay2_1_eq (v0 v1 : FVec Ideal S5000x64 .f32) (v3 : FVec Ideal S64x64 .f32) (v5 : FVec Ideal S1x64 .f32) (v7 : FVec Ideal S64x64 .f32) (v9 : FVec Ideal S1x64 .f32) :
    k1_pay2 (F := Ideal) v0 v1 v3 v5 v7 v9 = newT v0 v1 v3 v5 v7 v9 := by
  unfold k1_pay2 newT
  simp only [shapeCast_self]
theorem pay1_1_eq (v0 v1 : FVec Ideal S5000x64 .f32) (v3 : FVec Ideal S64x64 .f32) (v5 : FVec Ideal S1x64 .f32) (v7 : FVec Ideal S64x64 .f32) (v9 : FVec Ideal S1x64 .f32) :
    k1_pay1 (F := Ideal) (k1_pay2 v0 v1 v3 v5 v7 v9) (k1_pay3 v0 v1 v3 v5 v7 v9)
      = mulf (newT v0 v1 v3 v5 v7 v9) (broadcastTo S5000x64 (normT (newT v0 v1 v3 v5 v7 v9)) broadcasts_S5000x1_S5000x64) := by
  unfold k1_pay1 k1_pay3
  rw [pay2_1_eq]
  rfl

/-- Launch 2's stored values are these terms: its casts of a block to the block's own shape change nothing. -/
theorem pay2_2_eq (v0 v1 : FVec Ideal S5000x64 .f32) (v3 : FVec Ideal S64x64 .f32) (v5 : FVec Ideal S1x64 .f32) (v7 : FVec Ideal S64x64 .f32) (v9 : FVec Ideal S1x64 .f32) :
    k2_pay2 (F := Ideal) v0 v1 v3 v5 v7 v9 = newT v0 v1 v3 v5 v7 v9 := by
  unfold k2_pay2 newT
  simp only [shapeCast_self]
theorem pay1_2_eq (v0 v1 : FVec Ideal S5000x64 .f32) (v3 : FVec Ideal S64x64 .f32) (v5 : FVec Ideal S1x64 .f32) (v7 : FVec Ideal S64x64 .f32) (v9 : FVec Ideal S1x64 .f32) :
    k2_pay1 (F := Ideal) (k2_pay2 v0 v1 v3 v5 v7 v9) (k2_pay3 v0 v1 v3 v5 v7 v9)
      = mulf (newT v0 v1 v3 v5 v7 v9) (broadcastTo S5000x64 (normT (newT v0 v1 v3 v5 v7 v9)) broadcasts_S5000x1_S5000x64) := by
  unfold k2_pay1 k2_pay3
  rw [pay2_2_eq]
  rfl

end Cert.KernelIdeal.Hand

end
-- ==== Proof.KIBlocks.lean ====
/-
  From blocks to arrays: what each launch of the dense layer leaves in its two output arrays, as whole-array functions
  of the arrays the launch finds on entry.

  The grid has 20 points; at point t the two row windows (features, aggregate) hold rows 5000·t … 5000·t + 4999 of
  their arrays, the four parameter windows hold their whole arrays, and the two output windows write back rows
  5000·t … 5000·t + 4999. An entry of an output block depends only on its own row of the two row blocks, so the block
  written at point t is the restriction of one whole-array function — the layer, row by row — and the 20 blocks cover
  the array.
-/
import proofs.«125014_j7464653161107_1_alg».proof.Proof.KIPay
import Idealize.ShloMosaic.Lib.Pipeline.Value

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-! ## Launch 0 -/

/-- The printed index maps over the 20 points: the row windows and the output windows move with the point, the parameter
    windows stay at block 0. -/
theorem idx_facts0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- Launch 0, window 0: the block at point t is rows 5000·t … of its array. -/
theorem blk0_0 (c : Dev nD) (t : Fin cfg0.N) (p : Fin 5000) (k : Fin 64) (hlt : 5000 * t.val + p.val < 100000) :
    (iblk0 V c 0 t : Vec Ideal S5000x64 .f32) (ix2 p k) = (V c main_arg0 : S100000x64.Idx → EReal) (ix2 ⟨5000 * t.val + p.val, hlt⟩ k) := by
  obtain ⟨e0, e1⟩ := (idx_facts0 t).1
  unfold iblk0
  rw [View.read_apply]
  show V c main_arg0 _ = V c main_arg0 _
  congr 1
  funext ax
  apply Fin.ext
  match ax with
  | ⟨0, _⟩ => show win0_0.index t 0 * 5000 + 1 * p.val = 5000 * t.val + p.val; rw [e0]; omega
  | ⟨1, _⟩ => show win0_0.index t 1 * 64 + 1 * k.val = k.val; rw [e1]; omega

/-- Launch 0, window 1: the block at point t is rows 5000·t … of its array. -/
theorem blk0_1 (c : Dev nD) (t : Fin cfg0.N) (p : Fin 5000) (k : Fin 64) (hlt : 5000 * t.val + p.val < 100000) :
    (iblk0 V c 1 t : Vec Ideal S5000x64 .f32) (ix2 p k) = (V c main_v39 : S100000x64.Idx → EReal) (ix2 ⟨5000 * t.val + p.val, hlt⟩ k) := by
  obtain ⟨e0, e1⟩ := (idx_facts0 t).2.1
  unfold iblk0
  rw [View.read_apply]
  show V c main_v39 _ = V c main_v39 _
  congr 1
  funext ax
  apply Fin.ext
  match ax with
  | ⟨0, _⟩ => show win0_1.index t 0 * 5000 + 1 * p.val = 5000 * t.val + p.val; rw [e0]; omega
  | ⟨1, _⟩ => show win0_1.index t 1 * 64 + 1 * k.val = k.val; rw [e1]; omega

/-- Launch 0, window 2: the block at every point is its whole array. -/
theorem blk0_2 (c : Dev nD) (t : Fin cfg0.N) (x : Fin 64) (y : Fin 64) :
    (iblk0 V c 2 t : Vec Ideal S64x64 .f32) (ix2 x y) = (V c main_v41 : S64x64.Idx → EReal) (ix2 x y) := by
  obtain ⟨e0, e1⟩ := (idx_facts0 t).2.2.1
  unfold iblk0
  rw [View.read_apply]
  show V c main_v41 _ = V c main_v41 _
  congr 1
  funext ax
  apply Fin.ext
  match ax with
  | ⟨0, _⟩ => show win0_2.index t 0 * 64 + 1 * x.val = x.val; rw [e0]; omega
  | ⟨1, _⟩ => show win0_2.index t 1 * 64 + 1 * y.val = y.val; rw [e1]; omega

/-- Launch 0, window 3: the block at every point is its whole array. -/
theorem blk0_3 (c : Dev nD) (t : Fin cfg0.N) (x : Fin 1) (y : Fin 64) :
    (iblk0 V c 3 t : Vec Ideal S1x64 .f32) (ix2 x y) = (V c main_v48 : S1x64.Idx → EReal) (ix2 x y) := by
  obtain ⟨e0, e1⟩ := (idx_facts0 t).2.2.2.1
  unfold iblk0
  rw [View.read_apply]
  show V c main_v48 _ = V c main_v48 _
  congr 1
  funext ax
  apply Fin.ext
  match ax with
  | ⟨0, _⟩ => show win0_3.index t 0 * 1 + 1 * x.val = x.val; rw [e0]; omega
  | ⟨1, _⟩ => show win0_3.index t 1 * 64 + 1 * y.val = y.val; rw [e1]; omega

/-- Launch 0, window 4: the block at every point is its whole array. -/
theorem blk0_4 (c : Dev nD) (t : Fin cfg0.N) (x : Fin 64) (y : Fin 64) :
    (iblk0 V c 4 t : Vec Ideal S64x64 .f32) (ix2 x y) = (V c main_v45 : S64x64.Idx → EReal) (ix2 x y) := by
  obtain ⟨e0, e1⟩ := (idx_facts0 t).2.2.2.2.1
  unfold iblk0
  rw [View.read_apply]
  show V c main_v45 _ = V c main_v45 _
  congr 1
  funext ax
  apply Fin.ext
  match ax with
  | ⟨0, _⟩ => show win0_4.index t 0 * 64 + 1 * x.val = x.val; rw [e0]; omega
  | ⟨1, _⟩ => show win0_4.index t 1 * 64 + 1 * y.val = y.val; rw [e1]; omega

/-- Launch 0, window 5: the block at every point is its whole array. -/
theorem blk0_5 (c : Dev nD) (t : Fin cfg0.N) (x : Fin 1) (y : Fin 64) :
    (iblk0 V c 5 t : Vec Ideal S1x64 .f32) (ix2 x y) = (V c main_v49 : S1x64.Idx → EReal) (ix2 x y) := by
  obtain ⟨e0, e1⟩ := (idx_facts0 t).2.2.2.2.2.1
  unfold iblk0
  rw [View.read_apply]
  show V c main_v49 _ = V c main_v49 _
  congr 1
  funext ax
  apply Fin.ext
  match ax with
  | ⟨0, _⟩ => show win0_5.index t 0 * 1 + 1 * x.val = x.val; rw [e0]; omega
  | ⟨1, _⟩ => show win0_5.index t 1 * 64 + 1 * y.val = y.val; rw [e1]; omega

/-- Launch 0, output window 6: an index of the array is in point t's block iff each coordinate is in the block's range. -/
theorem mem_blk0_6 (t : Fin cfg0.N) (i : S100000x64.Idx) :
    i ∈ ((cfg0.win 6).blk t).view.set ↔ ∀ ax : Fin 2, win0_6.index t ax * S5000x64.size ax ≤ (i ax).val ∧ (i ax).val < win0_6.index t ax * S5000x64.size ax + S5000x64.size ax := by
  show i ∈ ((View.whole main_v50_0).slice (win0_6.rect t)).set ↔ _
  rw [View.set_slice_whole, Rect.mem_set_unit]
  exact Iff.rfl

/-- Launch 0, output window 6: the 20 blocks cover the array — row r lies in the block of point r / 5000. -/
theorem cover0_6 (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_6 _, ?_⟩
  rw [mem_blk0_6]
  obtain ⟨e0, e1⟩ := (idx_facts0 ⟨(i 0).val / 5000, by rw [hN]; omega⟩).2.2.2.2.2.2.1
  intro ax
  match ax with
  | ⟨0, _⟩ =>
    show win0_6.index _ 0 * 5000 ≤ (i 0).val ∧ (i 0).val < win0_6.index _ 0 * 5000 + 5000
    rw [e0]; dsimp only; omega
  | ⟨1, _⟩ =>
    show win0_6.index _ 1 * 64 ≤ (i 1).val ∧ (i 1).val < win0_6.index _ 1 * 64 + 64
    rw [e1]; omega

/-- Launch 0, output window 6: what point t writes back is block t of the layer of the entry arrays. -/
theorem flushed0_6_eq {c : Dev nD} (dat : Dat τ (Elt Ideal) Unit ℕ (UR sig nD τ) ℕ cfg0 c)
    (h6 : ∀ t, dat.after 6 t = hnew0 (iblk0 V c 0 t) (iblk0 V c 1 t) (iblk0 V c 2 t) (iblk0 V c 3 t) (iblk0 V c 4 t) (iblk0 V c 5 t)) (t : Fin cfg0.N) :
    dat.flushed 6 t = ((cfg0.win 6).blk t).view.read (Elt Ideal) (LayerH (V c main_arg0) (V c main_v39) (V c main_v41) (V c main_v48) (V c main_v45) (V c main_v49)) := by
  show (cfg0.win 6).cut (grid0.coords t) (dat.after 6 t) = _
  rw [h6]
  unfold hnew0
  rw [View.canon_unit_zero hz2]
  simp only [View.ld_unit_zero (S := S5000x64) hz2, View.ld_unit_zero (S := S64x64) hz2, View.ld_unit_zero (S := S1x64) hz2]
  rw [pay2_0_eq]
  have hN : cfg0.N = 20 := N_0
  obtain ⟨e0, e1⟩ := (idx_facts0 t).2.2.2.2.2.2.1
  funext (j : S5000x64.Idx)
  obtain ⟨p, q, rfl⟩ : ∃ (p : Fin 5000) (q : Fin 64), j = ix2 p q := ⟨j 0, j 1, eq_ix2 j⟩
  have hlt : 5000 * t.val + p.val < 100000 := by have := t.isLt; have := p.isLt; omega
  have hemb : ((cfg0.win 6).blk t).view.emb (ix2 p q) = (ix2 (⟨5000 * t.val + p.val, hlt⟩ : Fin 100000) q : S100000x64.Idx) := by
    funext ax
    apply Fin.ext
    match ax with
    | ⟨0, _⟩ => show win0_6.index t 0 * 5000 + 1 * p.val = 5000 * t.val + p.val; rw [e0]; omega
    | ⟨1, _⟩ => show win0_6.index t 1 * 64 + 1 * q.val = q.val; rw [e1]; omega
  show newT (iblk0 V c 0 t) (iblk0 V c 1 t) (iblk0 V c 2 t) (iblk0 V c 3 t) (iblk0 V c 4 t) (iblk0 V c 5 t) (ix2 p q) = (LayerH (V c main_arg0) (V c main_v39) (V c main_v41) (V c main_v48) (V c main_v45) (V c main_v49)) (((cfg0.win 6).blk t).view.emb (ix2 p q))
  rw [hemb, LayerH_ix2, newT_apply]
  simp only [blk0_0 V c t _ _ hlt, blk0_1 V c t _ _ hlt, blk0_2 V c t, blk0_3 V c t, blk0_4 V c t, blk0_5 V c t]

/-- Launch 0, output window 6: the array after the launch. -/
theorem arr0_6_eq {c : Dev nD} (dat : Dat τ (Elt Ideal) Unit ℕ (UR sig nD τ) ℕ cfg0 c)
    (h6 : ∀ t, dat.after 6 t = hnew0 (iblk0 V c 0 t) (iblk0 V c 1 t) (iblk0 V c 2 t) (iblk0 V c 3 t) (iblk0 V c 4 t) (iblk0 V c 5 t)) :
    dat.arrAt 6 cfg0.N = (LayerH (V c main_arg0) (V c main_v39) (V c main_v41) (V c main_v48) (V c main_v45) (V c main_v49)) :=
  dat.arrAt_eq_of_cover 6 (LayerH (V c main_arg0) (V c main_v39) (V c main_v41) (V c main_v48) (V c main_v45) (V c main_v49)) (fun t _ => flushed0_6_eq V dat h6 t) cover0_6

/-- Launch 0, output window 7: an index of the array is in point t's block iff each coordinate is in the block's range. -/
theorem mem_blk0_7 (t : Fin cfg0.N) (i : S100000x64.Idx) :
    i ∈ ((cfg0.win 7).blk t).view.set ↔ ∀ ax : Fin 2, win0_7.index t ax * S5000x64.size ax ≤ (i ax).val ∧ (i ax).val < win0_7.index t ax * S5000x64.size ax + S5000x64.size ax := by
  show i ∈ ((View.whole main_v50_1).slice (win0_7.rect t)).set ↔ _
  rw [View.set_slice_whole, Rect.mem_set_unit]
  exact Iff.rfl

/-- Launch 0, output window 7: the 20 blocks cover the array — row r lies in the block of point r / 5000. -/
theorem cover0_7 (i : S100000x64.Idx) : ∃ t : Fin cfg0.N, (cfg0.win 7).flush t = true ∧ i ∈ ((cfg0.win 7).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_7 _, ?_⟩
  rw [mem_blk0_7]
  obtain ⟨e0, e1⟩ := (idx_facts0 ⟨(i 0).val / 5000, by rw [hN]; omega⟩).2.2.2.2.2.2.2
  intro ax
  match ax with
  | ⟨0, _⟩ =>
    show win0_7.index _ 0 * 5000 ≤ (i 0).val ∧ (i 0).val < win0_7.index _ 0 * 5000 + 5000
    rw [e0]; dsimp only; omega
  | ⟨1, _⟩ =>
    show win0_7.index _ 1 * 64 ≤ (i 1).val ∧ (i 1).val < win0_7.index _ 1 * 64 + 64
    rw [e1]; omega

/-- Launch 0, output window 7: what point t writes back is block t of the normalised layer of the entry arrays. -/
theorem flushed0_7_eq {c : Dev nD} (dat : Dat τ (Elt Ideal) Unit ℕ (UR sig nD τ) ℕ cfg0 c)
    (h7 : ∀ t, dat.after 7 t = l2n0 (iblk0 V c 0 t) (iblk0 V c 1 t) (iblk0 V c 2 t) (iblk0 V c 3 t) (iblk0 V c 4 t) (iblk0 V c 5 t)) (t : Fin cfg0.N) :
    dat.flushed 7 t = ((cfg0.win 7).blk t).view.read (Elt Ideal) (LayerN (LayerH (V c main_arg0) (V c main_v39) (V c main_v41) (V c main_v48) (V c main_v45) (V c main_v49))) := by
  show (cfg0.win 7).cut (grid0.coords t) (dat.after 7 t) = _
  rw [h7]
  unfold l2n0
  rw [View.canon_unit_zero hz2]
  simp only [View.ld_unit_zero (S := S5000x64) hz2, View.ld_unit_zero (S := S64x64) hz2, View.ld_unit_zero (S := S1x64) hz2]
  rw [pay1_0_eq]
  have hN : cfg0.N = 20 := N_0
  obtain ⟨e0, e1⟩ := (idx_facts0 t).2.2.2.2.2.2.2
  funext (j : S5000x64.Idx)
  obtain ⟨p, q, rfl⟩ : ∃ (p : Fin 5000) (q : Fin 64), j = ix2 p q := ⟨j 0, j 1, eq_ix2 j⟩
  have hlt : 5000 * t.val + p.val < 100000 := by have := t.isLt; have := p.isLt; omega
  have hemb : ((cfg0.win 7).blk t).view.emb (ix2 p q) = (ix2 (⟨5000 * t.val + p.val, hlt⟩ : Fin 100000) q : S100000x64.Idx) := by
    funext ax
    apply Fin.ext
    match ax with
    | ⟨0, _⟩ => show win0_7.index t 0 * 5000 + 1 * p.val = 5000 * t.val + p.val; rw [e0]; omega
    | ⟨1, _⟩ => show win0_7.index t 1 * 64 + 1 * q.val = q.val; rw [e1]; omega
  show mulf (newT (iblk0 V c 0 t) (iblk0 V c 1 t) (iblk0 V c 2 t) (iblk0 V c 3 t) (iblk0 V c 4 t) (iblk0 V c 5 t)) (broadcastTo S5000x64 (normT (newT (iblk0 V c 0 t) (iblk0 V c 1 t) (iblk0 V c 2 t) (iblk0 V c 3 t) (iblk0 V c 4 t) (iblk0 V c 5 t))) broadcasts_S5000x1_S5000x64) (ix2 p q) = (LayerN (LayerH (V c main_arg0) (V c main_v39) (V c main_v41) (V c main_v48) (V c main_v45) (V c main_v49))) (((cfg0.win 7).blk t).view.emb (ix2 p q))
  rw [hemb, LayerN_ix2, scaled_apply]
  refine congrArg (fun f => rowN f q) (funext fun k => ?_)
  rw [LayerH_ix2, newT_apply]
  simp only [blk0_0 V c t _ _ hlt, blk0_1 V c t _ _ hlt, blk0_2 V c t, blk0_3 V c t, blk0_4 V c t, blk0_5 V c t]

/-- Launch 0, output window 7: the array after the launch. -/
theorem arr0_7_eq {c : Dev nD} (dat : Dat τ (Elt Ideal) Unit ℕ (UR sig nD τ) ℕ cfg0 c)
    (h7 : ∀ t, dat.after 7 t = l2n0 (iblk0 V c 0 t) (iblk0 V c 1 t) (iblk0 V c 2 t) (iblk0 V c 3 t) (iblk0 V c 4 t) (iblk0 V c 5 t)) :
    dat.arrAt 7 cfg0.N = (LayerN (LayerH (V c main_arg0) (V c main_v39) (V c main_v41) (V c main_v48) (V c main_v45) (V c main_v49))) :=
  dat.arrAt_eq_of_cover 7 (LayerN (LayerH (V c main_arg0) (V c main_v39) (V c main_v41) (V c main_v48) (V c main_v45) (V c main_v49))) (fun t _ => flushed0_7_eq V dat h7 t) cover0_7

/-! ## Launch 1 -/

/-- The printed index maps over the 20 points: the row windows and the output windows move with the point, the parameter
    windows stay at block 0. -/
theorem idx_facts1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0)
    ∧ (win1_7.index t (0 : Fin 2) = t.val ∧ win1_7.index t (1 : Fin 2) = 0) :=
  (by decide +kernel : ∀ t : Fin grid1.N, _)

/-- Launch 1, window 0: the block at point t is rows 5000·t … of its array. -/
theorem blk1_0 (c : Dev nD) (t : Fin cfg1.N) (p : Fin 5000) (k : Fin 64) (hlt : 5000 * t.val + p.val < 100000) :
    (iblk1 V c 0 t : Vec Ideal S5000x64 .f32) (ix2 p k) = (V c main_v50_0 : S100000x64.Idx → EReal) (ix2 ⟨5000 * t.val + p.val, hlt⟩ k) := by
  obtain ⟨e0, e1⟩ := (idx_facts1 t).1
  unfold iblk1
  rw [View.read_apply]
  show V c main_v50_0 _ = V c main_v50_0 _
  congr 1
  funext ax
  apply Fin.ext
  match ax with
  | ⟨0, _⟩ => show win1_0.index t 0 * 5000 + 1 * p.val = 5000 * t.val + p.val; rw [e0]; omega
  | ⟨1, _⟩ => show win1_0.index t 1 * 64 + 1 * k.val = k.val; rw [e1]; omega

/-- Launch 1, window 1: the block at point t is rows 5000·t … of its array. -/
theorem blk1_1 (c : Dev nD) (t : Fin cfg1.N) (p : Fin 5000) (k : Fin 64) (hlt : 5000 * t.val + p.val < 100000) :
    (iblk1 V c 1 t : Vec Ideal S5000x64 .f32) (ix2 p k) = (V c main_v63 : S100000x64.Idx → EReal) (ix2 ⟨5000 * t.val + p.val, hlt⟩ k) := by
  obtain ⟨e0, e1⟩ := (idx_facts1 t).2.1
  unfold iblk1
  rw [View.read_apply]
  show V c main_v63 _ = V c main_v63 _
  congr 1
  funext ax
  apply Fin.ext
  match ax with
  | ⟨0, _⟩ => show win1_1.index t 0 * 5000 + 1 * p.val = 5000 * t.val + p.val; rw [e0]; omega
  | ⟨1, _⟩ => show win1_1.index t 1 * 64 + 1 * k.val = k.val; rw [e1]; omega

/-- Launch 1, window 2: the block at every point is its whole array. -/
theorem blk1_2 (c : Dev nD) (t : Fin cfg1.N) (x : Fin 64) (y : Fin 64) :
    (iblk1 V c 2 t : Vec Ideal S64x64 .f32) (ix2 x y) = (V c main_v65 : S64x64.Idx → EReal) (ix2 x y) := by
  obtain ⟨e0, e1⟩ := (idx_facts1 t).2.2.1
  unfold iblk1
  rw [View.read_apply]
  show V c main_v65 _ = V c main_v65 _
  congr 1
  funext ax
  apply Fin.ext
  match ax with
  | ⟨0, _⟩ => show win1_2.index t 0 * 64 + 1 * x.val = x.val; rw [e0]; omega
  | ⟨1, _⟩ => show win1_2.index t 1 * 64 + 1 * y.val = y.val; rw [e1]; omega

/-- Launch 1, window 3: the block at every point is its whole array. -/
theorem blk1_3 (c : Dev nD) (t : Fin cfg1.N) (x : Fin 1) (y : Fin 64) :
    (iblk1 V c 3 t : Vec Ideal S1x64 .f32) (ix2 x y) = (V c main_v72 : S1x64.Idx → EReal) (ix2 x y) := by
  obtain ⟨e0, e1⟩ := (idx_facts1 t).2.2.2.1
  unfold iblk1
  rw [View.read_apply]
  show V c main_v72 _ = V c main_v72 _
  congr 1
  funext ax
  apply Fin.ext
  match ax with
  | ⟨0, _⟩ => show win1_3.index t 0 * 1 + 1 * x.val = x.val; rw [e0]; omega
  | ⟨1, _⟩ => show win1_3.index t 1 * 64 + 1 * y.val = y.val; rw [e1]; omega

/-- Launch 1, window 4: the block at every point is its whole array. -/
theorem blk1_4 (c : Dev nD) (t : Fin cfg1.N) (x : Fin 64) (y : Fin 64) :
    (iblk1 V c 4 t : Vec Ideal S64x64 .f32) (ix2 x y) = (V c main_v69 : S64x64.Idx → EReal) (ix2 x y) := by
  obtain ⟨e0, e1⟩ := (idx_facts1 t).2.2.2.2.1
  unfold iblk1
  rw [View.read_apply]
  show V c main_v69 _ = V c main_v69 _
  congr 1
  funext ax
  apply Fin.ext
  match ax with
  | ⟨0, _⟩ => show win1_4.index t 0 * 64 + 1 * x.val = x.val; rw [e0]; omega
  | ⟨1, _⟩ => show win1_4.index t 1 * 64 + 1 * y.val = y.val; rw [e1]; omega

/-- Launch 1, window 5: the block at every point is its whole array. -/
theorem blk1_5 (c : Dev nD) (t : Fin cfg1.N) (x : Fin 1) (y : Fin 64) :
    (iblk1 V c 5 t : Vec Ideal S1x64 .f32) (ix2 x y) = (V c main_v73 : S1x64.Idx → EReal) (ix2 x y) := by
  obtain ⟨e0, e1⟩ := (idx_facts1 t).2.2.2.2.2.1
  unfold iblk1
  rw [View.read_apply]
  show V c main_v73 _ = V c main_v73 _
  congr 1
  funext ax
  apply Fin.ext
  match ax with
  | ⟨0, _⟩ => show win1_5.index t 0 * 1 + 1 * x.val = x.val; rw [e0]; omega
  | ⟨1, _⟩ => show win1_5.index t 1 * 64 + 1 * y.val = y.val; rw [e1]; omega

/-- Launch 1, output window 6: an index of the array is in point t's block iff each coordinate is in the block's range. -/
theorem mem_blk1_6 (t : Fin cfg1.N) (i : S100000x64.Idx) :
    i ∈ ((cfg1.win 6).blk t).view.set ↔ ∀ ax : Fin 2, win1_6.index t ax * S5000x64.size ax ≤ (i ax).val ∧ (i ax).val < win1_6.index t ax * S5000x64.size ax + S5000x64.size ax := by
  show i ∈ ((View.whole main_v74_0).slice (win1_6.rect t)).set ↔ _
  rw [View.set_slice_whole, Rect.mem_set_unit]
  exact Iff.rfl

/-- Launch 1, output window 6: the 20 blocks cover the array — row r lies in the block of point r / 5000. -/
theorem cover1_6 (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_6 _, ?_⟩
  rw [mem_blk1_6]
  obtain ⟨e0, e1⟩ := (idx_facts1 ⟨(i 0).val / 5000, by rw [hN]; omega⟩).2.2.2.2.2.2.1
  intro ax
  match ax with
  | ⟨0, _⟩ =>
    show win1_6.index _ 0 * 5000 ≤ (i 0).val ∧ (i 0).val < win1_6.index _ 0 * 5000 + 5000
    rw [e0]; dsimp only; omega
  | ⟨1, _⟩ =>
    show win1_6.index _ 1 * 64 ≤ (i 1).val ∧ (i 1).val < win1_6.index _ 1 * 64 + 64
    rw [e1]; omega

/-- Launch 1, output window 6: what point t writes back is block t of the layer of the entry arrays. -/
theorem flushed1_6_eq {c : Dev nD} (dat : Dat τ (Elt Ideal) Unit ℕ (UR sig nD τ) ℕ cfg1 c)
    (h6 : ∀ t, dat.after 6 t = hnew1 (iblk1 V c 0 t) (iblk1 V c 1 t) (iblk1 V c 2 t) (iblk1 V c 3 t) (iblk1 V c 4 t) (iblk1 V c 5 t)) (t : Fin cfg1.N) :
    dat.flushed 6 t = ((cfg1.win 6).blk t).view.read (Elt Ideal) (LayerH (V c main_v50_0) (V c main_v63) (V c main_v65) (V c main_v72) (V c main_v69) (V c main_v73)) := by
  show (cfg1.win 6).cut (grid1.coords t) (dat.after 6 t) = _
  rw [h6]
  unfold hnew1
  rw [View.canon_unit_zero hz2]
  simp only [View.ld_unit_zero (S := S5000x64) hz2, View.ld_unit_zero (S := S64x64) hz2, View.ld_unit_zero (S := S1x64) hz2]
  rw [pay2_1_eq]
  have hN : cfg1.N = 20 := N_1
  obtain ⟨e0, e1⟩ := (idx_facts1 t).2.2.2.2.2.2.1
  funext (j : S5000x64.Idx)
  obtain ⟨p, q, rfl⟩ : ∃ (p : Fin 5000) (q : Fin 64), j = ix2 p q := ⟨j 0, j 1, eq_ix2 j⟩
  have hlt : 5000 * t.val + p.val < 100000 := by have := t.isLt; have := p.isLt; omega
  have hemb : ((cfg1.win 6).blk t).view.emb (ix2 p q) = (ix2 (⟨5000 * t.val + p.val, hlt⟩ : Fin 100000) q : S100000x64.Idx) := by
    funext ax
    apply Fin.ext
    match ax with
    | ⟨0, _⟩ => show win1_6.index t 0 * 5000 + 1 * p.val = 5000 * t.val + p.val; rw [e0]; omega
    | ⟨1, _⟩ => show win1_6.index t 1 * 64 + 1 * q.val = q.val; rw [e1]; omega
  show newT (iblk1 V c 0 t) (iblk1 V c 1 t) (iblk1 V c 2 t) (iblk1 V c 3 t) (iblk1 V c 4 t) (iblk1 V c 5 t) (ix2 p q) = (LayerH (V c main_v50_0) (V c main_v63) (V c main_v65) (V c main_v72) (V c main_v69) (V c main_v73)) (((cfg1.win 6).blk t).view.emb (ix2 p q))
  rw [hemb, LayerH_ix2, newT_apply]
  simp only [blk1_0 V c t _ _ hlt, blk1_1 V c t _ _ hlt, blk1_2 V c t, blk1_3 V c t, blk1_4 V c t, blk1_5 V c t]

/-- Launch 1, output window 6: the array after the launch. -/
theorem arr1_6_eq {c : Dev nD} (dat : Dat τ (Elt Ideal) Unit ℕ (UR sig nD τ) ℕ cfg1 c)
    (h6 : ∀ t, dat.after 6 t = hnew1 (iblk1 V c 0 t) (iblk1 V c 1 t) (iblk1 V c 2 t) (iblk1 V c 3 t) (iblk1 V c 4 t) (iblk1 V c 5 t)) :
    dat.arrAt 6 cfg1.N = (LayerH (V c main_v50_0) (V c main_v63) (V c main_v65) (V c main_v72) (V c main_v69) (V c main_v73)) :=
  dat.arrAt_eq_of_cover 6 (LayerH (V c main_v50_0) (V c main_v63) (V c main_v65) (V c main_v72) (V c main_v69) (V c main_v73)) (fun t _ => flushed1_6_eq V dat h6 t) cover1_6

/-- Launch 1, output window 7: an index of the array is in point t's block iff each coordinate is in the block's range. -/
theorem mem_blk1_7 (t : Fin cfg1.N) (i : S100000x64.Idx) :
    i ∈ ((cfg1.win 7).blk t).view.set ↔ ∀ ax : Fin 2, win1_7.index t ax * S5000x64.size ax ≤ (i ax).val ∧ (i ax).val < win1_7.index t ax * S5000x64.size ax + S5000x64.size ax := by
  show i ∈ ((View.whole main_v74_1).slice (win1_7.rect t)).set ↔ _
  rw [View.set_slice_whole, Rect.mem_set_unit]
  exact Iff.rfl

/-- Launch 1, output window 7: the 20 blocks cover the array — row r lies in the block of point r / 5000. -/
theorem cover1_7 (i : S100000x64.Idx) : ∃ t : Fin cfg1.N, (cfg1.win 7).flush t = true ∧ i ∈ ((cfg1.win 7).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_7 _, ?_⟩
  rw [mem_blk1_7]
  obtain ⟨e0, e1⟩ := (idx_facts1 ⟨(i 0).val / 5000, by rw [hN]; omega⟩).2.2.2.2.2.2.2
  intro ax
  match ax with
  | ⟨0, _⟩ =>
    show win1_7.index _ 0 * 5000 ≤ (i 0).val ∧ (i 0).val < win1_7.index _ 0 * 5000 + 5000
    rw [e0]; dsimp only; omega
  | ⟨1, _⟩ =>
    show win1_7.index _ 1 * 64 ≤ (i 1).val ∧ (i 1).val < win1_7.index _ 1 * 64 + 64
    rw [e1]; omega

/-- Launch 1, output window 7: what point t writes back is block t of the normalised layer of the entry arrays. -/
theorem flushed1_7_eq {c : Dev nD} (dat : Dat τ (Elt Ideal) Unit ℕ (UR sig nD τ) ℕ cfg1 c)
    (h7 : ∀ t, dat.after 7 t = l2n1 (iblk1 V c 0 t) (iblk1 V c 1 t) (iblk1 V c 2 t) (iblk1 V c 3 t) (iblk1 V c 4 t) (iblk1 V c 5 t)) (t : Fin cfg1.N) :
    dat.flushed 7 t = ((cfg1.win 7).blk t).view.read (Elt Ideal) (LayerN (LayerH (V c main_v50_0) (V c main_v63) (V c main_v65) (V c main_v72) (V c main_v69) (V c main_v73))) := by
  show (cfg1.win 7).cut (grid1.coords t) (dat.after 7 t) = _
  rw [h7]
  unfold l2n1
  rw [View.canon_unit_zero hz2]
  simp only [View.ld_unit_zero (S := S5000x64) hz2, View.ld_unit_zero (S := S64x64) hz2, View.ld_unit_zero (S := S1x64) hz2]
  rw [pay1_1_eq]
  have hN : cfg1.N = 20 := N_1
  obtain ⟨e0, e1⟩ := (idx_facts1 t).2.2.2.2.2.2.2
  funext (j : S5000x64.Idx)
  obtain ⟨p, q, rfl⟩ : ∃ (p : Fin 5000) (q : Fin 64), j = ix2 p q := ⟨j 0, j 1, eq_ix2 j⟩
  have hlt : 5000 * t.val + p.val < 100000 := by have := t.isLt; have := p.isLt; omega
  have hemb : ((cfg1.win 7).blk t).view.emb (ix2 p q) = (ix2 (⟨5000 * t.val + p.val, hlt⟩ : Fin 100000) q : S100000x64.Idx) := by
    funext ax
    apply Fin.ext
    match ax with
    | ⟨0, _⟩ => show win1_7.index t 0 * 5000 + 1 * p.val = 5000 * t.val + p.val; rw [e0]; omega
    | ⟨1, _⟩ => show win1_7.index t 1 * 64 + 1 * q.val = q.val; rw [e1]; omega
  show mulf (newT (iblk1 V c 0 t) (iblk1 V c 1 t) (iblk1 V c 2 t) (iblk1 V c 3 t) (iblk1 V c 4 t) (iblk1 V c 5 t)) (broadcastTo S5000x64 (normT (newT (iblk1 V c 0 t) (iblk1 V c 1 t) (iblk1 V c 2 t) (iblk1 V c 3 t) (iblk1 V c 4 t) (iblk1 V c 5 t))) broadcasts_S5000x1_S5000x64) (ix2 p q) = (LayerN (LayerH (V c main_v50_0) (V c main_v63) (V c main_v65) (V c main_v72) (V c main_v69) (V c main_v73))) (((cfg1.win 7).blk t).view.emb (ix2 p q))
  rw [hemb, LayerN_ix2, scaled_apply]
  refine congrArg (fun f => rowN f q) (funext fun k => ?_)
  rw [LayerH_ix2, newT_apply]
  simp only [blk1_0 V c t _ _ hlt, blk1_1 V c t _ _ hlt, blk1_2 V c t, blk1_3 V c t, blk1_4 V c t, blk1_5 V c t]

/-- Launch 1, output window 7: the array after the launch. -/
theorem arr1_7_eq {c : Dev nD} (dat : Dat τ (Elt Ideal) Unit ℕ (UR sig nD τ) ℕ cfg1 c)
    (h7 : ∀ t, dat.after 7 t = l2n1 (iblk1 V c 0 t) (iblk1 V c 1 t) (iblk1 V c 2 t) (iblk1 V c 3 t) (iblk1 V c 4 t) (iblk1 V c 5 t)) :
    dat.arrAt 7 cfg1.N = (LayerN (LayerH (V c main_v50_0) (V c main_v63) (V c main_v65) (V c main_v72) (V c main_v69) (V c main_v73))) :=
  dat.arrAt_eq_of_cover 7 (LayerN (LayerH (V c main_v50_0) (V c main_v63) (V c main_v65) (V c main_v72) (V c main_v69) (V c main_v73))) (fun t _ => flushed1_7_eq V dat h7 t) cover1_7

/-! ## Launch 2 -/

/-- The printed index maps over the 20 points: the row windows and the output windows move with the point, the parameter
    windows stay at block 0. -/
theorem idx_facts2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = t.val ∧ win2_6.index t (1 : Fin 2) = 0)
    ∧ (win2_7.index t (0 : Fin 2) = t.val ∧ win2_7.index t (1 : Fin 2) = 0) :=
  (by decide +kernel : ∀ t : Fin grid2.N, _)

/-- Launch 2, window 0: the block at point t is rows 5000·t … of its array. -/
theorem blk2_0 (c : Dev nD) (t : Fin cfg2.N) (p : Fin 5000) (k : Fin 64) (hlt : 5000 * t.val + p.val < 100000) :
    (iblk2 V c 0 t : Vec Ideal S5000x64 .f32) (ix2 p k) = (V c main_v74_0 : S100000x64.Idx → EReal) (ix2 ⟨5000 * t.val + p.val, hlt⟩ k) := by
  obtain ⟨e0, e1⟩ := (idx_facts2 t).1
  unfold iblk2
  rw [View.read_apply]
  show V c main_v74_0 _ = V c main_v74_0 _
  congr 1
  funext ax
  apply Fin.ext
  match ax with
  | ⟨0, _⟩ => show win2_0.index t 0 * 5000 + 1 * p.val = 5000 * t.val + p.val; rw [e0]; omega
  | ⟨1, _⟩ => show win2_0.index t 1 * 64 + 1 * k.val = k.val; rw [e1]; omega

/-- Launch 2, window 1: the block at point t is rows 5000·t … of its array. -/
theorem blk2_1 (c : Dev nD) (t : Fin cfg2.N) (p : Fin 5000) (k : Fin 64) (hlt : 5000 * t.val + p.val < 100000) :
    (iblk2 V c 1 t : Vec Ideal S5000x64 .f32) (ix2 p k) = (V c main_v87 : S100000x64.Idx → EReal) (ix2 ⟨5000 * t.val + p.val, hlt⟩ k) := by
  obtain ⟨e0, e1⟩ := (idx_facts2 t).2.1
  unfold iblk2
  rw [View.read_apply]
  show V c main_v87 _ = V c main_v87 _
  congr 1
  funext ax
  apply Fin.ext
  match ax with
  | ⟨0, _⟩ => show win2_1.index t 0 * 5000 + 1 * p.val = 5000 * t.val + p.val; rw [e0]; omega
  | ⟨1, _⟩ => show win2_1.index t 1 * 64 + 1 * k.val = k.val; rw [e1]; omega

/-- Launch 2, window 2: the block at every point is its whole array. -/
theorem blk2_2 (c : Dev nD) (t : Fin cfg2.N) (x : Fin 64) (y : Fin 64) :
    (iblk2 V c 2 t : Vec Ideal S64x64 .f32) (ix2 x y) = (V c main_v89 : S64x64.Idx → EReal) (ix2 x y) := by
  obtain ⟨e0, e1⟩ := (idx_facts2 t).2.2.1
  unfold iblk2
  rw [View.read_apply]
  show V c main_v89 _ = V c main_v89 _
  congr 1
  funext ax
  apply Fin.ext
  match ax with
  | ⟨0, _⟩ => show win2_2.index t 0 * 64 + 1 * x.val = x.val; rw [e0]; omega
  | ⟨1, _⟩ => show win2_2.index t 1 * 64 + 1 * y.val = y.val; rw [e1]; omega

/-- Launch 2, window 3: the block at every point is its whole array. -/
theorem blk2_3 (c : Dev nD) (t : Fin cfg2.N) (x : Fin 1) (y : Fin 64) :
    (iblk2 V c 3 t : Vec Ideal S1x64 .f32) (ix2 x y) = (V c main_v96 : S1x64.Idx → EReal) (ix2 x y) := by
  obtain ⟨e0, e1⟩ := (idx_facts2 t).2.2.2.1
  unfold iblk2
  rw [View.read_apply]
  show V c main_v96 _ = V c main_v96 _
  congr 1
  funext ax
  apply Fin.ext
  match ax with
  | ⟨0, _⟩ => show win2_3.index t 0 * 1 + 1 * x.val = x.val; rw [e0]; omega
  | ⟨1, _⟩ => show win2_3.index t 1 * 64 + 1 * y.val = y.val; rw [e1]; omega

/-- Launch 2, window 4: the block at every point is its whole array. -/
theorem blk2_4 (c : Dev nD) (t : Fin cfg2.N) (x : Fin 64) (y : Fin 64) :
    (iblk2 V c 4 t : Vec Ideal S64x64 .f32) (ix2 x y) = (V c main_v93 : S64x64.Idx → EReal) (ix2 x y) := by
  obtain ⟨e0, e1⟩ := (idx_facts2 t).2.2.2.2.1
  unfold iblk2
  rw [View.read_apply]
  show V c main_v93 _ = V c main_v93 _
  congr 1
  funext ax
  apply Fin.ext
  match ax with
  | ⟨0, _⟩ => show win2_4.index t 0 * 64 + 1 * x.val = x.val; rw [e0]; omega
  | ⟨1, _⟩ => show win2_4.index t 1 * 64 + 1 * y.val = y.val; rw [e1]; omega

/-- Launch 2, window 5: the block at every point is its whole array. -/
theorem blk2_5 (c : Dev nD) (t : Fin cfg2.N) (x : Fin 1) (y : Fin 64) :
    (iblk2 V c 5 t : Vec Ideal S1x64 .f32) (ix2 x y) = (V c main_v97 : S1x64.Idx → EReal) (ix2 x y) := by
  obtain ⟨e0, e1⟩ := (idx_facts2 t).2.2.2.2.2.1
  unfold iblk2
  rw [View.read_apply]
  show V c main_v97 _ = V c main_v97 _
  congr 1
  funext ax
  apply Fin.ext
  match ax with
  | ⟨0, _⟩ => show win2_5.index t 0 * 1 + 1 * x.val = x.val; rw [e0]; omega
  | ⟨1, _⟩ => show win2_5.index t 1 * 64 + 1 * y.val = y.val; rw [e1]; omega

/-- Launch 2, output window 6: an index of the array is in point t's block iff each coordinate is in the block's range. -/
theorem mem_blk2_6 (t : Fin cfg2.N) (i : S100000x64.Idx) :
    i ∈ ((cfg2.win 6).blk t).view.set ↔ ∀ ax : Fin 2, win2_6.index t ax * S5000x64.size ax ≤ (i ax).val ∧ (i ax).val < win2_6.index t ax * S5000x64.size ax + S5000x64.size ax := by
  show i ∈ ((View.whole main_v98_0).slice (win2_6.rect t)).set ↔ _
  rw [View.set_slice_whole, Rect.mem_set_unit]
  exact Iff.rfl

/-- Launch 2, output window 6: the 20 blocks cover the array — row r lies in the block of point r / 5000. -/
theorem cover2_6 (i : S100000x64.Idx) : ∃ t : Fin cfg2.N, (cfg2.win 6).flush t = true ∧ i ∈ ((cfg2.win 6).blk t).view.set := by
  have hi0 : (i 0).val < 100000 := (i 0).isLt
  have hi1 : (i 1).val < 64 := (i 1).isLt
  have hN : cfg2.N = 20 := N_2
  refine ⟨⟨(i 0).val / 5000, by rw [hN]; omega⟩, flush2_6 _, ?_⟩
  rw [mem_blk2_6]
  obtain ⟨e0, e1⟩ := (idx_facts2 ⟨(i 0).val / 5000, by rw [hN]; omega⟩).2.2.2.2.2.2.1
  intro ax
  match ax with
  | ⟨0, _⟩ =>
    show win2_6.index _ 0 * 5000 ≤ (i 0).val ∧ (i 0).val < win2_6.index _ 0 * 5000 + 5000
    rw [e0]; dsimp only; omega
  | ⟨1, _⟩ =>
    show win2_6.index _ 1 * 64 ≤ (i 1).val ∧ (i 1).val < win2_6.index _ 1 * 64 + 64
    rw [e1]; omega

/-- Launch 2, output window 6: what point t writes back is block t of the layer of the entry arrays. -/
theorem flushed2_6_eq {c : Dev nD} (dat : Dat τ (Elt Ideal) Unit ℕ (UR sig nD τ) ℕ cfg2 c)
    (h6 : ∀ t, dat.after 6 t = hnew2 (iblk2 V c 0 t) (iblk2 V c 1 t) (iblk2 V c 2 t) (iblk2 V c 3 t) (iblk2 V c 4 t) (iblk2 V c 5 t)) (t : Fin cfg2.N) :
    dat.flushed 6 t = ((cfg2.win 6).blk t).view.read (Elt Ideal) (LayerH (V c main_v74_0) (V c main_v87) (V c main_v89) (V c main_v96) (V c main_v93) (V c main_v97)) := by
  show (cfg2.win 6).cut (grid2.coords t) (dat.after 6 t) = _
  rw [h6]
  unfold hnew2
  rw [View.canon_unit_zero hz2]
  simp only [View.ld_unit_zero (S := S5000x64) hz2, View.ld_unit_zero (S := S64x64) hz2, View.ld_unit_zero (S := S1x64) hz2]
  rw [pay2_2_eq]
  have hN : cfg2.N = 20 := N_2
  obtain ⟨e0, e1⟩ := (idx_facts2 t).2.2.2.2.2.2.1
  funext (j : S5000x64.Idx)
  obtain ⟨p, q, rfl⟩ : ∃ (p : Fin 5000) (q : Fin 64), j = ix2 p q := ⟨j 0, j 1, eq_ix2 j⟩
  have hlt : 5000 * t.val + p.val < 100000 := by have := t.isLt; have := p.isLt; omega
  have hemb : ((cfg2.win 6).blk t).view.emb (ix2 p q) = (ix2 (⟨5000 * t.val + p.val, hlt⟩ : Fin 100000) q : S100000x64.Idx) := by
    funext ax
    apply Fin.ext
    match ax with
    | ⟨0, _⟩ => show win2_6.index t 0 * 5000 + 1 * p.val = 5000 * t.val + p.val; rw [e0]; omega
    | ⟨1, _⟩ => show win2_6.index t 1 * 64 + 1 * q.val = q.val; rw [e1]; omega
  show newT (iblk2 V c 0 t) (iblk2 V c 1 t) (iblk2 V c 2 t) (iblk2 V c 3 t) (iblk2 V c 4 t) (iblk2 V c 5 t) (ix2 p q) = (LayerH (V c main_v74_0) (V c main_v87) (V c main_v89) (V c main_v96) (V c main_v93) (V c main_v97)) (((cfg2.win 6).blk t).view.emb (ix2 p q))
  rw [hemb, LayerH_ix2, newT_apply]
  simp only [blk2_0 V c t _ _ hlt, blk2_1 V c t _ _ hlt, blk2_2 V c t, blk2_3 V c t, blk2_4 V c t, blk2_5 V c t]

/-- Launch 2, output window 6: the array after the launch. -/
theorem arr2_6_eq {c : Dev nD} (dat : Dat τ (Elt Ideal) Unit ℕ (UR sig nD τ) ℕ cfg2 c)
    (h6 : ∀ t, dat.after 6 t = hnew2 (iblk2 V c 0 t) (iblk2 V c 1 t) (iblk2 V c 2 t) (iblk2 V c 3 t) (iblk2 V c 4 t) (iblk2 V c 5 t)) :
    dat.arrAt 6 cfg2.N = (LayerH (V c main_v74_0) (V c main_v87) (V c main_v89) (V c main_v96) (V c main_v93) (V c main_v97)) :=
  dat.arrAt_eq_of_cover 6 (LayerH (V c main_v74_0) (V c main_v87) (V c main_v89) (V c main_v96) (V c main_v93) (V c main_v97)) (fun t _ => flushed2_6_eq V dat h6 t) cover2_6

/-- Launch 2, output window 7: an index of the array is in point t's block iff each coordinate is in the block's range. -/
theorem mem_blk2_7 (t : Fin cfg2.N) (i : S100000x64.Idx) :
    i ∈ ((cfg2.win 7).blk t).view.set ↔ ∀ ax : Fin 2, win2_7.index t ax * S5000x64.size ax ≤ (i ax).val ∧ (i ax).val < win2_7.index t ax * S5000x64.size ax + S5000x64.size ax := by
  show i ∈ ((View.whole main_v98_1).slice (win2_7.rect t)).set ↔ _
  rw [View.set_slice_whole, Rect.mem_set_unit]
  exact Iff.rfl

/-- Launch 2, output window 7: the 20 blocks cover the array — row r lies in the block of point r / 5000. -/
theorem cover2_7 (i : S100000x64.Idx) : ∃ t : Fin cfg2.N, (cfg2.win 7).flush t = true ∧ i ∈ ((cfg2.win 7).blk t).view.set := by
  have hi0 : (i 0).val < 100000 := (i 0).isLt
  have hi1 : (i 1).val < 64 := (i 1).isLt
  have hN : cfg2.N = 20 := N_2
  refine ⟨⟨(i 0).val / 5000, by rw [hN]; omega⟩, flush2_7 _, ?_⟩
  rw [mem_blk2_7]
  obtain ⟨e0, e1⟩ := (idx_facts2 ⟨(i 0).val / 5000, by rw [hN]; omega⟩).2.2.2.2.2.2.2
  intro ax
  match ax with
  | ⟨0, _⟩ =>
    show win2_7.index _ 0 * 5000 ≤ (i 0).val ∧ (i 0).val < win2_7.index _ 0 * 5000 + 5000
    rw [e0]; dsimp only; omega
  | ⟨1, _⟩ =>
    show win2_7.index _ 1 * 64 ≤ (i 1).val ∧ (i 1).val < win2_7.index _ 1 * 64 + 64
    rw [e1]; omega

/-- Launch 2, output window 7: what point t writes back is block t of the normalised layer of the entry arrays. -/
theorem flushed2_7_eq {c : Dev nD} (dat : Dat τ (Elt Ideal) Unit ℕ (UR sig nD τ) ℕ cfg2 c)
    (h7 : ∀ t, dat.after 7 t = l2n2 (iblk2 V c 0 t) (iblk2 V c 1 t) (iblk2 V c 2 t) (iblk2 V c 3 t) (iblk2 V c 4 t) (iblk2 V c 5 t)) (t : Fin cfg2.N) :
    dat.flushed 7 t = ((cfg2.win 7).blk t).view.read (Elt Ideal) (LayerN (LayerH (V c main_v74_0) (V c main_v87) (V c main_v89) (V c main_v96) (V c main_v93) (V c main_v97))) := by
  show (cfg2.win 7).cut (grid2.coords t) (dat.after 7 t) = _
  rw [h7]
  unfold l2n2
  rw [View.canon_unit_zero hz2]
  simp only [View.ld_unit_zero (S := S5000x64) hz2, View.ld_unit_zero (S := S64x64) hz2, View.ld_unit_zero (S := S1x64) hz2]
  rw [pay1_2_eq]
  have hN : cfg2.N = 20 := N_2
  obtain ⟨e0, e1⟩ := (idx_facts2 t).2.2.2.2.2.2.2
  funext (j : S5000x64.Idx)
  obtain ⟨p, q, rfl⟩ : ∃ (p : Fin 5000) (q : Fin 64), j = ix2 p q := ⟨j 0, j 1, eq_ix2 j⟩
  have hlt : 5000 * t.val + p.val < 100000 := by have := t.isLt; have := p.isLt; omega
  have hemb : ((cfg2.win 7).blk t).view.emb (ix2 p q) = (ix2 (⟨5000 * t.val + p.val, hlt⟩ : Fin 100000) q : S100000x64.Idx) := by
    funext ax
    apply Fin.ext
    match ax with
    | ⟨0, _⟩ => show win2_7.index t 0 * 5000 + 1 * p.val = 5000 * t.val + p.val; rw [e0]; omega
    | ⟨1, _⟩ => show win2_7.index t 1 * 64 + 1 * q.val = q.val; rw [e1]; omega
  show mulf (newT (iblk2 V c 0 t) (iblk2 V c 1 t) (iblk2 V c 2 t) (iblk2 V c 3 t) (iblk2 V c 4 t) (iblk2 V c 5 t)) (broadcastTo S5000x64 (normT (newT (iblk2 V c 0 t) (iblk2 V c 1 t) (iblk2 V c 2 t) (iblk2 V c 3 t) (iblk2 V c 4 t) (iblk2 V c 5 t))) broadcasts_S5000x1_S5000x64) (ix2 p q) = (LayerN (LayerH (V c main_v74_0) (V c main_v87) (V c main_v89) (V c main_v96) (V c main_v93) (V c main_v97))) (((cfg2.win 7).blk t).view.emb (ix2 p q))
  rw [hemb, LayerN_ix2, scaled_apply]
  refine congrArg (fun f => rowN f q) (funext fun k => ?_)
  rw [LayerH_ix2, newT_apply]
  simp only [blk2_0 V c t _ _ hlt, blk2_1 V c t _ _ hlt, blk2_2 V c t, blk2_3 V c t, blk2_4 V c t, blk2_5 V c t]

/-- Launch 2, output window 7: the array after the launch. -/
theorem arr2_7_eq {c : Dev nD} (dat : Dat τ (Elt Ideal) Unit ℕ (UR sig nD τ) ℕ cfg2 c)
    (h7 : ∀ t, dat.after 7 t = l2n2 (iblk2 V c 0 t) (iblk2 V c 1 t) (iblk2 V c 2 t) (iblk2 V c 3 t) (iblk2 V c 4 t) (iblk2 V c 5 t)) :
    dat.arrAt 7 cfg2.N = (LayerN (LayerH (V c main_v74_0) (V c main_v87) (V c main_v89) (V c main_v96) (V c main_v93) (V c main_v97))) :=
  dat.arrAt_eq_of_cover 7 (LayerN (LayerH (V c main_v74_0) (V c main_v87) (V c main_v89) (V c main_v96) (V c main_v93) (V c main_v97))) (fun t _ => flushed2_7_eq V dat h7 t) cover2_7

end Cert.KernelIdeal.Hand

end
-- ==== Proof.KIChain.lean ====
/-
  The kernel program's result as the shared function of the six arguments.

  The buffer contents are followed segment by segment: the host operations before the first launch compute the edge
  weights, the first aggregate and the first layer's parameter slices; each launch leaves the layer's new features and
  their normalised rows in its two output arrays (the blocks-to-arrays lemmas); the host operations between launches
  aggregate the new features and slice the next layer's parameters, leaving everything else in place; the last
  operation joins the features and the three normalised outputs side by side.
-/
import proofs.«125014_j7464653161107_1_alg».proof.Proof.KIRun
import proofs.«125014_j7464653161107_1_alg».proof.Proof.KIBlocks
import proofs.«125014_j7464653161107_1_alg».proof.Proof.Shared
import Idealize.ShloMosaic.Lib.StableHlo.Run

set_option maxRecDepth 65536

noncomputable section

namespace Cert.KernelIdeal.Hand

open Cert.KernelIdeal Cert.KernelIdeal.Gen Cert.Spec Cert.Shared
open Idealize.ShloMosaic Idealize.ShloMosaic.TcCoe Idealize.ShloMosaic.ValueIdx Idealize.SL.Sem Idealize.ShloMosaic.StableHlo

/-- The inlined selection of the reciprocal roots, with its operations at the buffers themselves. -/
abbrev hostOps0_1p : List (HloOp τ sig (Elt Ideal)) :=
  [ StableHlo.unary main_cst_2 main_call0_v0 (id : (⟨S_, .f32⟩ : BufTy).Contents (Elt Ideal) → (⟨S_, .f32⟩ : BufTy).Contents (Elt Ideal)),
    StableHlo.unary main_call0_v0 main_call0_v1 (broadcastInDim S100000 ![] bcast_S_S100000 : (⟨S_, .f32⟩ : BufTy).Contents (Elt Ideal) → (⟨S100000, .f32⟩ : BufTy).Contents (Elt Ideal)),
    StableHlo.ternary main_v9 main_v10 main_call0_v1 main_v11 (select : (⟨S100000, .i1⟩ : BufTy).Contents (Elt Ideal) → (⟨S100000, .f32⟩ : BufTy).Contents (Elt Ideal) → (⟨S100000, .f32⟩ : BufTy).Contents (Elt Ideal) → (⟨S100000, .f32⟩ : BufTy).Contents (Elt Ideal)) ]
/-- A typed reference taken at the buffer's own type transports nothing. -/
theorem hostOps0_1_plain : (hostOps0_1 : List (HloOp τ sig (Elt Ideal))) = hostOps0_1p := rfl

/-! ## The host operations between launches, from any contents -/

section Stretch
variable (V : Valuation τ sig (Elt Ideal))

/-- Stretch 1: the aggregate of the previous launch's features, and layer 1's parameter slices. -/
theorem hostOps1_agg : (StableHlo.after hostOps1 V (Proc.devRef .tc main_v63) : FVec Ideal TN64 .f32)
    = aggT (V (Proc.devRef .tc main_v26)) (V (Proc.devRef .tc main_v1)) (V (Proc.devRef .tc main_v3)) (V (Proc.devRef .tc main_v50_0)) := by
  after_results_simp
  rfl
theorem hostOps1_wg : (StableHlo.after hostOps1 V (Proc.devRef .tc main_v65) : FVec Ideal T64x64 .f32) = matL 1 (by decide) (V (Proc.devRef .tc main_arg2)) := by
  after_results_simp
  rfl
theorem hostOps1_bg : (StableHlo.after hostOps1 V (Proc.devRef .tc main_v72) : FVec Ideal T1x64 .f32) = rowL 1 (by decide) (V (Proc.devRef .tc main_arg3)) := by
  after_results_simp
  rfl
theorem hostOps1_wi : (StableHlo.after hostOps1 V (Proc.devRef .tc main_v69) : FVec Ideal T64x64 .f32) = matL 1 (by decide) (V (Proc.devRef .tc main_arg4)) := by
  after_results_simp
  rfl
theorem hostOps1_bi : (StableHlo.after hostOps1 V (Proc.devRef .tc main_v73) : FVec Ideal T1x64 .f32) = rowL 1 (by decide) (V (Proc.devRef .tc main_arg5)) := by
  after_results_simp
  rfl
/-- Stretch 1 leaves every buffer it does not write. -/
theorem hostOps1_keep (r : Ref sig .tc) (h : r ∉ hostOps1_W) : StableHlo.after hostOps1 V (Proc.devRef .tc r) = V (Proc.devRef .tc r) :=
  StableHlo.after_of_writes_sub hostOps1 V hostOps1_writes h

/-- Stretch 2: the aggregate of the previous launch's features, and layer 2's parameter slices. -/
theorem hostOps2_agg : (StableHlo.after hostOps2 V (Proc.devRef .tc main_v87) : FVec Ideal TN64 .f32)
    = aggT (V (Proc.devRef .tc main_v26)) (V (Proc.devRef .tc main_v1)) (V (Proc.devRef .tc main_v3)) (V (Proc.devRef .tc main_v74_0)) := by
  after_results_simp
  rfl
theorem hostOps2_wg : (StableHlo.after hostOps2 V (Proc.devRef .tc main_v89) : FVec Ideal T64x64 .f32) = matL 2 (by decide) (V (Proc.devRef .tc main_arg2)) := by
  after_results_simp
  rfl
theorem hostOps2_bg : (StableHlo.after hostOps2 V (Proc.devRef .tc main_v96) : FVec Ideal T1x64 .f32) = rowL 2 (by decide) (V (Proc.devRef .tc main_arg3)) := by
  after_results_simp
  rfl
theorem hostOps2_wi : (StableHlo.after hostOps2 V (Proc.devRef .tc main_v93) : FVec Ideal T64x64 .f32) = matL 2 (by decide) (V (Proc.devRef .tc main_arg4)) := by
  after_results_simp
  rfl
theorem hostOps2_bi : (StableHlo.after hostOps2 V (Proc.devRef .tc main_v97) : FVec Ideal T1x64 .f32) = rowL 2 (by decide) (V (Proc.devRef .tc main_arg5)) := by
  after_results_simp
  rfl
/-- Stretch 2 leaves every buffer it does not write. -/
theorem hostOps2_keep (r : Ref sig .tc) (h : r ∉ hostOps2_W) : StableHlo.after hostOps2 V (Proc.devRef .tc r) = V (Proc.devRef .tc r) :=
  StableHlo.after_of_writes_sub hostOps2 V hostOps2_writes h

end Stretch

variable (m : (ℓ : Loc nD τ sig) → Buf (Elt Ideal) ℓ) (ρ : Dev nD → PrngReg) (c : Dev nD)

/-! ## Before the first launch -/

theorem W3_rows : (W3 m ρ c (Proc.devRef .tc main_v1) : IVec TE 32) = edgeRow 0 (by decide) (m ((c : Thread nD τ).loc main_arg1)) := by
  show StableHlo.after hostOps0_2 (StableHlo.after hostOps0_1 (StableHlo.after hostOps0 (W0 m ρ c))) (Proc.devRef .tc main_v1) = _
  rw [hostOps0_1_plain]
  after_results_simp
  rfl
theorem W3_cols : (W3 m ρ c (Proc.devRef .tc main_v3) : IVec TE 32) = edgeRow 1 (by decide) (m ((c : Thread nD τ).loc main_arg1)) := by
  show StableHlo.after hostOps0_2 (StableHlo.after hostOps0_1 (StableHlo.after hostOps0 (W0 m ρ c))) (Proc.devRef .tc main_v3) = _
  rw [hostOps0_1_plain]
  after_results_simp
  rfl
theorem W3_wts : (W3 m ρ c (Proc.devRef .tc main_v26) : FVec Ideal TE .f32) = wts (m ((c : Thread nD τ).loc main_arg1)) := by
  show StableHlo.after hostOps0_2 (StableHlo.after hostOps0_1 (StableHlo.after hostOps0 (W0 m ρ c))) (Proc.devRef .tc main_v26) = _
  rw [hostOps0_1_plain]
  after_results_simp
  rfl
theorem W3_agg : (W3 m ρ c (Proc.devRef .tc main_v39) : FVec Ideal TN64 .f32) = agg (m ((c : Thread nD τ).loc main_arg1)) (m ((c : Thread nD τ).loc main_arg0)) := by
  show StableHlo.after hostOps0_2 (StableHlo.after hostOps0_1 (StableHlo.after hostOps0 (W0 m ρ c))) (Proc.devRef .tc main_v39) = _
  rw [hostOps0_1_plain]
  after_results_simp
  rfl
theorem W3_wg : (W3 m ρ c (Proc.devRef .tc main_v41) : FVec Ideal T64x64 .f32) = matL 0 (by decide) (m ((c : Thread nD τ).loc main_arg2)) := by
  show StableHlo.after hostOps0_2 (StableHlo.after hostOps0_1 (StableHlo.after hostOps0 (W0 m ρ c))) (Proc.devRef .tc main_v41) = _
  rw [hostOps0_1_plain]
  after_results_simp
  rfl
theorem W3_bg : (W3 m ρ c (Proc.devRef .tc main_v48) : FVec Ideal T1x64 .f32) = rowL 0 (by decide) (m ((c : Thread nD τ).loc main_arg3)) := by
  show StableHlo.after hostOps0_2 (StableHlo.after hostOps0_1 (StableHlo.after hostOps0 (W0 m ρ c))) (Proc.devRef .tc main_v48) = _
  rw [hostOps0_1_plain]
  after_results_simp
  rfl
theorem W3_wi : (W3 m ρ c (Proc.devRef .tc main_v45) : FVec Ideal T64x64 .f32) = matL 0 (by decide) (m ((c : Thread nD τ).loc main_arg4)) := by
  show StableHlo.after hostOps0_2 (StableHlo.after hostOps0_1 (StableHlo.after hostOps0 (W0 m ρ c))) (Proc.devRef .tc main_v45) = _
  rw [hostOps0_1_plain]
  after_results_simp
  rfl
theorem W3_bi : (W3 m ρ c (Proc.devRef .tc main_v49) : FVec Ideal T1x64 .f32) = rowL 0 (by decide) (m ((c : Thread nD τ).loc main_arg5)) := by
  show StableHlo.after hostOps0_2 (StableHlo.after hostOps0_1 (StableHlo.after hostOps0 (W0 m ρ c))) (Proc.devRef .tc main_v49) = _
  rw [hostOps0_1_plain]
  after_results_simp
  rfl
theorem W3_arg0 : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  rw [hostOps0_1_plain]
  after_results_simp
theorem W3_arg1 : W3 m ρ c (Proc.devRef .tc main_arg1) = (m ((c : Thread nD τ).loc main_arg1)) := by
  show StableHlo.after hostOps0_2 (StableHlo.after hostOps0_1 (StableHlo.after hostOps0 (W0 m ρ c))) (Proc.devRef .tc main_arg1) = _
  rw [hostOps0_1_plain]
  after_results_simp
theorem W3_arg2 : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  rw [hostOps0_1_plain]
  after_results_simp
theorem W3_arg3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  rw [hostOps0_1_plain]
  after_results_simp
theorem W3_arg4 : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  rw [hostOps0_1_plain]
  after_results_simp
theorem W3_arg5 : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  rw [hostOps0_1_plain]
  after_results_simp

/-! ## The first launch -/

theorem W4_new : (W4 m ρ c (Proc.devRef .tc main_v50_0) : FVec Ideal TN64 .f32) = (step 0 (by decide) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0))) := by
  refine (W4_arr m ρ c 6).trans ?_
  rw [arr0_6_eq (V3 m ρ) (dat0 (V3 m ρ) c) (after0_6 (V3 m ρ) c)]
  unfold V3
  rw [W3_arg0, W3_agg, W3_wg, W3_bg, W3_wi, W3_bi]
  rfl
theorem W4_unit : (W4 m ρ c (Proc.devRef .tc main_v50_1) : FVec Ideal TN64 .f32) = LayerN (step 0 (by decide) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0))) := by
  refine (W4_arr m ρ c 7).trans ?_
  rw [arr0_7_eq (V3 m ρ) (dat0 (V3 m ρ) c) (after0_7 (V3 m ρ) c)]
  unfold V3
  rw [W3_arg0, W3_agg, W3_wg, W3_bg, W3_wi, W3_bi]
  rfl
/-- The first launch changes its two output arrays only. -/
theorem W4_keep (r : Ref sig .tc) (h : ∀ w, Pipeline.arrRef spec0 w ≠ r) : W4 m ρ c (Proc.devRef .tc r) = W3 m ρ c (Proc.devRef .tc r) :=
  W4_of_ne m ρ c r h

/-! ## Between the first and the second launch -/

theorem W4_rows : (W4 m ρ c (Proc.devRef .tc main_v1) : IVec TE 32) = edgeRow 0 (by decide) (m ((c : Thread nD τ).loc main_arg1)) := (W4_keep m ρ c main_v1 (by decide)).trans (W3_rows m ρ c)
theorem W4_cols : (W4 m ρ c (Proc.devRef .tc main_v3) : IVec TE 32) = edgeRow 1 (by decide) (m ((c : Thread nD τ).loc main_arg1)) := (W4_keep m ρ c main_v3 (by decide)).trans (W3_cols m ρ c)
theorem W4_wts : (W4 m ρ c (Proc.devRef .tc main_v26) : FVec Ideal TE .f32) = wts (m ((c : Thread nD τ).loc main_arg1)) := (W4_keep m ρ c main_v26 (by decide)).trans (W3_wts m ρ c)
theorem W4_arg0 : W4 m ρ c (Proc.devRef .tc main_arg0) = (m ((c : Thread nD τ).loc main_arg0)) := by
  refine (W4_arr m ρ c 0).trans ?_
  rw [(dat0 (V3 m ρ) c).arrAt_in 0 rfl _, A_eq0]
  exact W3_arg0 m ρ c
theorem W4_arg1 : W4 m ρ c (Proc.devRef .tc main_arg1) = (m ((c : Thread nD τ).loc main_arg1)) := (W4_keep m ρ c main_arg1 (by decide)).trans (W3_arg1 m ρ c)
theorem W4_arg2 : W4 m ρ c (Proc.devRef .tc main_arg2) = (m ((c : Thread nD τ).loc main_arg2)) := (W4_keep m ρ c main_arg2 (by decide)).trans (W3_arg2 m ρ c)
theorem W4_arg3 : W4 m ρ c (Proc.devRef .tc main_arg3) = (m ((c : Thread nD τ).loc main_arg3)) := (W4_keep m ρ c main_arg3 (by decide)).trans (W3_arg3 m ρ c)
theorem W4_arg4 : W4 m ρ c (Proc.devRef .tc main_arg4) = (m ((c : Thread nD τ).loc main_arg4)) := (W4_keep m ρ c main_arg4 (by decide)).trans (W3_arg4 m ρ c)
theorem W4_arg5 : W4 m ρ c (Proc.devRef .tc main_arg5) = (m ((c : Thread nD τ).loc main_arg5)) := (W4_keep m ρ c main_arg5 (by decide)).trans (W3_arg5 m ρ c)

theorem W5_prev : (W5 m ρ c (Proc.devRef .tc main_v50_0) : FVec Ideal TN64 .f32) = (step 0 (by decide) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0))) :=
  (hostOps1_keep (W4 m ρ c) main_v50_0 (by decide)).trans (W4_new m ρ c)
theorem W5_agg : (W5 m ρ c (Proc.devRef .tc main_v63) : FVec Ideal TN64 .f32) = agg (m ((c : Thread nD τ).loc main_arg1)) (step 0 (by decide) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0))) := by
  refine (hostOps1_agg (W4 m ρ c)).trans ?_
  rw [W4_wts, W4_rows, W4_cols, W4_new]
  rfl
theorem W5_wg : (W5 m ρ c (Proc.devRef .tc main_v65) : FVec Ideal T64x64 .f32) = matL 1 (by decide) (m ((c : Thread nD τ).loc main_arg2)) := by
  refine (hostOps1_wg (W4 m ρ c)).trans ?_
  rw [W4_arg2]
theorem W5_bg : (W5 m ρ c (Proc.devRef .tc main_v72) : FVec Ideal T1x64 .f32) = rowL 1 (by decide) (m ((c : Thread nD τ).loc main_arg3)) := by
  refine (hostOps1_bg (W4 m ρ c)).trans ?_
  rw [W4_arg3]
theorem W5_wi : (W5 m ρ c (Proc.devRef .tc main_v69) : FVec Ideal T64x64 .f32) = matL 1 (by decide) (m ((c : Thread nD τ).loc main_arg4)) := by
  refine (hostOps1_wi (W4 m ρ c)).trans ?_
  rw [W4_arg4]
theorem W5_bi : (W5 m ρ c (Proc.devRef .tc main_v73) : FVec Ideal T1x64 .f32) = rowL 1 (by decide) (m ((c : Thread nD τ).loc main_arg5)) := by
  refine (hostOps1_bi (W4 m ρ c)).trans ?_
  rw [W4_arg5]

/-! ## Launch 1 -/

theorem W6_new : (W6 m ρ c (Proc.devRef .tc main_v74_0) : FVec Ideal TN64 .f32) = (step 1 (by decide) (m ((c : Thread nD τ).loc main_arg1)) (m ((c : Thread nD τ).loc main_arg2)) (m ((c : Thread nD τ).loc main_arg3)) (m ((c : Thread nD τ).loc main_arg4)) (m ((c : Thread nD τ).loc main_arg5)) (step 0 (by decide) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0)))) := by
  refine (W6_arr m ρ c 6).trans ?_
  rw [arr1_6_eq (V5 m ρ) (dat1 (V5 m ρ) c) (after1_6 (V5 m ρ) c)]
  unfold V5
  rw [W5_prev, W5_agg, W5_wg, W5_bg, W5_wi, W5_bi]
  rfl
theorem W6_unit : (W6 m ρ c (Proc.devRef .tc main_v74_1) : FVec Ideal TN64 .f32) = LayerN (step 1 (by decide) (m ((c : Thread nD τ).loc main_arg1)) (m ((c : Thread nD τ).loc main_arg2)) (m ((c : Thread nD τ).loc main_arg3)) (m ((c : Thread nD τ).loc main_arg4)) (m ((c : Thread nD τ).loc main_arg5)) (step 0 (by decide) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0)))) := by
  refine (W6_arr m ρ c 7).trans ?_
  rw [arr1_7_eq (V5 m ρ) (dat1 (V5 m ρ) c) (after1_7 (V5 m ρ) c)]
  unfold V5
  rw [W5_prev, W5_agg, W5_wg, W5_bg, W5_wi, W5_bi]
  rfl

/-! ## Between the second and the third launch -/

/-- The second launch changes its two output arrays only. -/
theorem W6_keep (r : Ref sig .tc) (h : ∀ w, Pipeline.arrRef spec1 w ≠ r) : W6 m ρ c (Proc.devRef .tc r) = W5 m ρ c (Proc.devRef .tc r) :=
  W6_of_ne m ρ c r h
theorem W6_rows : (W6 m ρ c (Proc.devRef .tc main_v1) : IVec TE 32) = edgeRow 0 (by decide) (m ((c : Thread nD τ).loc main_arg1)) :=
  (W6_keep m ρ c main_v1 (by decide)).trans ((hostOps1_keep (W4 m ρ c) main_v1 (by decide)).trans (W4_rows m ρ c))
theorem W6_cols : (W6 m ρ c (Proc.devRef .tc main_v3) : IVec TE 32) = edgeRow 1 (by decide) (m ((c : Thread nD τ).loc main_arg1)) :=
  (W6_keep m ρ c main_v3 (by decide)).trans ((hostOps1_keep (W4 m ρ c) main_v3 (by decide)).trans (W4_cols m ρ c))
theorem W6_wts : (W6 m ρ c (Proc.devRef .tc main_v26) : FVec Ideal TE .f32) = wts (m ((c : Thread nD τ).loc main_arg1)) :=
  (W6_keep m ρ c main_v26 (by decide)).trans ((hostOps1_keep (W4 m ρ c) main_v26 (by decide)).trans (W4_wts m ρ c))
theorem W6_arg0 : W6 m ρ c (Proc.devRef .tc main_arg0) = (m ((c : Thread nD τ).loc main_arg0)) :=
  (W6_keep m ρ c main_arg0 (by decide)).trans ((hostOps1_keep (W4 m ρ c) main_arg0 (by decide)).trans (W4_arg0 m ρ c))
theorem W6_arg1 : W6 m ρ c (Proc.devRef .tc main_arg1) = (m ((c : Thread nD τ).loc main_arg1)) :=
  (W6_keep m ρ c main_arg1 (by decide)).trans ((hostOps1_keep (W4 m ρ c) main_arg1 (by decide)).trans (W4_arg1 m ρ c))
theorem W6_arg2 : W6 m ρ c (Proc.devRef .tc main_arg2) = (m ((c : Thread nD τ).loc main_arg2)) :=
  (W6_keep m ρ c main_arg2 (by decide)).trans ((hostOps1_keep (W4 m ρ c) main_arg2 (by decide)).trans (W4_arg2 m ρ c))
theorem W6_arg3 : W6 m ρ c (Proc.devRef .tc main_arg3) = (m ((c : Thread nD τ).loc main_arg3)) :=
  (W6_keep m ρ c main_arg3 (by decide)).trans ((hostOps1_keep (W4 m ρ c) main_arg3 (by decide)).trans (W4_arg3 m ρ c))
theorem W6_arg4 : W6 m ρ c (Proc.devRef .tc main_arg4) = (m ((c : Thread nD τ).loc main_arg4)) :=
  (W6_keep m ρ c main_arg4 (by decide)).trans ((hostOps1_keep (W4 m ρ c) main_arg4 (by decide)).trans (W4_arg4 m ρ c))
theorem W6_arg5 : W6 m ρ c (Proc.devRef .tc main_arg5) = (m ((c : Thread nD τ).loc main_arg5)) :=
  (W6_keep m ρ c main_arg5 (by decide)).trans ((hostOps1_keep (W4 m ρ c) main_arg5 (by decide)).trans (W4_arg5 m ρ c))
/-- The first launch's normalised output is still in place. -/
theorem W6_unit0 : (W6 m ρ c (Proc.devRef .tc main_v50_1) : FVec Ideal TN64 .f32) = LayerN (step 0 (by decide) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0))) :=
  (W6_keep m ρ c main_v50_1 (by decide)).trans ((hostOps1_keep (W4 m ρ c) main_v50_1 (by decide)).trans (W4_unit m ρ c))

theorem W7_prev : (W7 m ρ c (Proc.devRef .tc main_v74_0) : FVec Ideal TN64 .f32) = (step 1 (by decide) (m ((c : Thread nD τ).loc main_arg1)) (m ((c : Thread nD τ).loc main_arg2)) (m ((c : Thread nD τ).loc main_arg3)) (m ((c : Thread nD τ).loc main_arg4)) (m ((c : Thread nD τ).loc main_arg5)) (step 0 (by decide) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0)))) :=
  (hostOps2_keep (W6 m ρ c) main_v74_0 (by decide)).trans (W6_new m ρ c)
theorem W7_agg : (W7 m ρ c (Proc.devRef .tc main_v87) : FVec Ideal TN64 .f32) = agg (m ((c : Thread nD τ).loc main_arg1)) (step 1 (by decide) (m ((c : Thread nD τ).loc main_arg1)) (m ((c : Thread nD τ).loc main_arg2)) (m ((c : Thread nD τ).loc main_arg3)) (m ((c : Thread nD τ).loc main_arg4)) (m ((c : Thread nD τ).loc main_arg5)) (step 0 (by decide) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0)))) := by
  refine (hostOps2_agg (W6 m ρ c)).trans ?_
  rw [W6_wts, W6_rows, W6_cols, W6_new]
  rfl
theorem W7_wg : (W7 m ρ c (Proc.devRef .tc main_v89) : FVec Ideal T64x64 .f32) = matL 2 (by decide) (m ((c : Thread nD τ).loc main_arg2)) := by
  refine (hostOps2_wg (W6 m ρ c)).trans ?_
  rw [W6_arg2]
theorem W7_bg : (W7 m ρ c (Proc.devRef .tc main_v96) : FVec Ideal T1x64 .f32) = rowL 2 (by decide) (m ((c : Thread nD τ).loc main_arg3)) := by
  refine (hostOps2_bg (W6 m ρ c)).trans ?_
  rw [W6_arg3]
theorem W7_wi : (W7 m ρ c (Proc.devRef .tc main_v93) : FVec Ideal T64x64 .f32) = matL 2 (by decide) (m ((c : Thread nD τ).loc main_arg4)) := by
  refine (hostOps2_wi (W6 m ρ c)).trans ?_
  rw [W6_arg4]
theorem W7_bi : (W7 m ρ c (Proc.devRef .tc main_v97) : FVec Ideal T1x64 .f32) = rowL 2 (by decide) (m ((c : Thread nD τ).loc main_arg5)) := by
  refine (hostOps2_bi (W6 m ρ c)).trans ?_
  rw [W6_arg5]

/-! ## Launch 2 -/

theorem W8_new : (W8 m ρ c (Proc.devRef .tc main_v98_0) : FVec Ideal TN64 .f32) = (step 2 (by decide) (m ((c : Thread nD τ).loc main_arg1)) (m ((c : Thread nD τ).loc main_arg2)) (m ((c : Thread nD τ).loc main_arg3)) (m ((c : Thread nD τ).loc main_arg4)) (m ((c : Thread nD τ).loc main_arg5)) (step 1 (by decide) (m ((c : Thread nD τ).loc main_arg1)) (m ((c : Thread nD τ).loc main_arg2)) (m ((c : Thread nD τ).loc main_arg3)) (m ((c : Thread nD τ).loc main_arg4)) (m ((c : Thread nD τ).loc main_arg5)) (step 0 (by decide) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0))))) := by
  refine (W8_arr m ρ c 6).trans ?_
  rw [arr2_6_eq (V7 m ρ) (dat2 (V7 m ρ) c) (after2_6 (V7 m ρ) c)]
  unfold V7
  rw [W7_prev, W7_agg, W7_wg, W7_bg, W7_wi, W7_bi]
  rfl
theorem W8_unit : (W8 m ρ c (Proc.devRef .tc main_v98_1) : FVec Ideal TN64 .f32) = LayerN (step 2 (by decide) (m ((c : Thread nD τ).loc main_arg1)) (m ((c : Thread nD τ).loc main_arg2)) (m ((c : Thread nD τ).loc main_arg3)) (m ((c : Thread nD τ).loc main_arg4)) (m ((c : Thread nD τ).loc main_arg5)) (step 1 (by decide) (m ((c : Thread nD τ).loc main_arg1)) (m ((c : Thread nD τ).loc main_arg2)) (m ((c : Thread nD τ).loc main_arg3)) (m ((c : Thread nD τ).loc main_arg4)) (m ((c : Thread nD τ).loc main_arg5)) (step 0 (by decide) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0))))) := by
  refine (W8_arr m ρ c 7).trans ?_
  rw [arr2_7_eq (V7 m ρ) (dat2 (V7 m ρ) c) (after2_7 (V7 m ρ) c)]
  unfold V7
  rw [W7_prev, W7_agg, W7_wg, W7_bg, W7_wi, W7_bi]
  rfl

/-! ## The join -/

/-- The third launch changes its two output arrays only. -/
theorem W8_keep (r : Ref sig .tc) (h : ∀ w, Pipeline.arrRef spec2 w ≠ r) : W8 m ρ c (Proc.devRef .tc r) = W7 m ρ c (Proc.devRef .tc r) :=
  W8_of_ne m ρ c r h
theorem W8_arg0 : W8 m ρ c (Proc.devRef .tc main_arg0) = (m ((c : Thread nD τ).loc main_arg0)) :=
  (W8_keep m ρ c main_arg0 (by decide)).trans ((hostOps2_keep (W6 m ρ c) main_arg0 (by decide)).trans (W6_arg0 m ρ c))
theorem W8_unit0 : (W8 m ρ c (Proc.devRef .tc main_v50_1) : FVec Ideal TN64 .f32) = LayerN (step 0 (by decide) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0))) :=
  (W8_keep m ρ c main_v50_1 (by decide)).trans ((hostOps2_keep (W6 m ρ c) main_v50_1 (by decide)).trans (W6_unit0 m ρ c))
theorem W8_unit1 : (W8 m ρ c (Proc.devRef .tc main_v74_1) : FVec Ideal TN64 .f32) = LayerN (step 1 (by decide) (m ((c : Thread nD τ).loc main_arg1)) (m ((c : Thread nD τ).loc main_arg2)) (m ((c : Thread nD τ).loc main_arg3)) (m ((c : Thread nD τ).loc main_arg4)) (m ((c : Thread nD τ).loc main_arg5)) (step 0 (by decide) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0)))) :=
  (W8_keep m ρ c main_v74_1 (by decide)).trans ((hostOps2_keep (W6 m ρ c) main_v74_1 (by decide)).trans (W6_unit m ρ c))

/-- The kernel program's result array is the shared function of the arguments. -/
theorem kernel_value : (W9 m ρ c (Proc.devRef .tc main_v99) : FVec Ideal TN256 .f32)
    = Cert.Shared.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps3 (W8 m ρ c) (Proc.devRef .tc main_v99) = _
  after_results
  show concatenate S100000x256 1 [⟨S100000x64, W8 m ρ c (Proc.devRef .tc main_arg0)⟩, ⟨S100000x64, W8 m ρ c (Proc.devRef .tc main_v50_1)⟩,
    ⟨S100000x64, W8 m ρ c (Proc.devRef .tc main_v74_1)⟩, ⟨S100000x64, W8 m ρ c (Proc.devRef .tc main_v98_1)⟩]
    concatenates_S100000x64_S100000x64_S100000x64_S100000x64_S100000x256_d1 = _
  rw [W8_arg0, W8_unit0, W8_unit1, W8_unit]
  rfl

end Cert.KernelIdeal.Hand

end
-- ==== Proof.LibHostRow.lean ====
/-
  A bias row on the host: a length-n vector placed as the one row of a 1×n matrix (`broadcast_in_dim` with dims = [1]) and
  that row repeated down m rows (`broadcast_in_dim` with dims = [0, 1]) reads, at (r, c), the vector at c — the entry does
  not depend on the row r. General: any element type, any extents.
-/
import Idealize.ShloMosaic.Lib.Pipeline.Value
import Idealize.ShloMosaic.Lib.ValueIdx
import Idealize.ShloMosaic.Lib.KernelVsHost

namespace Cert.Lib.HostRow

open Idealize.ShloMosaic Idealize.ShloMosaic.ValueIdx

variable {α : Type}

/-- A length-n vector broadcast to 1×n along its own axis reads, at (u, c), the vector at c. -/
theorem vector_as_row_apply {n : ℕ} (h : (⟨1, ![n]⟩ : Shape).BroadcastsInDim ⟨2, ![1, n]⟩ ![1])
    (v : (⟨1, ![n]⟩ : Shape).Idx → α) (u : Fin 1) (c : Fin n) :
    broadcastInDim ⟨2, ![1, n]⟩ ![1] h v (ix2 u c) = v (ix1 c) := by
  refine broadcastInDim_apply ![1] h v (ix2 u c) (ix1 c) fun a => ?_
  match a with
  | ⟨0, _⟩ =>
    show c.val = if n = 1 then 0 else c.val
    split
    · have := c.isLt; omega
    · rfl

/-- A length-n vector broadcast to 1×n and then down m rows reads, at (r, c), the vector at c. -/
theorem row_down_rows_apply {m n : ℕ} (h1 : (⟨1, ![n]⟩ : Shape).BroadcastsInDim ⟨2, ![1, n]⟩ ![1])
    (h2 : (⟨2, ![1, n]⟩ : Shape).BroadcastsInDim ⟨2, ![m, n]⟩ ![0, 1])
    (v : (⟨1, ![n]⟩ : Shape).Idx → α) (r : Fin m) (c : Fin n) :
    broadcastInDim ⟨2, ![m, n]⟩ ![0, 1] h2 (broadcastInDim ⟨2, ![1, n]⟩ ![1] h1 v) (ix2 r c) = v (ix1 c) :=
  (broadcastInDim_oneRow_apply h2 _ r c).trans (vector_as_row_apply h1 v 0 c)

end Cert.Lib.HostRow
-- ==== Proof.RLayer.lean ====
/-
  The reference's layer, read at one entry, at the ideal values.

  On whole 100000×64 arrays the reference computes the two dense branches with dot_general and a bias vector broadcast
  to a row and then down the rows, the leaky rectifier as a select between z and slope·z on the comparison z ≥ 0, the sum
  of the two branches, and the row normalisation through a sum over the second axis kept as a column. Read at (r, c),
  each is the row formula of row r.
-/
import proofs.«125014_j7464653161107_1_alg».proof.ReferenceIdeal
import proofs.«125014_j7464653161107_1_alg».proof.Proof.Gen.ReferenceIdeal
import proofs.«125014_j7464653161107_1_alg».proof.Proof.Spec
import proofs.«125014_j7464653161107_1_alg».proof.Proof.LibPlainDot
import proofs.«125014_j7464653161107_1_alg».proof.Proof.LibHostRow
import proofs.«125014_j7464653161107_1_alg».proof.Proof.LibAxisFold
import Idealize.ShloMosaic.Lib.Pipeline.Value
import Idealize.ShloMosaic.Lib.ValueLayout
import Idealize.ShloMosaic.Lib.KernelVsHost

noncomputable section

open scoped BigOperators

namespace Cert.ReferenceIdeal.Hand

open Cert.ReferenceIdeal Cert.ReferenceIdeal.Gen Cert.Spec
open Idealize.ShloMosaic Idealize.ShloMosaic.ValueIdx

/-- The printed contraction record is the plain M×K by K×N one. -/
theorem dot_plain : dot_S100000x64_S64x64_S100000x64_1_0_0_1_n_n = DotDims.plain 100000 64 64 := rfl

/-- A scalar splat over any shape reads the scalar. -/
theorem splat_apply {t : Shape} (h : S_.BroadcastsInDim t (![] : Fin 0 → Fin t.rank)) (x : S_.Idx → EReal) (i : t.Idx) :
    broadcastInDim t ![] h x i = x ix0 :=
  broadcastInDim_apply ![] h x i ix0 (fun a => a.elim0)

/-- The host's leaky rectifier on a whole array, as the inlined callee spells it. -/
def lreluT (z : FVec Ideal S100000x64 .f32) (sl : FVec Ideal S_ .f32) : FVec Ideal S100000x64 .f32 :=
  select (cmpf .oge z (broadcastInDim S100000x64 ![] bcast_S_S100000x64 (constant S_ .f32 0x00000000#32))) z
    (mulf (broadcastInDim S100000x64 ![] bcast_S_S100000x64 (id sl)) z)

theorem lreluT_apply (z : FVec Ideal S100000x64 .f32) (i : S100000x64.Idx) :
    lreluT z (constant S_ .f32 0x3E4CCCCD#32) i = lrelu (z i) := by
  show Scalar.select (FloatOps.cmpf .oge (z i) (broadcastInDim S100000x64 ![] bcast_S_S100000x64 (constant S_ .f32 0x00000000#32) i)) (z i)
      (broadcastInDim S100000x64 ![] bcast_S_S100000x64 (id (constant S_ .f32 0x3E4CCCCD#32)) i * z i) = _
  rw [splat_apply, splat_apply]
  rfl

/-- One dense branch of the reference at (r, c). -/
theorem branch_apply (x : FVec Ideal S100000x64 .f32) (w : FVec Ideal S64x64 .f32) (b : FVec Ideal S64 .f32) (r : Fin 100000) (c : Fin 64) :
    addf (Host.dotGeneral dot_S100000x64_S64x64_S100000x64_1_0_0_1_n_n none x w)
        (broadcastInDim S100000x64 ![0, 1] bcast_S1x64_S100000x64_0_1 (broadcastInDim S1x64 ![1] bcast_S64_S1x64_1 b)) (ix2 r c)
      = dense (fun k => x (ix2 r k)) (fun k c => w (ix2 k c)) (fun c => b (ix1 c)) c := by
  show FloatOps.dotGeneral dot_S100000x64_S64x64_S100000x64_1_0_0_1_n_n none .single x w (ix2 r c)
      + broadcastInDim S100000x64 ![0, 1] bcast_S1x64_S100000x64_0_1 (broadcastInDim S1x64 ![1] bcast_S64_S1x64_1 b) (ix2 r c) = _
  rw [dot_plain, PlainDot.dotGeneral_apply, Cert.Lib.HostRow.row_down_rows_apply]
  rfl

/-- The reference's new features from the features h, the aggregate a and the layer's parameters. -/
def newR (h a : FVec Ideal S100000x64 .f32) (wg : FVec Ideal S64x64 .f32) (bg : FVec Ideal S64 .f32) (wi : FVec Ideal S64x64 .f32) (bi : FVec Ideal S64 .f32) :
    FVec Ideal S100000x64 .f32 :=
  addf (lreluT (addf (Host.dotGeneral dot_S100000x64_S64x64_S100000x64_1_0_0_1_n_n none a wg)
        (broadcastInDim S100000x64 ![0, 1] bcast_S1x64_S100000x64_0_1 (broadcastInDim S1x64 ![1] bcast_S64_S1x64_1 bg))) (constant S_ .f32 0x3E4CCCCD#32))
    (lreluT (addf (Host.dotGeneral dot_S100000x64_S64x64_S100000x64_1_0_0_1_n_n none (mulf h a) wi)
        (broadcastInDim S100000x64 ![0, 1] bcast_S1x64_S100000x64_0_1 (broadcastInDim S1x64 ![1] bcast_S64_S1x64_1 bi))) (constant S_ .f32 0x3E4CCCCD#32))

theorem newR_apply (h a : FVec Ideal S100000x64 .f32) (wg : FVec Ideal S64x64 .f32) (bg : FVec Ideal S64 .f32) (wi : FVec Ideal S64x64 .f32) (bi : FVec Ideal S64 .f32)
    (r : Fin 100000) (c : Fin 64) :
    newR h a wg bg wi bi (ix2 r c)
      = rowH (fun k => h (ix2 r k)) (fun k => a (ix2 r k)) (fun k c => wg (ix2 k c)) (fun c => bg (ix1 c)) (fun k c => wi (ix2 k c)) (fun c => bi (ix1 c)) c := by
  have hA := branch_apply a wg bg r c
  have hB : addf (Host.dotGeneral dot_S100000x64_S64x64_S100000x64_1_0_0_1_n_n none (mulf h a) wi)
        (broadcastInDim S100000x64 ![0, 1] bcast_S1x64_S100000x64_0_1 (broadcastInDim S1x64 ![1] bcast_S64_S1x64_1 bi)) (ix2 r c)
      = dense (fun k => h (ix2 r k) * a (ix2 r k)) (fun k c => wi (ix2 k c)) (fun c => bi (ix1 c)) c := branch_apply (mulf h a) wi bi r c
  show lreluT _ _ (ix2 r c) + lreluT _ _ (ix2 r c) = _
  rw [lreluT_apply, lreluT_apply, hA, hB]
  rfl

/-- Dropping the second axis of a 100000×64 array leaves the 100000 rows. -/
theorem reduces_rows : S100000x64.Reduces [1] S100000 := by decide

/-- The reference's row normalisation of a whole array. -/
def normR (x : FVec Ideal S100000x64 .f32) : FVec Ideal S100000x64 .f32 :=
  mulf x (broadcastInDim S100000x64 ![0, 1] bcast_S100000x1_S100000x64_0_1
    (Host.rsqrt (maximumf (broadcastInDim S100000x1 ![0] bcast_S100000_S100000x1_0
        (Host.reduceAdd (mulf x x) (constant S_ .f32 0x00000000#32) reducesTo_S100000x64_S100000_d1 h_S_))
      (broadcastInDim S100000x1 ![] bcast_S_S100000x1 (constant S_ .f32 0x2B8CBCCC#32)))))

set_option maxRecDepth 131072 in
theorem normR_apply (x : FVec Ideal S100000x64 .f32) (r : Fin 100000) (c : Fin 64) :
    normR x (ix2 r c) = rowN (fun k => x (ix2 r k)) c := by
  have hred : S100000x64.Reduces [1] S100000 := reduces_rows
  have h1 : broadcastInDim S100000x64 ![0, 1] bcast_S100000x1_S100000x64_0_1
      (Host.rsqrt (maximumf (broadcastInDim S100000x1 ![0] bcast_S100000_S100000x1_0
          (Host.reduceAdd (mulf x x) (constant S_ .f32 0x00000000#32) reducesTo_S100000x64_S100000_d1 h_S_))
        (broadcastInDim S100000x1 ![] bcast_S_S100000x1 (constant S_ .f32 0x2B8CBCCC#32)))) (ix2 r c)
      = Ideal.rsqrt (max (∑ k : Fin 64, x (ix2 r k) * x (ix2 r k)) eps) := by
    refine (broadcastInDim_apply ![0, 1] bcast_S100000x1_S100000x64_0_1 _ (ix2 r c) (ix2 r (0 : Fin 1)) (fun ax => ?_)).trans ?_
    · match ax with
      | ⟨0, _⟩ => show r.val = if (100000 : ℕ) = 1 then 0 else r.val; exact (if_neg (by norm_num)).symm
      | ⟨1, _⟩ => show (0 : ℕ) = if (1 : ℕ) = 1 then 0 else c.val; exact (if_pos rfl).symm
    · show Ideal.rsqrt (max (broadcastInDim S100000x1 ![0] bcast_S100000_S100000x1_0
          (Host.reduceAdd (mulf x x) (constant S_ .f32 0x00000000#32) reducesTo_S100000x64_S100000_d1 h_S_) (ix2 r (0 : Fin 1)))
        (broadcastInDim S100000x1 ![] bcast_S_S100000x1 (constant (F := Ideal) S_ .f32 0x2B8CBCCC#32) (ix2 r (0 : Fin 1)))) = _
      rw [splat_apply]
      have h2 : broadcastInDim S100000x1 ![0] bcast_S100000_S100000x1_0
          (Host.reduceAdd (mulf x x) (constant S_ .f32 0x00000000#32) reducesTo_S100000x64_S100000_d1 h_S_) (ix2 r (0 : Fin 1))
          = ∑ k : Fin 64, x (ix2 r k) * x (ix2 r k) := by
        refine (broadcastInDim_apply ![0] bcast_S100000_S100000x1_0 _ (ix2 r (0 : Fin 1)) (ix1 r) (fun ax => ?_)).trans ?_
        · match ax with
          | ⟨0, _⟩ => show r.val = if (100000 : ℕ) = 1 then 0 else r.val; exact (if_neg (by norm_num)).symm
        · show Ideal.hostReduceAdd reducesTo_S100000x64_S100000_d1 (mulf x x) _ (ix1 r) = _
          rw [Ideal.hostReduceAdd_single reducesTo_S100000x64_S100000_d1 hred]
          show Ideal.ofBits .f32 0x00000000#32 + _ = _
          rw [Ideal.ofBits_zero_f32, zero_add]
          exact Finset.sum_congr rfl fun k _ => congrArg (mulf x x) (AxisFold.lift_second hred r k)
      rw [h2]
      rfl
  show x (ix2 r c) * _ = _
  rw [h1]
  rfl

end Cert.ReferenceIdeal.Hand

end
-- ==== Proof.RValue.lean ====
import proofs.«125014_j7464653161107_1_alg».proof.Proof.RefRun
import proofs.«125014_j7464653161107_1_alg».proof.Proof.Shared
import proofs.«125014_j7464653161107_1_alg».proof.Proof.RLayer
import Idealize.ShloMosaic.Lib.ValueLayout

/-!
The reference's value: the fold of its host operations, read back to the shared function of the six arguments.

The operations are read in their five consecutive stretches, each over an arbitrary valuation of the buffers it is
given. The first stretch leaves the two rows of the edge table and the edge weights. Each layer's stretch leaves the
layer's new features — the layer as the reference spells it, `layerR`, of the features it is given, the weights, the
two rows and the layer's slices of the parameters — and those features with rows scaled to unit length. The last
operation joins the input features and the three scaled layers. Between the stretches every buffer a later stretch reads
is one no stretch in between writes. Entry by entry the reference's layer and its row scaling are the row formulas the
shared function is made of, so the joined array is the shared function of the launch contents of the arguments.
-/

noncomputable section

namespace Cert.ReferenceIdeal.Hand

open Cert.ReferenceIdeal Cert.ReferenceIdeal.Gen Cert.Spec
open Idealize.ShloMosaic Idealize.ShloMosaic.TcCoe Idealize.SL.Sem Idealize.ShloMosaic.StableHlo Idealize.ShloMosaic.ValueIdx

/-- The destination row of the edges, after the first stretch. -/
theorem W_v1 (V : Valuation τ sig (Elt Ideal)) :
    after (RefRun.opsWp (F := Ideal)) V (Proc.devRef .tc main_v1) = Shared.edgeRow 0 (by decide) (V (Proc.devRef .tc main_arg1)) := by
  after_results_simp
  rfl

/-- The source row of the edges, after the first stretch. -/
theorem W_v3 (V : Valuation τ sig (Elt Ideal)) :
    after (RefRun.opsWp (F := Ideal)) V (Proc.devRef .tc main_v3) = Shared.edgeRow 1 (by decide) (V (Proc.devRef .tc main_arg1)) := by
  after_results_simp
  rfl

/-- The edge weights, after the first stretch. -/
theorem W_v26 (V : Valuation τ sig (Elt Ideal)) :
    after (RefRun.opsWp (F := Ideal)) V (Proc.devRef .tc main_v26) = Shared.wts (V (Proc.devRef .tc main_arg1)) := by
  after_results_simp
  rfl

/-- One layer as the reference spells it: the new features from the features h, the edge weights w, the edges' destination
    and source rows and layer L's slices of the four parameters. -/
def layerR (L : ℕ) (hL : L < 3) (h : FVec Ideal S100000x64 .f32) (w : FVec Ideal S1600000 .f32) (rows cols : IVec S1600000 32)
    (g : FVec Ideal S3x64x64 .f32) (bg : FVec Ideal S3x64 .f32) (i : FVec Ideal S3x64x64 .f32) (bi : FVec Ideal S3x64 .f32) :
    FVec Ideal S100000x64 .f32 :=
  newR h (Shared.aggT w rows cols h) (Shared.matL L hL g) (Shared.vecL L hL bg) (Shared.matL L hL i) (Shared.vecL L hL bi)

set_option maxRecDepth 65536 in
/-- The first layer's stretch computes the layer's new features from the features it is given. -/
theorem L1_h (V : Valuation τ sig (Elt Ideal)) :
    after (RefRun.opsL1p (F := Ideal)) V (Proc.devRef .tc main_v59)
      = layerR 0 (by decide) (V (Proc.devRef .tc main_arg0)) (V (Proc.devRef .tc main_v26)) (V (Proc.devRef .tc main_v1)) (V (Proc.devRef .tc main_v3)) (V (Proc.devRef .tc main_arg2)) (V (Proc.devRef .tc main_arg3)) (V (Proc.devRef .tc main_arg4)) (V (Proc.devRef .tc main_arg5)) := by
  after_results_simp
  rfl

set_option maxRecDepth 65536 in
/-- … and their rows scaled to unit length. -/
theorem L1_n (V : Valuation τ sig (Elt Ideal)) :
    after (RefRun.opsL1p (F := Ideal)) V (Proc.devRef .tc main_v67)
      = normR (layerR 0 (by decide) (V (Proc.devRef .tc main_arg0)) (V (Proc.devRef .tc main_v26)) (V (Proc.devRef .tc main_v1)) (V (Proc.devRef .tc main_v3)) (V (Proc.devRef .tc main_arg2)) (V (Proc.devRef .tc main_arg3)) (V (Proc.devRef .tc main_arg4)) (V (Proc.devRef .tc main_arg5))) := by
  after_results_simp
  rfl

set_option maxRecDepth 65536 in
/-- The second layer's stretch computes the layer's new features from the features it is given. -/
theorem L2_h (V : Valuation τ sig (Elt Ideal)) :
    after (RefRun.opsL2p (F := Ideal)) V (Proc.devRef .tc main_v100)
      = layerR 1 (by decide) (V (Proc.devRef .tc main_v59)) (V (Proc.devRef .tc main_v26)) (V (Proc.devRef .tc main_v1)) (V (Proc.devRef .tc main_v3)) (V (Proc.devRef .tc main_arg2)) (V (Proc.devRef .tc main_arg3)) (V (Proc.devRef .tc main_arg4)) (V (Proc.devRef .tc main_arg5)) := by
  after_results_simp
  rfl

set_option maxRecDepth 65536 in
/-- … and their rows scaled to unit length. -/
theorem L2_n (V : Valuation τ sig (Elt Ideal)) :
    after (RefRun.opsL2p (F := Ideal)) V (Proc.devRef .tc main_v108)
      = normR (layerR 1 (by decide) (V (Proc.devRef .tc main_v59)) (V (Proc.devRef .tc main_v26)) (V (Proc.devRef .tc main_v1)) (V (Proc.devRef .tc main_v3)) (V (Proc.devRef .tc main_arg2)) (V (Proc.devRef .tc main_arg3)) (V (Proc.devRef .tc main_arg4)) (V (Proc.devRef .tc main_arg5))) := by
  after_results_simp
  rfl

set_option maxRecDepth 65536 in
/-- The third layer's stretch computes the layer's new features from the features it is given. -/
theorem L3_h (V : Valuation τ sig (Elt Ideal)) :
    after (RefRun.opsL3p (F := Ideal)) V (Proc.devRef .tc main_v141)
      = layerR 2 (by decide) (V (Proc.devRef .tc main_v100)) (V (Proc.devRef .tc main_v26)) (V (Proc.devRef .tc main_v1)) (V (Proc.devRef .tc main_v3)) (V (Proc.devRef .tc main_arg2)) (V (Proc.devRef .tc main_arg3)) (V (Proc.devRef .tc main_arg4)) (V (Proc.devRef .tc main_arg5)) := by
  after_results_simp
  rfl

set_option maxRecDepth 65536 in
/-- … and their rows scaled to unit length. -/
theorem L3_n (V : Valuation τ sig (Elt Ideal)) :
    after (RefRun.opsL3p (F := Ideal)) V (Proc.devRef .tc main_v149)
      = normR (layerR 2 (by decide) (V (Proc.devRef .tc main_v100)) (V (Proc.devRef .tc main_v26)) (V (Proc.devRef .tc main_v1)) (V (Proc.devRef .tc main_v3)) (V (Proc.devRef .tc main_arg2)) (V (Proc.devRef .tc main_arg3)) (V (Proc.devRef .tc main_arg4)) (V (Proc.devRef .tc main_arg5))) := by
  after_results_simp
  rfl

/-- A buffer outside what the stretch writes holds after it what it held before. -/
theorem keepW (V : Valuation τ sig (Elt Ideal)) {r : Ref sig .tc} (hr : r ∉ RefRun.writtenW) :
    after (RefRun.opsWp (F := Ideal)) V (Proc.devRef .tc r) = V (Proc.devRef .tc r) := by
  rw [← RefRun.opsW_plain]
  exact after_of_writes_sub _ V RefRun.opsW_writes hr

/-- A buffer outside what the stretch writes holds after it what it held before. -/
theorem keepL1 (V : Valuation τ sig (Elt Ideal)) {r : Ref sig .tc} (hr : r ∉ RefRun.writtenL1) :
    after (RefRun.opsL1p (F := Ideal)) V (Proc.devRef .tc r) = V (Proc.devRef .tc r) := by
  rw [← RefRun.opsL1_plain]
  exact after_of_writes_sub _ V RefRun.opsL1_writes hr

/-- A buffer outside what the stretch writes holds after it what it held before. -/
theorem keepL2 (V : Valuation τ sig (Elt Ideal)) {r : Ref sig .tc} (hr : r ∉ RefRun.writtenL2) :
    after (RefRun.opsL2p (F := Ideal)) V (Proc.devRef .tc r) = V (Proc.devRef .tc r) := by
  rw [← RefRun.opsL2_plain]
  exact after_of_writes_sub _ V RefRun.opsL2_writes hr

/-- A buffer outside what the stretch writes holds after it what it held before. -/
theorem keepL3 (V : Valuation τ sig (Elt Ideal)) {r : Ref sig .tc} (hr : r ∉ RefRun.writtenL3) :
    after (RefRun.opsL3p (F := Ideal)) V (Proc.devRef .tc r) = V (Proc.devRef .tc r) := by
  rw [← RefRun.opsL3_plain]
  exact after_of_writes_sub _ V RefRun.opsL3_writes hr

/-- The last operation joins the features and the three normalised layers along the feature axis. -/
theorem C_v150 (V : Valuation τ sig (Elt Ideal)) :
    after (RefRun.opsCp (F := Ideal)) V (Proc.devRef .tc main_v150)
      = concatenate S100000x256 1 [⟨S100000x64, V (Proc.devRef .tc main_arg0)⟩, ⟨S100000x64, V (Proc.devRef .tc main_v67)⟩,
          ⟨S100000x64, V (Proc.devRef .tc main_v108)⟩, ⟨S100000x64, V (Proc.devRef .tc main_v149)⟩]
          concatenates_S100000x64_S100000x64_S100000x64_S100000x64_S100000x256_d1 := by
  after_results_simp
  rfl

/-- A bias vector laid out as a one-row array reads, in its row, the vector. -/
theorem rowL_apply (L : ℕ) (hL : L < 3) (b : FVec Ideal Shared.T3x64 .f32) (c : Fin 64) :
    Shared.rowL L hL b (ix2 (0 : Fin 1) c) = Shared.vecL L hL b (ix1 c) :=
  shapeCast_a_1a_apply (Shared.vecL L hL b) Shared.scr 0 c

/-- The reference's layer is the shared layer: entry by entry both are the row formula of the entry's row. -/
theorem layerR_eq (L : ℕ) (hL : L < 3) (ei : IVec Shared.T2E 32) (g : FVec Ideal Shared.T3x64x64 .f32) (bg : FVec Ideal Shared.T3x64 .f32)
    (i : FVec Ideal Shared.T3x64x64 .f32) (bi : FVec Ideal Shared.T3x64 .f32) (h : FVec Ideal Shared.TN64 .f32) :
    layerR L hL h (Shared.wts ei) (Shared.edgeRow 0 (by decide) ei) (Shared.edgeRow 1 (by decide) ei) g bg i bi
      = Shared.step L hL ei g bg i bi h := by
  funext idx
  obtain ⟨r, c, rfl⟩ : ∃ (r : Fin 100000) (c : Fin 64), idx = ix2 r c := ⟨idx 0, idx 1, eq_ix2 idx⟩
  unfold layerR Shared.step Shared.agg
  rw [newR_apply, LayerH_ix2]
  simp only [rowL_apply]

/-- The reference's row normalisation is the shared one. -/
theorem normR_eq (x : FVec Ideal S100000x64 .f32) : normR x = LayerN x := by
  funext idx
  obtain ⟨r, c, rfl⟩ : ∃ (r : Fin 100000) (c : Fin 64), idx = ix2 r c := ⟨idx 0, idx 1, eq_ix2 idx⟩
  rw [normR_apply, LayerN_ix2]

set_option maxRecDepth 65536 in
/-- The reference's result is the shared function of the six arguments. -/
theorem ref_value (m : (ℓ : Loc nD τ sig) → Buf (Elt Ideal) ℓ) (d : Dev nD) :
    (StableHlo.after (RefRun.ops (F := Ideal)) (StableHlo.launchContents m d) (Proc.devRef .tc main_v150) : FVec Ideal Cert.Shared.TN256 .f32)
      = Cert.Shared.out (m ((d.tc : Thread nD τ).loc main_arg0)) (m ((d.tc : Thread nD τ).loc main_arg1)) (m ((d.tc : Thread nD τ).loc main_arg2))
          (m ((d.tc : Thread nD τ).loc main_arg3)) (m ((d.tc : Thread nD τ).loc main_arg4)) (m ((d.tc : Thread nD τ).loc main_arg5)) := by
  rw [RefRun.ops_plain, RefRun.after_concat, RefRun.after_concat, RefRun.after_concat, RefRun.after_concat, C_v150]
  rw [keepL3 _ (r := main_arg0) (by decide), keepL3 _ (r := main_v67) (by decide), keepL3 _ (r := main_v108) (by decide), L3_n]
  rw [keepL2 _ (r := main_arg0) (by decide), keepL2 _ (r := main_v67) (by decide), L2_n, L2_h,
    keepL2 _ (r := main_v26) (by decide), keepL2 _ (r := main_v1) (by decide), keepL2 _ (r := main_v3) (by decide), keepL2 _ (r := main_arg2) (by decide), keepL2 _ (r := main_arg3) (by decide), keepL2 _ (r := main_arg4) (by decide), keepL2 _ (r := main_arg5) (by decide)]
  rw [keepL1 _ (r := main_arg0) (by decide), L1_n, L1_h,
    keepL1 _ (r := main_v26) (by decide), keepL1 _ (r := main_v1) (by decide), keepL1 _ (r := main_v3) (by decide), keepL1 _ (r := main_arg2) (by decide), keepL1 _ (r := main_arg3) (by decide), keepL1 _ (r := main_arg4) (by decide), keepL1 _ (r := main_arg5) (by decide)]
  rw [W_v26, W_v1, W_v3, keepW _ (r := main_arg0) (by decide), keepW _ (r := main_arg2) (by decide), keepW _ (r := main_arg3) (by decide), keepW _ (r := main_arg4) (by decide), keepW _ (r := main_arg5) (by decide)]
  rw [layerR_eq 0, layerR_eq 1, layerR_eq 2, normR_eq, normR_eq, normR_eq]
  rfl

end Cert.ReferenceIdeal.Hand

end
-- ==== Proof.lean ====
/-
  A three-layer graph-convolution forward pass on 100000 nodes with 64 features and 1600000 edges.

  Both programs compute on the host every node's degree from the edge list, its reciprocal square root where the
  degree is positive and zero elsewhere, and from those a weight per edge.  Then, three times: the features h are
  aggregated over the edges (gather the source rows, scale by the edge weights, scatter-add at the destination rows)
  into a, and every row becomes
      new(c) = lrelu(Σ_k a(k)·Wg(k,c) + bg(c)) + lrelu(Σ_k (h(k)·a(k))·Wi(k,c) + bi(c)),   lrelu(z) = z if z ≥ 0, else 0.2·z,
  with that layer's 64×64 matrices and biases, the row scaled by rsqrt(max(Σ_k new(k)², ε)) being the layer's output.
  The result is the input features and the three layers' scaled rows side by side (100000×256).  The reference does all
  of it in host operations; the kernel program aggregates on the host and applies the row formula in a kernel launched
  once per layer over 20 blocks of 5000 rows, each block computed from the same rows of h and a and the whole
  matrices and biases.  Over the extended reals a change of float format is the identity and every operation is the
  exact one, so a block's rows are the row formula of those rows and the blocks tile the array: both results are the
  same function of the six arguments (`Cert.Shared.out`), hence equal entry by entry, with no finiteness of the inputs
  needed.  Each program terminates from any memory and writes none of its arguments; the ideal pass rewrote nothing.
-/
import proofs.«125014_j7464653161107_1_alg».proof.Defs
import proofs.«125014_j7464653161107_1_alg».proof.Proof.Gen.Kernel
import proofs.«125014_j7464653161107_1_alg».proof.Proof.Gen.Kernel.Skeleton
import proofs.«125014_j7464653161107_1_alg».proof.Proof.Gen.Kernel.Launch
import proofs.«125014_j7464653161107_1_alg».proof.Proof.Gen.Kernel.Regions
import proofs.«125014_j7464653161107_1_alg».proof.Proof.Gen.Kernel.Points
import proofs.«125014_j7464653161107_1_alg».proof.Proof.Gen.KernelIdeal
import proofs.«125014_j7464653161107_1_alg».proof.Proof.Gen.KernelIdeal.Skeleton
import proofs.«125014_j7464653161107_1_alg».proof.Proof.Gen.KernelIdeal.Launch
import proofs.«125014_j7464653161107_1_alg».proof.Proof.Gen.KernelIdeal.Regions
import proofs.«125014_j7464653161107_1_alg».proof.Proof.Gen.KernelIdeal.Points
import proofs.«125014_j7464653161107_1_alg».proof.Proof.Gen.ReferenceIdeal
import proofs.«125014_j7464653161107_1_alg».proof.Proof.Gen.Pre_finite_inputs
import proofs.«125014_j7464653161107_1_alg».proof.Proof.Assemble
import proofs.«125014_j7464653161107_1_alg».proof.Proof.KIChain
import proofs.«125014_j7464653161107_1_alg».proof.Proof.RValue
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Assemble.frame_k, Assemble.frame_ki, Assemble.frame_ri, Assemble.preserves,
  Assemble.algebraic_of Cert.KernelIdeal.Hand.kernel_value Cert.ReferenceIdeal.Hand.ref_value⟩

end Cert.Proof

end
